-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x12 : Shape := ⟨2, ![262144, 12]⟩
abbrev S128x12 : Shape := ⟨2, ![128, 12]⟩
abbrev S128 : Shape := ⟨1, ![128]⟩
abbrev S32x128 : Shape := ⟨2, ![32, 128]⟩
abbrev S32 : Shape := ⟨1, ![32]⟩
abbrev S78x32 : Shape := ⟨2, ![78, 32]⟩
abbrev S78 : Shape := ⟨1, ![78]⟩
abbrev S_ : Shape := ⟨0, ![]⟩

class Facts : Prop where
  bcast_S_S262144x12 : S_.BroadcastsInDim S262144x12 (![] : Fin 0 → Fin S262144x12.rank)
  reducesTo_S262144x12_S_d0_1 : S262144x12.ReducesTo [0, 1] S_
  h_S_ : 0 < S_.numel
  bcast_S_S128x12 : S_.BroadcastsInDim S128x12 (![] : Fin 0 → Fin S128x12.rank)
  reducesTo_S128x12_S_d0_1 : S128x12.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S78x32 : S_.BroadcastsInDim S78x32 (![] : Fin 0 → Fin S78x32.rank)
  reducesTo_S78x32_S_d0_1 : S78x32.ReducesTo [0, 1] S_
  bcast_S_S78 : S_.BroadcastsInDim S78 (![] : Fin 0 → Fin S78.rank)
  reducesTo_S78_S_d0 : S78.ReducesTo [0] S_

variable [Facts]

def fn_part1 {F : FTy → Type} [FloatOps F] (main_arg4 : FVec F S32 .f32) (main_arg5 : FVec F S78x32 .f32) (main_arg6 : FVec F S78 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S78x32 .f32 := Host.absf main_arg5
  let main_cst_8 : FVec F S_ .f32 := constant S_ .f32 0x7F800000#32
  let main_v25 : FVec F S78x32 .f32 := broadcastInDim S78x32 ![] bcast_S_S78x32 main_cst_8
  let main_v26 : IVec S78x32 1 := cmpf .olt main_v24 main_v25
  let main_c_9 : IVec S_ 1 := constantI S_ 1 1#1
  let main_v27 : IVec S_ 1 := (fun x v => Host.reduce IntOp.andi x v reducesTo_S78x32_S_d0_1 h_S_) main_v26 main_c_9
  let main_v28 : IVec S_ 1 := andi main_v23 main_v27
  let main_v29 : FVec F S78 .f32 := Host.absf main_arg6
  let main_cst_10 : FVec F S_ .f32 := constant S_ .f32 0x7F800000#32
  let main_v30 : FVec F S78 .f32 := broadcastInDim S78 ![] bcast_S_S78 main_cst_10
  let main_v31 : IVec S78 1 := cmpf .olt main_v29 main_v30
  let main_c_11 : IVec S_ 1 := constantI S_ 1 1#1
  let main_v32 : IVec S_ 1 := (fun x v => Host.reduce IntOp.andi x v reducesTo_S78_S_d0 h_S_) main_v31 main_c_11
  let main_v33 : IVec S_ 1 := andi main_v28 main_v32
  main_v33

def fn {F : FTy → Type} [FloatOps F] (main_arg0 : FVec F S262144x12 .f32) (main_arg1 : FVec F S128x12 .f32) (main_arg2 : FVec F S128 .f32) (main_arg3 : FVec F S32x128 .f32) (main_arg4 : FVec F S32 .f32) (main_arg5 : FVec F S78x32 .f32) (main_arg6 : FVec F S78 .f32) : IVec S_ 1 :=
  let main_v0 : FVec F S262144x12 .f32 := Host.absf main_arg0
  let main_cst : FVec F S_ .f32 := constant S_ .f32 0x7F800000#32
  let main_v1 : FVec F S262144x12 .f32 := broadcastInDim S262144x12 ![] bcast_S_S262144x12 main_cst
  let main_v2 : IVec S262144x12 1 := cmpf .olt main_v0 main_v1
  let main_c : IVec S_ 1 := constantI S_ 1 1#1
  let main_v3 : IVec S_ 1 := (fun x v => Host.reduce IntOp.andi x v reducesTo_S262144x12_S_d0_1 h_S_) main_v2 main_c
  let main_v4 : FVec F S128x12 .f32 := Host.absf main_arg1
  let main_cst_0 : FVec F S_ .f32 := constant S_ .f32 0x7F800000#32
  let main_v5 : FVec F S128x12 .f32 := broadcastInDim S128x12 ![] bcast_S_S128x12 main_cst_0
  let main_v6 : IVec S128x12 1 := cmpf .olt main_v4 main_v5
  let main_c_1 : IVec S_ 1 := constantI S_ 1 1#1
  let main_v7 : IVec S_ 1 := (fun x v => Host.reduce IntOp.andi x v reducesTo_S128x12_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_v13 main_v16
-- ==== Kernel.lean ====
abbrev S262144x12 : Shape := ⟨2, ![262144, 12]⟩
abbrev S128x12 : Shape := ⟨2, ![128, 12]⟩
abbrev S128 : Shape := ⟨1, ![128]⟩
abbrev S32x128 : Shape := ⟨2, ![32, 128]⟩
abbrev S32 : Shape := ⟨1, ![32]⟩
abbrev S78x32 : Shape := ⟨2, ![78, 32]⟩
abbrev S78 : Shape := ⟨1, ![78]⟩
abbrev S12x128 : Shape := ⟨2, ![12, 128]⟩
abbrev S128x32 : Shape := ⟨2, ![128, 32]⟩
abbrev S32x78 : Shape := ⟨2, ![32, 78]⟩
abbrev S262144x12x12 : Shape := ⟨3, ![262144, 12, 12]⟩
abbrev S512x12 : Shape := ⟨2, ![512, 12]⟩
abbrev S512x12x12 : Shape := ⟨3, ![512, 12, 12]⟩
abbrev S512x128 : Shape := ⟨2, ![512, 128]⟩
abbrev S1x128 : Shape := ⟨2, ![1, 128]⟩
abbrev S512x32 : Shape := ⟨2, ![512, 32]⟩
abbrev S1x32 : Shape := ⟨2, ![1, 32]⟩
abbrev S512x78 : Shape := ⟨2, ![512, 78]⟩
abbrev S1x78 : Shape := ⟨2, ![1, 78]⟩
abbrev S512x1 : Shape := ⟨2, ![512, 1]⟩
abbrev S512x11 : Shape := ⟨2, ![512, 11]⟩
abbrev S512x2 : Shape := ⟨2, ![512, 2]⟩
abbrev S512x10 : Shape := ⟨2, ![512, 10]⟩
abbrev S512x3 : Shape := ⟨2, ![512, 3]⟩
abbrev S512x9 : Shape := ⟨2, ![512, 9]⟩
abbrev S512x4 : Shape := ⟨2, ![512, 4]⟩
abbrev S512x8 : Shape := ⟨2, ![512, 8]⟩
abbrev S512x5 : Shape := ⟨2, ![512, 5]⟩
abbrev S512x7 : Shape := ⟨2, ![512, 7]⟩
abbrev S512x6 : Shape := ⟨2, ![512, 6]⟩
abbrev S512x1x12 : Shape := ⟨3, ![512, 1, 12]⟩

abbrev nBuf : Space → Nat
  | .hbm => 14
  | .vmem => 10
  | .smem => 0
  | _ => 0

abbrev bufTy : (tb : Table) → Fin (tcTables nBuf tb) → BufTy
  | .hbm, ⟨0, _⟩ => ⟨S262144x12, .f32⟩
  | .hbm, ⟨1, _⟩ => ⟨S128x12, .f32⟩
  | .hbm, ⟨2, _⟩ => ⟨S128, .f32⟩
  | .hbm, ⟨3, _⟩ => ⟨S32x128, .f32⟩
  | .hbm, ⟨4, _⟩ => ⟨S32, .f32⟩
  | .hbm, ⟨5, _⟩ => ⟨S78x32, .f32⟩
  | .hbm, ⟨6, _⟩ => ⟨S78, .f32⟩
  | .hbm, ⟨7, _⟩ => ⟨S12x128, .f32⟩
  | .hbm, ⟨8, _⟩ => ⟨S12x128, .bf16⟩
  | .hbm, ⟨9, _⟩ => ⟨S128x32, .f32⟩
  | .hbm, ⟨10, _⟩ => ⟨S128x32, .bf16⟩
  | .hbm, ⟨11, _⟩ => ⟨S32x78, .f32⟩
  | .hbm, ⟨12, _⟩ => ⟨S32x78, .bf16⟩
  | .hbm, ⟨13, _⟩ => ⟨S262144x12x12, .f32⟩
  | .local _ .vmem, ⟨0, _⟩ => ⟨S512x12, .f32⟩
  | .local _ .vmem, ⟨1, _⟩ => ⟨S512x12, .f32⟩
  | .local _ .vmem, ⟨2, _⟩ => ⟨S12x128, .bf16⟩
  | .local _ .vmem, ⟨3, _⟩ => ⟨S128, .f32⟩
  | .local _ .vmem, ⟨4, _⟩ => ⟨S128x32, .bf16⟩
  | .local _ .vmem, ⟨5, _⟩ => ⟨S32, .f32⟩
  | .local _ .vmem, ⟨6, _⟩ => ⟨S32x78, .bf16⟩
  | .local _ .vmem, ⟨7, _⟩ => ⟨S78, .f32⟩
  | .local _ .vmem, ⟨8, _⟩ => ⟨S512x12x12, .f32⟩
  | .local _ .vmem, ⟨9, _⟩ => ⟨S512x12x12, .f32⟩
  | _, _ => ⟨S262144x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x78 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S78 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x12x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x12_S12x128_1_0 : S128x12.Transposes [1, 0] S12x128
  bitsLt_bf16_f32 : FTy.bits .bf16 < FTy.bits .f32
  transposes_S32x128_S128x32_1_0 : S32x128.Transposes [1, 0] S128x32
  transposes_S78x32_S32x78_1_0 : S78x32.Transposes [1, 0] S32x78
  inb_S512x12_S512x12_0_0 : ∀ a, (![0, 0] : Fin 2 → Nat) a + S512x12.size a ≤ S512x12.size a
  h_S512x12 : 0 < S512x12.numel
  inb_S12x128_S12x128_0_0 : ∀ a, (![0, 0] : Fin 2 → Nat) a + S12x128.size a ≤ S12x128.size a
  h_S12x128 : 0 < S12x128.numel
  shapeCasts_S12x128_S12x128 : S12x128.ShapeCasts S12x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S32x78_S32x78_0_0 : ∀ a, (![0, 0] : Fin 2 → Nat) a + S32x78.size a ≤ S32x78.size a
  h_S32x78 : 0 < S32x78.numel
  shapeCasts_S32x78_S32x78 : S32x78.ShapeCasts S32x78
  inb_S78_S78_0 : ∀ a, (![0] : Fin 1 → Nat) a + S78.size a ≤ S78.size a
  h_S78 : 0 < S78.numel
  shapeCasts_S78_S1x78 : S78.ShapeCasts S1x78
  broadcasts_S1x78_S512x78 : S1x78.Broadcasts S512x78
  slices_S512x78_o0_0_S512x1 : S512x78.Slices ![0, 0] S512x1
  concatenates_S512x1_S512x11_S512x12_d1 : Shape.Concatenates [S512x1, S512x11] S512x12 1
  slices_S512x78_o0_1_S512x2 : S512x78.Slices ![0, 1] S512x2
  concatenates_S512x2_S512x10_S512x12_d1 : Shape.Concatenates [S512x2, S512x10] S512x12 1
  slices_S512x78_o0_3_S512x3 : S512x78.Slices ![0, 3] S512x3
  concatenates_S512x3_S512x9_S512x12_d1 : Shape.Concatenates [S512x3, S512x9] S512x12 1
  slices_S512x78_o0_6_S512x4 : S512x78.Slices ![0, 6] S512x4
  concatenates_S512x4_S512x8_S512x12_d1 : Shape.Concatenates [S512x4, S512x8] S512x12 1
  slices_S512x78_o0_10_S512x5 : S512x78.Slices ![0, 10] S512x5
  concatenates_S512x5_S512x7_S512x12_d1 : Shape.Concatenates [S512x5, S512x7] S512x12 1
  slices_S512x78_o0_15_S512x6 : S512x78.Slices ![0, 15] S512x6
  concatenates_S512x6_S512x6_S512x12_d1 : Shape.Concatenates [S512x6, S512x6] S512x12 1
  slices_S512x78_o0_21_S512x7 : S512x78.Slices ![0, 21] S512x7
  concatenates_S512x7_S512x5_S512x12_d1 : Shape.Concatenates [S512x7, S512x5] S512x12 1
  slices_S512x78_o0_28_S512x8 : S512x78.Slices ![0, 28] S512x8
  concatenates_S512x8_S512x4_S512x12_d1 : Shape.Concatenates [S512x8, S512x4] S512x12 1
  slices_S512x78_o0_36_S512x9 : S512x78.Slices ![0, 36] S512x9
  concatenates_S512x9_S512x3_S512x12_d1 : Shape.Concatenates [S512x9, S512x3] S512x12 1
  slices_S512x78_o0_45_S512x10 : S512x78.Slices ![0, 45] S512x10
  concatenates_S512x10_S512x2_S512x12_d1 : Shape.Concatenates [S512x10, S512x2] S512x12 1
  slices_S512x78_o0_55_S512x11 : S512x78.Slices ![0, 55] S512x11
  concatenates_S512x11_S512x1_S512x12_d1 : Shape.Concatenates [S512x11, S512x1] S512x12 1
  slices_S512x78_o0_66_S512x12 : S512x78.Slices ![0, 66] S512x12
  shapeCasts_S512x12_S512x1x12 : S512x12.ShapeCasts S512x1x12
  concatenates_S512x1x12_S512x1x12_S512x1x12_S512x1x12_S512x1x12_S512x1x12_S512x1x12_S512x1x12_S512x1x12_S512x1x12_S512x1x12_S512x1x12_S512x12x12_d1 : Shape.Concatenates [S512x1x12, S512x1x12, S512x1x12, S512x1x12, S512x1x12, S512x1x12, S512x1x12, S512x1x12, S512x1x12, S512x1x12, S512x1x12, S512x1x12] S512x12x12 1
  inb_S512x12x12_S512x12x12_0_0_0 : ∀ a, (![0, 0, 0] : Fin 3 → Nat) a + S512x12x12.size a ≤ S512x12x12.size a
  h_S512x12x12 : 0 < S512x12x12.numel
  dot_S512x12_S12x128_S512x128_1_0_0_1_n_n_wf : DotDims.WF S512x12 S12x128 S512x128 [1] [0] [0] [1] [] []
  dot_S512x128_S128x32_S512x32_1_0_0_1_n_n_wf : DotDims.WF S512x128 S128x32 S512x32 [1] [0] [0] [1] [] []
  dot_S512x32_S32x78_S512x78_1_0_0_1_n_n_wf : DotDims.WF S512x32 S32x78 S512x78 [1] [0] [0] [1] [] []
  dot_S512x12x12_S512x12x12_S512x12x12_2_2_1_1_0_0_wf : DotDims.WF S512x12x12 S512x12x12 S512x12x12 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x12.size a ≤ S262144x12.size a
  hwx0_0 : ∀ i : grid0.Coords, EltTy.bits .f32 = 32 ∨ (Rect.block (s := S262144x12) S512x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x128.size a ≤ S12x128.size a
  hwx0_1 : ∀ i : grid0.Coords, EltTy.bits .bf16 = 32 ∨ (Rect.block (s := S12x128) S12x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .bf16 = 32 ∨ (Rect.block (s := S128x32) S128x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x78.size a ≤ S32x78.size a
  hwx0_5 : ∀ i : grid0.Coords, EltTy.bits .bf16 = 32 ∨ (Rect.block (s := S32x78) S32x78.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S78.size a ≤ S78.size a
  hwx0_6 : ∀ i : grid0.Coords, EltTy.bits .f32 = 32 ∨ (Rect.block (s := S78) S78.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x12x12.size a ≤ S262144x12x12.size a
  hwx0_7 : ∀ i : grid0.Coords, EltTy.bits .f32 = 32 ∨ (Rect.block (s := S262144x12x12) S512x12x12.size (cc0_transform_7 i) (hinb0_7 i)).WholeWords (EltTy.packing .f32)

variable [Facts₀]

def dot_S512x12_S12x128_S512x128_1_0_0_1_n_n : DotDims S512x12 S12x128 S512x128 where
  lhsContracting := [1]
  rhsContracting := [0]
  lhsNonContracting := [0]
  rhsNonContracting := [1]
  lhsBatch := []
  rhsBatch := []
  wf := dot_S512x12_S12x128_S512x128_1_0_0_1_n_n_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x32_S32x78_S512x78_1_0_0_1_n_n : DotDims S512x32 S32x78 S512x78 where
  lhsContracting := [1]
  rhsContracting := [0]
  lhsNonContracting := [0]
  rhsNonContracting := [1]
  lhsBatch := []
  rhsBatch := []
  wf := dot_S512x32_S32x78_S512x78_1_0_0_1_n_n_wf
def dot_S512x12x12_S512x12x12_S512x12x12_2_2_1_1_0_0 : DotDims S512x12x12 S512x12x12 S512x12x12 where
  lhsContracting := [2]
  rhsContracting := [2]
  lhsNonContracting := [1]
  rhsNonContracting := [1]
  lhsBatch := [0]
  rhsBatch := [0]
  wf := dot_S512x12x12_S512x12x12_S512x12x12_2_2_1_1_0_0_wf

abbrev win0_0 : Pipeline.Window sig grid0 :=
  Pipeline.Window.ofSpec (Memref.whole main_arg0) S512x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32x78.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S78.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x12x12.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x12 : Shape := ⟨2, ![262144, 12]⟩
abbrev S128x12 : Shape := ⟨2, ![128, 12]⟩
abbrev S128 : Shape := ⟨1, ![128]⟩
abbrev S32x128 : Shape := ⟨2, ![32, 128]⟩
abbrev S32 : Shape := ⟨1, ![32]⟩
abbrev S78x32 : Shape := ⟨2, ![78, 32]⟩
abbrev S78 : Shape := ⟨1, ![78]⟩
abbrev S12x128 : Shape := ⟨2, ![12, 128]⟩
abbrev S262144x128 : Shape := ⟨2, ![262144, 128]⟩
abbrev S1x128 : Shape := ⟨2, ![1, 128]⟩
abbrev S_ : Shape := ⟨0, ![]⟩
abbrev S128x32 : Shape := ⟨2, ![128, 32]⟩
abbrev S262144x32 : Shape := ⟨2, ![262144, 32]⟩
abbrev S1x32 : Shape := ⟨2, ![1, 32]⟩
abbrev S32x78 : Shape := ⟨2, ![32, 78]⟩
abbrev S262144x78 : Shape := ⟨2, ![262144, 78]⟩
abbrev S1x78 : Shape := ⟨2, ![1, 78]⟩
abbrev S12x12 : Shape := ⟨2, ![12, 12]⟩
abbrev S144 : Shape := ⟨1, ![144]⟩
abbrev S144x1 : Shape := ⟨2, ![144, 1]⟩
abbrev S262144x12x12 : Shape := ⟨3, ![262144, 12, 12]⟩
abbrev S78x1 : Shape := ⟨2, ![78, 1]⟩
abbrev S78x2 : Shape := ⟨2, ![78, 2]⟩

abbrev nBuf : Space → Nat
  | .hbm => 204
  | .vmem => 0
  | .smem => 0
  | _ => 0

abbrev hbmTy0_0 (i : Nat) : BufTy := match i % 128 with
  | 0 => ⟨S262144x12, .f32⟩
  | 1 => ⟨S128x12, .f32⟩
  | 2 => ⟨S128, .f32⟩
  | 3 => ⟨S32x128, .f32⟩
  | 4 => ⟨S32, .f32⟩
  | 5 => ⟨S78x32, .f32⟩
  | 6 => ⟨S78, .f32⟩
  | 7 => ⟨S12x128, .f32⟩
  | 8 => ⟨S262144x128, .f32⟩
  | 9 => ⟨S1x128, .f32⟩
  | 10 => ⟨S262144x128, .f32⟩
  | 11 => ⟨S262144x128, .f32⟩
  | 12 => ⟨S_, .f32⟩
  | 13 => ⟨S262144x128, .f32⟩
  | 14 => ⟨S262144x128, .i1⟩
  | 15 => ⟨S_, .f32⟩
  | 16 => ⟨S262144x128, .f32⟩
  | 17 => ⟨S262144x128, .i1⟩
  | 18 => ⟨S_, .f32⟩
  | 19 => ⟨S_, .f32⟩
  | 20 => ⟨S262144x128, .f32⟩
  | 21 => ⟨S262144x128, .f32⟩
  | 22 => ⟨S262144x128, .f32⟩
  | 23 => ⟨S_, .f32⟩
  | 24 => ⟨S262144x128, .f32⟩
  | 25 => ⟨S262144x128, .f32⟩
  | 26 => ⟨S262144x128, .f32⟩
  | 27 => ⟨S128x32, .f32⟩
  | 28 => ⟨S262144x32, .f32⟩
  | 29 => ⟨S1x32, .f32⟩
  | 30 => ⟨S262144x32, .f32⟩
  | 31 => ⟨S262144x32, .f32⟩
  | 32 => ⟨S_, .f32⟩
  | 33 => ⟨S262144x32, .f32⟩
  | 34 => ⟨S262144x32, .i1⟩
  | 35 => ⟨S_, .f32⟩
  | 36 => ⟨S262144x32, .f32⟩
  | 37 => ⟨S262144x32, .i1⟩
  | 38 => ⟨S_, .f32⟩
  | 39 => ⟨S_, .f32⟩
  | 40 => ⟨S262144x32, .f32⟩
  | 41 => ⟨S262144x32, .f32⟩
  | 42 => ⟨S262144x32, .f32⟩
  | 43 => ⟨S_, .f32⟩
  | 44 => ⟨S262144x32, .f32⟩
  | 45 => ⟨S262144x32, .f32⟩
  | 46 => ⟨S262144x32, .f32⟩
  | 47 => ⟨S32x78, .f32⟩
  | 48 => ⟨S262144x78, .f32⟩
  | 49 => ⟨S1x78, .f32⟩
  | 50 => ⟨S262144x78, .f32⟩
  | 51 => ⟨S262144x78, .f32⟩
  | 52 => ⟨S_, .f32⟩
  | 53 => ⟨S262144x78, .f32⟩
  | 54 => ⟨S262144x78, .f32⟩
  | 55 => ⟨S262144x78, .f32⟩
  | 56 => ⟨S262144x78, .f32⟩
  | 57 => ⟨S262144x78, .i1⟩
  | 58 => ⟨S262144x78, .f32⟩
  | 59 => ⟨S262144x78, .f32⟩
  | 60 => ⟨S262144x78, .f32⟩
  | 61 => ⟨S262144x78, .f32⟩
  | 62 => ⟨S262144x78, .f32⟩
  | 63 => ⟨S262144x78, .f32⟩
  | 64 => ⟨S262144x78, .f32⟩
  | 65 => ⟨S262144x78, .f32⟩
  | 66 => ⟨S_, .f32⟩
  | 67 => ⟨S12x12, .f32⟩
  | 68 => ⟨S12x12, .i32⟩
  | 69 => ⟨S_, .i32⟩
  | 70 => ⟨S12x12, .i32⟩
  | 71 => ⟨S12x12, .i32⟩
  | 72 => ⟨S12x12, .i32⟩
  | 73 => ⟨S12x12, .i1⟩
  | 74 => ⟨S_, .f32⟩
  | 75 => ⟨S12x12, .f32⟩
  | 76 => ⟨S12x12, .f32⟩
  | 77 => ⟨S_, .f32⟩
  | 78 => ⟨S12x12, .f32⟩
  | 79 => ⟨S12x12, .i1⟩
  | 80 => ⟨S144, .i1⟩
  | 81 => ⟨S144, .i32⟩
  | 82 => ⟨S_, .i32⟩
  | 83 => ⟨S_, .i32⟩
  | 84 => ⟨S144, .i32⟩
  | 85 => ⟨S_, .i32⟩
  | 86 => ⟨S78, .i32⟩
  | 87 => ⟨S_, .i32⟩
  | 88 => ⟨S_, .i32⟩
  | 89 => ⟨S144, .i32⟩
  | 90 => ⟨S144, .i32⟩
  | 91 => ⟨S_, .i32⟩
  | 92 => ⟨S144, .i32⟩
  | 93 => ⟨S144, .i1⟩
  | 94 => ⟨S_, .i32⟩
  | 95 => ⟨S144, .i32⟩
  | 96 => ⟨S144, .i32⟩
  | 97 => ⟨S144, .i32⟩
  | 98 => ⟨S144x1, .i32⟩
  | 99 => ⟨S_, .i32⟩
  | 100 => ⟨S144, .i32⟩
  | 101 => ⟨S78, .i32⟩
  | 102 => ⟨S_, .i32⟩
  | 103 => ⟨S_, .i32⟩
  | 104 => ⟨S78, .i32⟩
  | 105 => ⟨S_, .i32⟩
  | 106 => ⟨S78, .i32⟩
  | 107 => ⟨S78, .i32⟩
  | 108 => ⟨S78, .i32⟩
  | 109 => ⟨S_, .i32⟩
  | 110 => ⟨S78, .i32⟩
  | 111 => ⟨S78, .i1⟩
  | 112 => ⟨S78, .i32⟩
  | 113 => ⟨S78, .i32⟩
  | 114 => ⟨S_, .i32⟩
  | 115 => ⟨S78, .i32⟩
  | 116 => ⟨S78, .i1⟩
  | 117 => ⟨S78, .i1⟩
  | 118 => ⟨S_, .i32⟩
  | 119 => ⟨S78, .i32⟩
  | 120 => ⟨S78, .i32⟩
  | 121 => ⟨S78, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S262144x12, .f32⟩

abbrev hbmTy0_1 (i : Nat) : BufTy := match i % 128 with
  | 0 => ⟨S78, .i32⟩
  | 1 => ⟨S78, .i32⟩
  | 2 => ⟨S_, .i32⟩
  | 3 => ⟨S78, .i32⟩
  | 4 => ⟨S78, .i1⟩
  | 5 => ⟨S_, .i32⟩
  | 6 => ⟨S78, .i32⟩
  | 7 => ⟨S78, .i1⟩
  | 8 => ⟨S_, .i32⟩
  | 9 => ⟨S_, .i1⟩
  | 10 => ⟨S78, .i1⟩
  | 11 => ⟨S78, .i1⟩
  | 12 => ⟨S78, .i1⟩
  | 13 => ⟨S78, .i32⟩
  | 14 => ⟨S78, .i32⟩
  | 15 => ⟨S78, .i32⟩
  | 16 => ⟨S_, .i32⟩
  | 17 => ⟨S78, .i32⟩
  | 18 => ⟨S78, .i32⟩
  | 19 => ⟨S78, .i32⟩
  | 20 => ⟨S_, .i32⟩
  | 21 => ⟨S78, .i32⟩
  | 22 => ⟨S78, .i1⟩
  | 23 => ⟨S78, .i32⟩
  | 24 => ⟨S78, .i32⟩
  | 25 => ⟨S_, .i32⟩
  | 26 => ⟨S78, .i32⟩
  | 27 => ⟨S78, .i1⟩
  | 28 => ⟨S78, .i1⟩
  | 29 => ⟨S_, .i32⟩
  | 30 => ⟨S78, .i32⟩
  | 31 => ⟨S78, .i32⟩
  | 32 => ⟨S78, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S78, .i32⟩
  | 40 => ⟨S78, .i32⟩
  | 41 => ⟨S_, .i32⟩
  | 42 => ⟨S78, .i32⟩
  | 43 => ⟨S78, .i1⟩
  | 44 => ⟨S_, .i32⟩
  | 45 => ⟨S78, .i32⟩
  | 46 => ⟨S78, .i1⟩
  | 47 => ⟨S_, .i32⟩
  | 48 => ⟨S_, .i1⟩
  | 49 => ⟨S78, .i1⟩
  | 50 => ⟨S78, .i1⟩
  | 51 => ⟨S78, .i1⟩
  | 52 => ⟨S78, .i32⟩
  | 53 => ⟨S78, .i32⟩
  | 54 => ⟨S78, .i32⟩
  | 55 => ⟨S_, .f32⟩
  | 56 => ⟨S262144x12x12, .f32⟩
  | 57 => ⟨S_, .i32⟩
  | 58 => ⟨S78, .i32⟩
  | 59 => ⟨S78, .i1⟩
  | 60 => ⟨S_, .i32⟩
  | 61 => ⟨S78, .i32⟩
  | 62 => ⟨S78, .i32⟩
  | 63 => ⟨S78, .i32⟩
  | 64 => ⟨S_, .i32⟩
  | 65 => ⟨S78, .i32⟩
  | 66 => ⟨S78, .i1⟩
  | 67 => ⟨S_, .i32⟩
  | 68 => ⟨S78, .i32⟩
  | 69 => ⟨S78, .i32⟩
  | 70 => ⟨S78, .i32⟩
  | 71 => ⟨S78x1, .i32⟩
  | 72 => ⟨S78x1, .i32⟩
  | 73 => ⟨S78x2, .i32⟩
  | 74 => ⟨S262144x12x12, .f32⟩
  | 75 => ⟨S262144x12x12, .f32⟩
  | _ => ⟨S262144x12, .f32⟩

abbrev hbmTy (i : Nat) : BufTy := match i / 128 with
  | 0 => hbmTy0_0 i
  | 1 => hbmTy0_1 i
  | _ => ⟨S262144x12, .f32⟩

abbrev bufTy : (tb : Table) → Fin (tcTables nBuf tb) → BufTy
  | .hbm, ⟨i, _⟩ => hbmTy i
  | _, _ => ⟨S262144x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_cst_1 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_v4 : Ref sig .tc := ⟨.hbm, 21, rfl⟩
abbrev main_call0_v5 : Ref sig .tc := ⟨.hbm, 22, rfl⟩
abbrev main_call0_cst_2 : Ref sig .tc := ⟨.hbm, 23, rfl⟩
abbrev main_call0_v6 : Ref sig .tc := ⟨.hbm, 24, rfl⟩
abbrev main_call0_v7 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_cst_0 : Ref sig .tc := ⟨.hbm, 35, rfl⟩
abbrev main_call1_v2 : Ref sig .tc := ⟨.hbm, 36, rfl⟩
abbrev main_call1_v3 : Ref sig .tc := ⟨.hbm, 37, rfl⟩
abbrev main_call1_cst_1 : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_v4 : Ref sig .tc := ⟨.hbm, 41, rfl⟩
abbrev main_call1_v5 : Ref sig .tc := ⟨.hbm, 42, rfl⟩
abbrev main_call1_cst_2 : Ref sig .tc := ⟨.hbm, 43, rfl⟩
abbrev main_call1_v6 : Ref sig .tc := ⟨.hbm, 44, rfl⟩
abbrev main_call1_v7 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_v17 : Ref sig .tc := ⟨.hbm, 65, rfl⟩
abbrev main_cst : Ref sig .tc := ⟨.hbm, 66, rfl⟩
abbrev main_v18 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_cst : Ref sig .tc := ⟨.hbm, 74, rfl⟩
abbrev main_call3_v5 : Ref sig .tc := ⟨.hbm, 75, rfl⟩
abbrev main_v19 : Ref sig .tc := ⟨.hbm, 76, rfl⟩
abbrev main_cst_0 : Ref sig .tc := ⟨.hbm, 77, rfl⟩
abbrev main_v20 : Ref sig .tc := ⟨.hbm, 78, rfl⟩
abbrev main_v21 : Ref sig .tc := ⟨.hbm, 79, rfl⟩
abbrev main_call4_v0 : Ref sig .tc := ⟨.hbm, 80, rfl⟩
abbrev main_call4_v1 : Ref sig .tc := ⟨.hbm, 81, rfl⟩
abbrev main_call4_call0_c : Ref sig .tc := ⟨.hbm, 82, rfl⟩
abbrev main_call4_call0_v0 : Ref sig .tc := ⟨.hbm, 83, rfl⟩
abbrev main_v22 : Ref sig .tc := ⟨.hbm, 84, rfl⟩
abbrev main_c : Ref sig .tc := ⟨.hbm, 85, rfl⟩
abbrev main_v23 : Ref sig .tc := ⟨.hbm, 86, rfl⟩
abbrev main_c_1 : Ref sig .tc := ⟨.hbm, 87, rfl⟩
abbrev main_call5_v0 : Ref sig .tc := ⟨.hbm, 88, rfl⟩
abbrev main_call5_v1 : Ref sig .tc := ⟨.hbm, 89, rfl⟩
abbrev main_v24 : Ref sig .tc := ⟨.hbm, 90, rfl⟩
abbrev main_c_2 : Ref sig .tc := ⟨.hbm, 91, rfl⟩
abbrev main_v25 : Ref sig .tc := ⟨.hbm, 92, rfl⟩
abbrev main_v26 : Ref sig .tc := ⟨.hbm, 93, rfl⟩
abbrev main_c_3 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_c_4 : Ref sig .tc := ⟨.hbm, 99, rfl⟩
abbrev main_v31 : Ref sig .tc := ⟨.hbm, 100, rfl⟩
abbrev main_v32 : Ref sig .tc := ⟨.hbm, 101, rfl⟩
abbrev main_call6_call0_c : Ref sig .tc := ⟨.hbm, 102, rfl⟩
abbrev main_call6_call0_v0 : Ref sig .tc := ⟨.hbm, 103, rfl⟩
abbrev main_v33 : Ref sig .tc := ⟨.hbm, 104, rfl⟩
abbrev main_c_5 : Ref sig .tc := ⟨.hbm, 105, rfl⟩
abbrev main_call7_v0 : Ref sig .tc := ⟨.hbm, 106, rfl⟩
abbrev main_call7_v1 : Ref sig .tc := ⟨.hbm, 107, rfl⟩
abbrev main_call7_v2 : Ref sig .tc := ⟨.hbm, 108, rfl⟩
abbrev main_call7_v3 : Ref sig .tc := ⟨.hbm, 109, rfl⟩
abbrev main_call7_v4 : Ref sig .tc := ⟨.hbm, 110, rfl⟩
abbrev main_call7_v5 : Ref sig .tc := ⟨.hbm, 111, rfl⟩
abbrev main_call7_v6 : Ref sig .tc := ⟨.hbm, 112, rfl⟩
abbrev main_call7_v7 : Ref sig .tc := ⟨.hbm, 113, rfl⟩
abbrev main_call7_c : Ref sig .tc := ⟨.hbm, 114, rfl⟩
abbrev main_call7_v8 : Ref sig .tc := ⟨.hbm, 115, rfl⟩
abbrev main_call7_v9 : Ref sig .tc := ⟨.hbm, 116, rfl⟩
abbrev main_call7_v10 : Ref sig .tc := ⟨.hbm, 117, rfl⟩
abbrev main_call7_c_0 : Ref sig .tc := ⟨.hbm, 118, rfl⟩
abbrev main_call7_v11 : Ref sig .tc := ⟨.hbm, 119, rfl⟩
abbrev main_call7_v12 : Ref sig .tc := ⟨.hbm, 120, rfl⟩
abbrev main_v34 : Ref sig .tc := ⟨.hbm, 121, rfl⟩
abbrev main_c_6 : Ref sig .tc := ⟨.hbm, 122, rfl⟩
abbrev main_call8_v0 : Ref sig .tc := ⟨.hbm, 123, rfl⟩
abbrev main_call8_c : Ref sig .tc := ⟨.hbm, 124, rfl⟩
abbrev main_call8_v1 : Ref sig .tc := ⟨.hbm, 125, rfl⟩
abbrev main_call8_c_0 : Ref sig .tc := ⟨.hbm, 126, rfl⟩
abbrev main_call8_v2 : Ref sig .tc := ⟨.hbm, 127, rfl⟩
abbrev main_call8_v3 : Ref sig .tc := ⟨.hbm, 128, rfl⟩
abbrev main_call8_v4 : Ref sig .tc := ⟨.hbm, 129, rfl⟩
abbrev main_call8_c_1 : Ref sig .tc := ⟨.hbm, 130, rfl⟩
abbrev main_call8_v5 : Ref sig .tc := ⟨.hbm, 131, rfl⟩
abbrev main_call8_v6 : Ref sig .tc := ⟨.hbm, 132, rfl⟩
abbrev main_call8_c_2 : Ref sig .tc := ⟨.hbm, 133, rfl⟩
abbrev main_call8_v7 : Ref sig .tc := ⟨.hbm, 134, rfl⟩
abbrev main_call8_v8 : Ref sig .tc := ⟨.hbm, 135, rfl⟩
abbrev main_call8_c_3 : Ref sig .tc := ⟨.hbm, 136, rfl⟩
abbrev main_call8_v9 : Ref sig .tc := ⟨.hbm, 137, rfl⟩
abbrev main_call8_v10 : Ref sig .tc := ⟨.hbm, 138, rfl⟩
abbrev main_call8_v11 : Ref sig .tc := ⟨.hbm, 139, rfl⟩
abbrev main_call8_v12 : Ref sig .tc := ⟨.hbm, 140, rfl⟩
abbrev main_call8_v13 : Ref sig .tc := ⟨.hbm, 141, rfl⟩
abbrev main_call8_v14 : Ref sig .tc := ⟨.hbm, 142, rfl⟩
abbrev main_v35 : Ref sig .tc := ⟨.hbm, 143, rfl⟩
abbrev main_c_7 : Ref sig .tc := ⟨.hbm, 144, rfl⟩
abbrev main_call9_v0 : Ref sig .tc := ⟨.hbm, 145, rfl⟩
abbrev main_call9_v1 : Ref sig .tc := ⟨.hbm, 146, rfl⟩
abbrev main_call9_v2 : Ref sig .tc := ⟨.hbm, 147, rfl⟩
abbrev main_call9_v3 : Ref sig .tc := ⟨.hbm, 148, rfl⟩
abbrev main_call9_v4 : Ref sig .tc := ⟨.hbm, 149, rfl⟩
abbrev main_call9_v5 : Ref sig .tc := ⟨.hbm, 150, rfl⟩
abbrev main_call9_v6 : Ref sig .tc := ⟨.hbm, 151, rfl⟩
abbrev main_call9_v7 : Ref sig .tc := ⟨.hbm, 152, rfl⟩
abbrev main_call9_c : Ref sig .tc := ⟨.hbm, 153, rfl⟩
abbrev main_call9_v8 : Ref sig .tc := ⟨.hbm, 154, rfl⟩
abbrev main_call9_v9 : Ref sig .tc := ⟨.hbm, 155, rfl⟩
abbrev main_call9_v10 : Ref sig .tc := ⟨.hbm, 156, rfl⟩
abbrev main_call9_c_0 : Ref sig .tc := ⟨.hbm, 157, rfl⟩
abbrev main_call9_v11 : Ref sig .tc := ⟨.hbm, 158, rfl⟩
abbrev main_call9_v12 : Ref sig .tc := ⟨.hbm, 159, rfl⟩
abbrev main_v36 : Ref sig .tc := ⟨.hbm, 160, rfl⟩
abbrev main_c_8 : Ref sig .tc := ⟨.hbm, 161, rfl⟩
abbrev main_call10_v0 : Ref sig .tc := ⟨.hbm, 162, rfl⟩
abbrev main_call10_c : Ref sig .tc := ⟨.hbm, 163, rfl⟩
abbrev main_call10_v1 : Ref sig .tc := ⟨.hbm, 164, rfl⟩
abbrev main_call10_c_0 : Ref sig .tc := ⟨.hbm, 165, rfl⟩
abbrev main_call10_v2 : Ref sig .tc := ⟨.hbm, 166, rfl⟩
abbrev main_call10_v3 : Ref sig .tc := ⟨.hbm, 167, rfl⟩
abbrev main_call10_v4 : Ref sig .tc := ⟨.hbm, 168, rfl⟩
abbrev main_call10_c_1 : Ref sig .tc := ⟨.hbm, 169, rfl⟩
abbrev main_call10_v5 : Ref sig .tc := ⟨.hbm, 170, rfl⟩
abbrev main_call10_v6 : Ref sig .tc := ⟨.hbm, 171, rfl⟩
abbrev main_call10_c_2 : Ref sig .tc := ⟨.hbm, 172, rfl⟩
abbrev main_call10_v7 : Ref sig .tc := ⟨.hbm, 173, rfl⟩
abbrev main_call10_v8 : Ref sig .tc := ⟨.hbm, 174, rfl⟩
abbrev main_call10_c_3 : Ref sig .tc := ⟨.hbm, 175, rfl⟩
abbrev main_call10_v9 : Ref sig .tc := ⟨.hbm, 176, rfl⟩
abbrev main_call10_v10 : Ref sig .tc := ⟨.hbm, 177, rfl⟩
abbrev main_call10_v11 : Ref sig .tc := ⟨.hbm, 178, rfl⟩
abbrev main_call10_v12 : Ref sig .tc := ⟨.hbm, 179, rfl⟩
abbrev main_call10_v13 : Ref sig .tc := ⟨.hbm, 180, rfl⟩
abbrev main_call10_v14 : Ref sig .tc := ⟨.hbm, 181, rfl⟩
abbrev main_v37 : Ref sig .tc := ⟨.hbm, 182, rfl⟩
abbrev main_cst_9 : Ref sig .tc := ⟨.hbm, 183, rfl⟩
abbrev main_v38 : Ref sig .tc := ⟨.hbm, 184, rfl⟩
abbrev main_c_10 : Ref sig .tc := ⟨.hbm, 185, rfl⟩
abbrev main_v39 : Ref sig .tc := ⟨.hbm, 186, rfl⟩
abbrev main_v40 : Ref sig .tc := ⟨.hbm, 187, rfl⟩
abbrev main_c_11 : Ref sig .tc := ⟨.hbm, 188, rfl⟩
abbrev main_v41 : Ref sig .tc := ⟨.hbm, 189, rfl⟩
abbrev main_v42 : Ref sig .tc := ⟨.hbm, 190, rfl⟩
abbrev main_v43 : Ref sig .tc := ⟨.hbm, 191, rfl⟩
abbrev main_c_12 : Ref sig .tc := ⟨.hbm, 192, rfl⟩
abbrev main_v44 : Ref sig .tc := ⟨.hbm, 193, rfl⟩
abbrev main_v45 : Ref sig .tc := ⟨.hbm, 194, rfl⟩
abbrev main_c_13 : Ref sig .tc := ⟨.hbm, 195, rfl⟩
abbrev main_v46 : Ref sig .tc := ⟨.hbm, 196, rfl⟩
abbrev main_v47 : Ref sig .tc := ⟨.hbm, 197, rfl⟩
abbrev main_v48 : Ref sig .tc := ⟨.hbm, 198, rfl⟩
abbrev main_v49 : Ref sig .tc := ⟨.hbm, 199, rfl⟩
abbrev main_v50 : Ref sig .tc := ⟨.hbm, 200, rfl⟩
abbrev main_v51 : Ref sig .tc := ⟨.hbm, 201, rfl⟩
abbrev main_v52 : Ref sig .tc := ⟨.hbm, 202, rfl⟩
abbrev main_v53 : Ref sig .tc := ⟨.hbm, 203, rfl⟩

abbrev nD : Nat := 1
abbrev τ : Topo := Topo.v7x

variable {F : FTy → Type} [FloatOps F]

class Facts₀ : Prop where
  transposes_S128x12_S12x128_1_0 : S128x12.Transposes [1, 0] S12x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S32x128_S128x32_1_0 : S32x128.Transposes [1, 0] S128x32
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  transposes_S78x32_S32x78_1_0 : S78x32.Transposes [1, 0] S32x78
  bcast_S78_S1x78_1 : S78.BroadcastsInDim S1x78 (![1] : Fin 1 → Fin S1x78.rank)
  bcast_S1x78_S262144x78_0_1 : S1x78.BroadcastsInDim S262144x78 (![0, 1] : Fin 2 → Fin S262144x78.rank)
  bcast_S_S262144x78 : S_.BroadcastsInDim S262144x78 (![] : Fin 0 → Fin S262144x78.rank)
  bcast_S_S12x12 : S_.BroadcastsInDim S12x12 (![] : Fin 0 → Fin S12x12.rank)
  shapeCasts_S12x12_S144 : S12x12.ShapeCasts S144
  natLt_1_32 : 1 < 32
  bcast_S_S_ : S_.BroadcastsInDim S_ (![] : Fin 0 → Fin S_.rank)
  reduceWindows_S144_S144_w144s1p143_0 : S144.ReduceWindows (![144] : Fin 1 → Nat) ![1] ![143] ![0] S144
  h_S_ : 0 < S_.numel
  bcast_S_S78 : S_.BroadcastsInDim S78 (![] : Fin 0 → Fin S78.rank)
  bcast_S_S144 : S_.BroadcastsInDim S144 (![] : Fin 0 → Fin S144.rank)
  bcast_S144_S144x1_0 : S144.BroadcastsInDim S144x1 (![0] : Fin 1 → Fin S144x1.rank)
  reduceWindows_S78_S78_w78s1p77_0 : S78.ReduceWindows (![78] : Fin 1 → Nat) ![1] ![77] ![0] S78
  bcast_S_S262144x12x12 : S_.BroadcastsInDim S262144x12x12 (![] : Fin 0 → Fin S262144x12x12.rank)
  bcast_S78_S78x1_0 : S78.BroadcastsInDim S78x1 (![0] : Fin 1 → Fin S78x1.rank)
  concatenates_S78x1_S78x1_S78x2_d1 : Shape.Concatenates [S78x1, S78x1] S78x2 1
  dot_S262144x12_S12x128_S262144x128_1_0_0_1_n_n_wf : DotDims.WF S262144x12 S12x128 S262144x128 [1] [0] [0] [1] [] []
  dot_S262144x128_S128x32_S262144x32_1_0_0_1_n_n_wf : DotDims.WF S262144x128 S128x32 S262144x32 [1] [0] [0] [1] [] []
  dot_S262144x32_S32x78_S262144x78_1_0_0_1_n_n_wf : DotDims.WF S262144x32 S32x78 S262144x78 [1] [0] [0] [1] [] []
  scatter_S78_S144x1_S144_n_0_0_1_wf : ScatterDims.WF S78 S144x1 S144 [] [0] [0] 1
  scatter_S262144x12x12_S78x2_S262144x78_0_12_12_1_wf : ScatterDims.WF S262144x12x12 S78x2 S262144x78 [0] [1, 2] [1, 2] 1
  dot_S262144x12x12_S262144x12x12_S262144x12x12_2_2_1_1_0_0_wf : DotDims.WF S262144x12x12 S262144x12x12 S262144x12x12 [2] [2] [1] [1] [0] [0]

variable [Facts₀]

def dot_S262144x12_S12x128_S262144x128_1_0_0_1_n_n : DotDims S262144x12 S12x128 S262144x128 where
  lhsContracting := [1]
  rhsContracting := [0]
  lhsNonContracting := [0]
  rhsNonContracting := [1]
  lhsBatch := []
  rhsBatch := []
  wf := dot_S262144x12_S12x128_S262144x128_1_0_0_1_n_n_wf
def dot_S262144x128_S128x32_S262144x32_1_0_0_1_n_n : DotDims S262144x128 S128x32 S262144x32 where
  lhsContracting := [1]
  rhsContracting := [0]
  lhsNonContracting := [0]
  rhsNonContracting := [1]
  lhsBatch := []
  rhsBatch := []
  wf := dot_S262144x128_S128x32_S262144x32_1_0_0_1_n_n_wf
def dot_S262144x32_S32x78_S262144x78_1_0_0_1_n_n : DotDims S262144x32 S32x78 S262144x78 where
  lhsContracting := [1]
  rhsContracting := [0]
  lhsNonContracting := [0]
  rhsNonContracting := [1]
  lhsBatch := []
  rhsBatch := []
  wf := dot_S262144x32_S32x78_S262144x78_1_0_0_1_n_n_wf
def scatter_S78_S144x1_S144_n_0_0_1 : ScatterDims S78 S144x1 S144 where
  updateWindowDims := []
  insertedWindowDims := [0]
  scatterDimsToOperandDims := [0]
  indexVectorDim := 1
  wf := scatter_S78_S144x1_S144_n_0_0_1_wf
def scatter_S262144x12x12_S78x2_S262144x78_0_12_12_1 : ScatterDims S262144x12x12 S78x2 S262144x78 where
  updateWindowDims := [0]
  insertedWindowDims := [1, 2]
  scatterDimsToOperandDims := [1, 2]
  indexVectorDim := 1
  wf := scatter_S262144x12x12_S78x2_S262144x78_0_12_12_1_wf
def dot_S262144x12x12_S262144x12x12_S262144x12x12_2_2_1_1_0_0 : DotDims S262144x12x12 S262144x12x12 S262144x12x12 where
  lhsContracting := [2]
  rhsContracting := [2]
  lhsNonContracting := [1]
  rhsNonContracting := [1]
  lhsBatch := [0]
  rhsBatch := [0]
  wf := dot_S262144x12x12_S262144x12x12_S262144x12x12_2_2_1_1_0_0_wf

class Facts : Prop extends Facts₀ where

variable [Facts]
-- ==== Proof.Spec.lean ====
/-
  The specification both programs are compared against: what one row of the batch is sent to.

  A row `x r` of twelve numbers goes through three affine layers — `p1 = x·W1ᵀ + b1` (128 wide), `p2 = h1·W2ᵀ + b2`
  (32 wide), `p3 = h2·W3ᵀ + b3` (78 wide), the weight matrices indexed [out, in] as the arguments are — with the
  exponential linear unit after the first two, `h = p` where `0 < p` and `eᵖ − 1` elsewhere, and the softplus after the
  third, `v = max(p, 0) + log(1 + e^(−|p|))`, where `|p| = max(p, −p)`. The 78 numbers `v` fill the lower triangle of a
  12 × 12 matrix `L` row by row — cell `(i, j)`, `j ≤ i`, holds entry `i(i+1)/2 + j` — with zeros above the diagonal, and
  the result is the Gram matrix `L·Lᵀ`: entry `(i, k)` is `Σ_j L i j · L k j`.

  Everything is stated on the extended reals, with the extended reals' own `+`, `·`, `max` and the exact `exp` and
  `log(1 + ·)`; no entry is assumed finite.
-/
import Mathlib
import Idealize.ShloMosaic.PureOps.Ideal
import Idealize.ShloMosaic.Lib.ValueIdx

noncomputable section

open scoped BigOperators

namespace Cert.Spec

open Idealize.ShloMosaic Idealize.ShloMosaic.ValueIdx

/-- The exponential linear unit: the identity on the positive numbers, `eʰ − 1` elsewhere (so `−1` at `−∞`). -/
def elu (h : EReal) : EReal := if 0 < h then h else Ideal.exp h - 1

/-- The softplus in its overflow-free form `max(p, 0) + log(1 + e^(−|p|))`, the absolute value written `max(p, −p)`. -/
def softplus (p : EReal) : EReal := max p 0 + Ideal.log1p (Ideal.exp (-(max p (-p))))

/-- The lower-triangular cell `(i, j)`, `j ≤ i`, is entry `i(i+1)/2 + j` of the row-major list of the 78 cells. -/
theorem triPos_lt : ∀ i j : Fin 12, j ≤ i → i.val * (i.val + 1) / 2 + j.val < 78 := by decide

/-- The position of the lower-triangular cell `(i, j)` among the 78. -/
def triPos (i j : Fin 12) (h : j ≤ i) : Fin 78 := ⟨i.val * (i.val + 1) / 2 + j.val, triPos_lt i j h⟩

section

variable (X : FVec Ideal ⟨2, ![262144, 12]⟩ .f32) (W1 : FVec Ideal ⟨2, ![128, 12]⟩ .f32) (b1 : FVec Ideal ⟨1, ![128]⟩ .f32)
  (W2 : FVec Ideal ⟨2, ![32, 128]⟩ .f32) (b2 : FVec Ideal ⟨1, ![32]⟩ .f32)
  (W3 : FVec Ideal ⟨2, ![78, 32]⟩ .f32) (b3 : FVec Ideal ⟨1, ![78]⟩ .f32)

/-- First layer before its activation: `Σ_k x r k · W1 c k + b1 c`. -/
def pre1 (r : Fin 262144) (c : Fin 128) : EReal := (∑ k : Fin 12, X (ix2 r k) * W1 (ix2 c k)) + b1 (ix1 c)

/-- First hidden layer. -/
def hid1 (r : Fin 262144) (c : Fin 128) : EReal := elu (pre1 X W1 b1 r c)

/-- Second layer before its activation: `Σ_c h1 r c · W2 a c + b2 a`. -/
def pre2 (r : Fin 262144) (a : Fin 32) : EReal := (∑ c : Fin 128, hid1 X W1 b1 r c * W2 (ix2 a c)) + b2 (ix1 a)

/-- Second hidden layer. -/
def hid2 (r : Fin 262144) (a : Fin 32) : EReal := elu (pre2 X W1 b1 W2 b2 r a)

/-- Third layer before its activation: `Σ_a h2 r a · W3 q a + b3 q`. -/
def pre3 (r : Fin 262144) (q : Fin 78) : EReal := (∑ a : Fin 32, hid2 X W1 b1 W2 b2 r a * W3 (ix2 q a)) + b3 (ix1 q)

/-- The 78 triangle entries of row `r`. -/
def tri (r : Fin 262144) (q : Fin 78) : EReal := softplus (pre3 X W1 b1 W2 b2 W3 b3 r q)

/-- The lower-triangular matrix of row `r`: the triangle entries below and on the diagonal, zero above it. -/
def lower (r : Fin 262144) (i j : Fin 12) : EReal :=
  if h : j ≤ i then tri X W1 b1 W2 b2 W3 b3 r (triPos i j h) else 0

/-- Entry `(i, k)` of the Gram matrix `L·Lᵀ` of row `r`. -/
def gram (r : Fin 262144) (i k : Fin 12) : EReal :=
  ∑ j : Fin 12, lower X W1 b1 W2 b2 W3 b3 r i j * lower X W1 b1 W2 b2 W3 b3 r k j

/-- The whole result array: one Gram matrix per row of the batch. -/
def G : FVec Ideal ⟨3, ![262144, 12, 12]⟩ .f32 :=
  fun idx => gram X W1 b1 W2 b2 W3 b3 (idx 0) (idx 1) (idx 2)

/-- The result array at an index given by its coordinates. -/
theorem G_apply (r : Fin 262144) (i k : Fin 12) :
    G X W1 b1 W2 b2 W3 b3 (ix3 r i k) = gram X W1 b1 W2 b2 W3 b3 r i k := rfl

end

end Cert.Spec

end
-- ==== Proof.KernelBlocks.lean ====
/-
  From the kernel's blocks to its whole result array.

  The grid has 512 points. At point `t` the kernel is handed rows `512 t … 512 t + 511` of the batch, the three weight
  matrices whole — each written before the launch as the transpose of an argument, so entry `(k, c)` of the first is
  `W1 c k` — and the three bias vectors whole, and it writes back the block of 512 Gram matrices of those rows. What the
  body computes from such blocks is a hypothesis here (`hbody`: entry `(p, i, k)` of the block written is the
  specification's Gram entry `(i, k)` of the row the block's row `p` came from). Then point `t` writes block `t` of the
  specification's array; row `r` of the array lies in the block of point `r / 512`, so the blocks cover the array, and
  the array ends as the specification's function of the seven arguments.
-/
import proofs.«153956_j18674517803680_1_alg».proof.Proof.Gen.KernelIdeal.Value
import proofs.«153956_j18674517803680_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelBlocks

open Cert.KernelIdeal Cert.KernelIdeal.Gen Cert.KernelIdeal.Value

variable (m : (ℓ : Loc nD τ sig) → Buf (Elt Ideal) ℓ) (ρ : Dev nD → PrngReg)

/-! ## Where each window's block sits -/

/-- The batch window and the output window move one block of 512 rows per point; every other window stays put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-- The row of the batch that row `p` of point `t`'s block is. -/
def rowOf (t : Fin cfg0.N) (p : Fin 512) : Fin 262144 :=
  ⟨512 * t.val + p.val, by have h := t.isLt; have hN : cfg0.N = 512 := N_0; have hp := p.isLt; omega⟩

/-! ## The weights as the launch finds them -/

/-- The first weight window's array is the first weight matrix transposed. -/
theorem V_v1 (c : Dev nD) (k : Fin 12) (a : Fin 128) :
    (V m c main_v1 : FVec Ideal S12x128 .bf16) (ix2 k a) = (m ((c : Thread nD τ).loc main_arg1) : FVec Ideal S128x12 .f32) (ix2 a k) := by
  have e : @Eq (FVec Ideal S12x128 .bf16) (V m c main_v1)
      (truncf (F := Ideal) .bf16 (transpose S12x128 [1, 0] (m ((c : Thread nD τ).loc main_arg1) : FVec Ideal S128x12 .f32) transposes_S128x12_S12x128_1_0) bitsLt_bf16_f32) := by
    dsimp only [V, hostOps0]; after_results
  rw [e]
  exact transpose_ix2_apply _ transposes_S128x12_S12x128_1_0 k a

/-- The second weight window's array is the second weight matrix transposed. -/
theorem V_v3 (c : Dev nD) (a : Fin 128) (b : Fin 32) :
    (V m c main_v3 : FVec Ideal S128x32 .bf16) (ix2 a b) = (m ((c : Thread nD τ).loc main_arg3) : FVec Ideal S32x128 .f32) (ix2 b a) := by
  have e : @Eq (FVec Ideal S128x32 .bf16) (V m c main_v3)
      (truncf (F := Ideal) .bf16 (transpose S128x32 [1, 0] (m ((c : Thread nD τ).loc main_arg3) : FVec Ideal S32x128 .f32) transposes_S32x128_S128x32_1_0) bitsLt_bf16_f32) := by
    dsimp only [V, hostOps0]; after_results
  rw [e]
  exact transpose_ix2_apply _ transposes_S32x128_S128x32_1_0 a b

/-- The third weight window's array is the third weight matrix transposed. -/
theorem V_v5 (c : Dev nD) (b : Fin 32) (q : Fin 78) :
    (V m c main_v5 : FVec Ideal S32x78 .bf16) (ix2 b q) = (m ((c : Thread nD τ).loc main_arg5) : FVec Ideal S78x32 .f32) (ix2 q b) := by
  have e : @Eq (FVec Ideal S32x78 .bf16) (V m c main_v5)
      (truncf (F := Ideal) .bf16 (transpose S32x78 [1, 0] (m ((c : Thread nD τ).loc main_arg5) : FVec Ideal S78x32 .f32) transposes_S78x32_S32x78_1_0) bitsLt_bf16_f32) := by
    dsimp only [V, hostOps0]; after_results
  rw [e]
  exact transpose_ix2_apply _ transposes_S78x32_S32x78_1_0 b q

/-! ## The input blocks at a point -/

/-- The batch block at point `t` is rows `512 t … 512 t + 511` of the batch. -/
theorem iblk0_apply (c : Dev nD) (t : Fin cfg0.N) (p : Fin 512) (k : Fin 12) :
    (iblk m c 0 t : Vec Ideal S512x12 .f32) (ix2 p k)
      = (m ((c : Thread nD τ).loc main_arg0) : FVec Ideal S262144x12 .f32) (ix2 (rowOf t p) k) := by
  obtain ⟨e0, e1, -⟩ := idx_facts t
  unfold iblk
  rw [View.read_apply]
  show V m c main_arg0 _ = _
  rw [V_main_arg0]
  refine congrArg (m ((c : Thread nD τ).loc main_arg0) : FVec Ideal S262144x12 .f32) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 12 + 1 * k.val = k.val; rw [e1]; omega

/-- The first weight block at any point is the whole transposed matrix. -/
theorem iblk1_apply (c : Dev nD) (t : Fin cfg0.N) (k : Fin 12) (a : Fin 128) :
    (iblk m c 1 t : Vec Ideal S12x128 .bf16) (ix2 k a) = (m ((c : Thread nD τ).loc main_arg1) : FVec Ideal S128x12 .f32) (ix2 a k) := by
  obtain ⟨-, -, e0, e1, -⟩ := idx_facts t
  unfold iblk
  rw [View.read_apply]
  show V m c main_v1 _ = _
  refine (congrArg (V m c main_v1 : FVec Ideal S12x128 .bf16) (funext fun b => Fin.ext ?_)).trans (V_v1 m c k a)
  match b with
  | ⟨0, _⟩ => show win0_1.index t (0 : Fin 2) * 12 + 1 * k.val = k.val; rw [e0]; omega
  | ⟨1, _⟩ => show win0_1.index t (1 : Fin 2) * 128 + 1 * a.val = a.val; rw [e1]; omega

/-- The first bias block at any point is the whole bias vector. -/
theorem iblk2_apply (c : Dev nD) (t : Fin cfg0.N) (a : Fin 128) :
    (iblk m c 2 t : Vec Ideal S128 .f32) (ix1 a) = (m ((c : Thread nD τ).loc main_arg2) : FVec Ideal S128 .f32) (ix1 a) := by
  obtain ⟨-, -, -, -, e0, -⟩ := idx_facts t
  unfold iblk
  rw [View.read_apply]
  show V m c main_arg2 _ = _
  rw [V_main_arg2]
  refine congrArg (m ((c : Thread nD τ).loc main_arg2) : FVec Ideal S128 .f32) (funext fun b => Fin.ext ?_)
  match b with
  | ⟨0, _⟩ => show win0_2.index t (0 : Fin 1) * 128 + 1 * a.val = a.val; rw [e0]; omega

/-- The second weight block at any point is the whole transposed matrix. -/
theorem iblk3_apply (c : Dev nD) (t : Fin cfg0.N) (a : Fin 128) (b : Fin 32) :
    (iblk m c 3 t : Vec Ideal S128x32 .bf16) (ix2 a b) = (m ((c : Thread nD τ).loc main_arg3) : FVec Ideal S32x128 .f32) (ix2 b a) := by
  obtain ⟨-, -, -, -, -, e0, e1, -⟩ := idx_facts t
  unfold iblk
  rw [View.read_apply]
  show V m c main_v3 _ = _
  refine (congrArg (V m c main_v3 : FVec Ideal S128x32 .bf16) (funext fun d => Fin.ext ?_)).trans (V_v3 m c a b)
  match d with
  | ⟨0, _⟩ => show win0_3.index t (0 : Fin 2) * 128 + 1 * a.val = a.val; rw [e0]; omega
  | ⟨1, _⟩ => show win0_3.index t (1 : Fin 2) * 32 + 1 * b.val = b.val; rw [e1]; omega

/-- The second bias block at any point is the whole bias vector. -/
theorem iblk4_apply (c : Dev nD) (t : Fin cfg0.N) (b : Fin 32) :
    (iblk m c 4 t : Vec Ideal S32 .f32) (ix1 b) = (m ((c : Thread nD τ).loc main_arg4) : FVec Ideal S32 .f32) (ix1 b) := by
  obtain ⟨-, -, -, -, -, -, -, e0, -⟩ := idx_facts t
  unfold iblk
  rw [View.read_apply]
  show V m c main_arg4 _ = _
  rw [V_main_arg4]
  refine congrArg (m ((c : Thread nD τ).loc main_arg4) : FVec Ideal S32 .f32) (funext fun d => Fin.ext ?_)
  match d with
  | ⟨0, _⟩ => show win0_4.index t (0 : Fin 1) * 32 + 1 * b.val = b.val; rw [e0]; omega

/-- The third weight block at any point is the whole transposed matrix. -/
theorem iblk5_apply (c : Dev nD) (t : Fin cfg0.N) (b : Fin 32) (q : Fin 78) :
    (iblk m c 5 t : Vec Ideal S32x78 .bf16) (ix2 b q) = (m ((c : Thread nD τ).loc main_arg5) : FVec Ideal S78x32 .f32) (ix2 q b) := by
  obtain ⟨-, -, -, -, -, -, -, -, e0, e1, -⟩ := idx_facts t
  unfold iblk
  rw [View.read_apply]
  show V m c main_v5 _ = _
  refine (congrArg (V m c main_v5 : FVec Ideal S32x78 .bf16) (funext fun d => Fin.ext ?_)).trans (V_v5 m c b q)
  match d with
  | ⟨0, _⟩ => show win0_5.index t (0 : Fin 2) * 32 + 1 * b.val = b.val; rw [e0]; omega
  | ⟨1, _⟩ => show win0_5.index t (1 : Fin 2) * 78 + 1 * q.val = q.val; rw [e1]; omega

/-- The third bias block at any point is the whole bias vector. -/
theorem iblk6_apply (c : Dev nD) (t : Fin cfg0.N) (q : Fin 78) :
    (iblk m c 6 t : Vec Ideal S78 .f32) (ix1 q) = (m ((c : Thread nD τ).loc main_arg6) : FVec Ideal S78 .f32) (ix1 q) := by
  obtain ⟨-, -, -, -, -, -, -, -, -, -, e0, -⟩ := idx_facts t
  unfold iblk
  rw [View.read_apply]
  show V m c main_arg6 _ = _
  rw [V_main_arg6]
  refine congrArg (m ((c : Thread nD τ).loc main_arg6) : FVec Ideal S78 .f32) (funext fun d => Fin.ext ?_)
  match d with
  | ⟨0, _⟩ => show win0_6.index t (0 : Fin 1) * 78 + 1 * q.val = q.val; rw [e0]; omega

/-! ## What a point writes back, the cover, the array -/

/-- What the body is assumed to compute from blocks that are rows of the batch, the transposed weights and the biases:
    entry `(p, i, k)` of the block it writes is the specification's Gram entry `(i, k)` of row `R p`. -/
def BodySpec : Prop :=
  ∀ (X : FVec Ideal ⟨2, ![262144, 12]⟩ .f32) (W1 : FVec Ideal ⟨2, ![128, 12]⟩ .f32) (b1 : FVec Ideal ⟨1, ![128]⟩ .f32)
      (W2 : FVec Ideal ⟨2, ![32, 128]⟩ .f32) (b2 : FVec Ideal ⟨1, ![32]⟩ .f32) (W3 : FVec Ideal ⟨2, ![78, 32]⟩ .f32)
      (b3 : FVec Ideal ⟨1, ![78]⟩ .f32) (R : Fin 512 → Fin 262144)
      (x0 : Vec Ideal S512x12 .f32) (x1 : Vec Ideal S12x128 .bf16) (x2 : Vec Ideal S128 .f32) (x3 : Vec Ideal S128x32 .bf16)
      (x4 : Vec Ideal S32 .f32) (x5 : Vec Ideal S32x78 .bf16) (x6 : Vec Ideal S78 .f32),
      (∀ (r : Fin 512) (k : Fin 12), x0 (ix2 r k) = X (ix2 (R r) k)) →
      (∀ (k : Fin 12) (c : Fin 128), x1 (ix2 k c) = W1 (ix2 c k)) →
      (∀ c : Fin 128, x2 (ix1 c) = b1 (ix1 c)) →
      (∀ (c : Fin 128) (a : Fin 32), x3 (ix2 c a) = W2 (ix2 a c)) →
      (∀ a : Fin 32, x4 (ix1 a) = b2 (ix1 a)) →
      (∀ (a : Fin 32) (q : Fin 78), x5 (ix2 a q) = W3 (ix2 q a)) →
      (∀ q : Fin 78, x6 (ix1 q) = b3 (ix1 q)) →
      ∀ (p : Fin 512) (i k : Fin 12),
        out0_7 x0 x1 x2 x3 x4 x5 x6 (ix3 p i k) = Cert.Spec.gram X W1 b1 W2 b2 W3 b3 (R p) i k

section

/-- The specification's array of the seven arguments as device `c` holds them. -/
abbrev specOf (c : Dev nD) : FVec Ideal S262144x12x12 .f32 :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Point `t` writes back block `t` of the specification's array. -/
theorem flushed_eq (hbody : BodySpec) (c : Dev nD) (t : Fin cfg0.N) :
    (dats m 0 c).flushed 7 t = ((cfg0.win 7).blk t).view.read (Elt Ideal) (specOf m c) := by
  obtain ⟨-, -, -, -, -, -, -, -, -, -, -, e0, e1, e2⟩ := idx_facts t
  rw [flushed7]
  funext y
  obtain ⟨p, i, k, rfl⟩ : ∃ (p : Fin 512) (i k : Fin 12), y = ix3 p i k := ⟨y 0, y 1, y 2, eq_ix3 y⟩
  rw [View.read_apply]
  show out0_7 (iblk m c 0 t) (iblk m c 1 t) (iblk m c 2 t) (iblk m c 3 t) (iblk m c 4 t) (iblk m c 5 t) (iblk m c 6 t) (ix3 p i k) = _
  refine (hbody (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (rowOf t)
    (iblk m c 0 t) (iblk m c 1 t) (iblk m c 2 t) (iblk m c 3 t) (iblk m c 4 t) (iblk m c 5 t) (iblk m c 6 t)
    (iblk0_apply m c t) (iblk1_apply m c t) (iblk2_apply m c t) (iblk3_apply m c t) (iblk4_apply m c t) (iblk5_apply m c t)
    (iblk6_apply m c t) p i k).trans ?_
  have hemb : ((cfg0.win 7).blk t).view.emb (ix3 p i k) = ix3 (rowOf t p) i k := by
    funext a; apply Fin.ext
    match a with
    | ⟨0, _⟩ => show win0_7.index t (0 : Fin 3) * 512 + 1 * p.val = 512 * t.val + p.val; rw [e0]; omega
    | ⟨1, _⟩ => show win0_7.index t (1 : Fin 3) * 12 + 1 * i.val = i.val; rw [e1]; omega
    | ⟨2, _⟩ => show win0_7.index t (2 : Fin 3) * 12 + 1 * k.val = k.val; rw [e2]; omega
  rw [hemb]
  rfl

/-- An index of the array is in point `t`'s block iff each coordinate is in the block's range on its axis. -/
theorem mem_blk (t : Fin cfg0.N) (i : S262144x12x12.Idx) :
    i ∈ ((cfg0.win 7).blk t).view.set ↔ ∀ a : Fin 3, win0_7.index t a * S512x12x12.size a ≤ (i a).val ∧ (i a).val < win0_7.index t a * S512x12x12.size a + S512x12x12.size a := by
  show i ∈ ((View.whole main_v6).slice (win0_7.rect t)).set ↔ _
  rw [View.set_slice_whole, Rect.mem_set_unit]
  exact Iff.rfl

/-- Row `r` of the array lies in the block of point `r / 512`: the blocks cover the array. -/
theorem cover (i : S262144x12x12.Idx) : ∃ t : Fin cfg0.N, (cfg0.win 7).flush t = true ∧ i ∈ ((cfg0.win 7).blk t).view.set := by
  have hi0 : (i 0).val < 262144 := (i 0).isLt
  have hi1 : (i 1).val < 12 := (i 1).isLt
  have hi2 : (i 2).val < 12 := (i 2).isLt
  have hN : cfg0.N = 512 := N_0
  let t : Fin cfg0.N := ⟨(i 0).val / 512, by omega⟩
  obtain ⟨-, -, -, -, -, -, -, -, -, -, -, e0, e1, e2⟩ := idx_facts t
  have ht : t.val = (i 0).val / 512 := rfl
  refine ⟨t, flush0_7 t, ?_⟩
  rw [mem_blk]
  intro a
  match a with
  | ⟨0, _⟩ => show win0_7.index t (0 : Fin 3) * 512 ≤ (i 0).val ∧ (i 0).val < win0_7.index t (0 : Fin 3) * 512 + 512; rw [e0]; omega
  | ⟨1, _⟩ => show win0_7.index t (1 : Fin 3) * 12 ≤ (i 1).val ∧ (i 1).val < win0_7.index t (1 : Fin 3) * 12 + 12; rw [e1]; omega
  | ⟨2, _⟩ => show win0_7.index t (2 : Fin 3) * 12 ≤ (i 2).val ∧ (i 2).val < win0_7.index t (2 : Fin 3) * 12 + 12; rw [e2]; omega

/-- The result array ends as the specification's function of the seven arguments. -/
theorem kernel_final (hbody : BodySpec) (c : Dev nD) : (dats m 0 c).arrAt 7 cfg0.N = specOf m c :=
  (dats m 0 c).arrAt_eq_of_cover 7 (specOf m c) (fun t _ => flushed_eq m hbody c t) cover

/-- The kernel's run, read: the result array at the specification, the seven arguments unchanged. -/
theorem kernel_run (hbody : BodySpec) : θ_run defs (onTc (τ := τ) (main (F := Ideal))) ⟨m, fun _ => 0, ρ⟩ fun r => ∀ c : Dev nD,
      r.2.mem ((c : Thread nD τ).loc main_v6) = specOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (kernel_final m hbody c), (h c).2⟩) (run_blocks m ρ)

end

end Cert.KernelBlocks

end
-- ==== Proof.RefStages.lean ====
/-
  The reference's result as ONE pure term of its seven arguments: the composition of the host operations it applies, in
  the order it applies them, cut into named stages — an affine layer (a contraction with the transposed weights plus the
  bias row broadcast down the batch), the exponential linear unit as the host writes it
  (`select(p > 0, p, 1 · expm1(select(p > 0, 0, p)))`), the softplus as the host writes it
  (`select(d ≠ d, p + 0, max(p, 0) + log1p(exp(−|d|)))`, `d = p − 0`), the table of the 78 lower-triangular cells of a
  12 × 12 matrix computed from constants (the cells of the mask `row ≥ column` counted by a running sum, the running
  sum inverted by counting into 78 bins and summing again, and the flat positions split into row and column), the
  triangle entries written into a zero array at the table's cells, and the Gram matrix of the result.

  Nothing is proved here: these are definitions, each stage the printed operations applied to the previous stage.
-/
import proofs.«153956_j18674517803680_1_alg».proof.Proof.Gen.ReferenceIdeal

noncomputable section

namespace Cert.RefStages

open Cert.ReferenceIdeal Cert.ReferenceIdeal.Gen Idealize.ShloMosaic

variable {F : FTy → Type} [FloatOps F]

/-! ## The float stages -/

/-- An affine layer 12 → 128: `x · W1ᵀ + b1`, the bias a row broadcast down the batch. -/
def affine1 (x : FVec F S262144x12 .f32) (W1 : FVec F S128x12 .f32) (b1 : FVec F S128 .f32) : FVec F S262144x128 .f32 :=
  addf (Host.dotGeneral dot_S262144x12_S12x128_S262144x128_1_0_0_1_n_n none x (transpose S12x128 [1, 0] W1 transposes_S128x12_S12x128_1_0))
    (broadcastInDim S262144x128 ![0, 1] bcast_S1x128_S262144x128_0_1 (broadcastInDim S1x128 ![1] bcast_S128_S1x128_1 b1))

/-- The exponential linear unit at width 128, as the host writes it. -/
def elu128 (a : FVec F S262144x128 .f32) : FVec F S262144x128 .f32 :=
  select (cmpf .ogt a (broadcastInDim S262144x128 ![] bcast_S_S262144x128 (constant S_ .f32 0x00000000#32))) a
    (mulf (broadcastInDim S262144x128 ![] bcast_S_S262144x128 (constant S_ .f32 0x3F800000#32))
      (Host.expm1 (select (cmpf .ogt a (broadcastInDim S262144x128 ![] bcast_S_S262144x128 (constant S_ .f32 0x00000000#32)))
        (broadcastInDim S262144x128 ![] bcast_S_S262144x128 (id (constant S_ .f32 0x00000000#32))) a)))

/-- An affine layer 128 → 32. -/
def affine2 (h : FVec F S262144x128 .f32) (W2 : FVec F S32x128 .f32) (b2 : FVec F S32 .f32) : FVec F S262144x32 .f32 :=
  addf (Host.dotGeneral dot_S262144x128_S128x32_S262144x32_1_0_0_1_n_n none h (transpose S128x32 [1, 0] W2 transposes_S32x128_S128x32_1_0))
    (broadcastInDim S262144x32 ![0, 1] bcast_S1x32_S262144x32_0_1 (broadcastInDim S1x32 ![1] bcast_S32_S1x32_1 b2))

/-- The exponential linear unit at width 32, as the host writes it. -/
def elu32 (a : FVec F S262144x32 .f32) : FVec F S262144x32 .f32 :=
  select (cmpf .ogt a (broadcastInDim S262144x32 ![] bcast_S_S262144x32 (constant S_ .f32 0x00000000#32))) a
    (mulf (broadcastInDim S262144x32 ![] bcast_S_S262144x32 (constant S_ .f32 0x3F800000#32))
      (Host.expm1 (select (cmpf .ogt a (broadcastInDim S262144x32 ![] bcast_S_S262144x32 (constant S_ .f32 0x00000000#32)))
        (broadcastInDim S262144x32 ![] bcast_S_S262144x32 (id (constant S_ .f32 0x00000000#32))) a)))

/-- An affine layer 32 → 78. -/
def affine3 (h : FVec F S262144x32 .f32) (W3 : FVec F S78x32 .f32) (b3 : FVec F S78 .f32) : FVec F S262144x78 .f32 :=
  addf (Host.dotGeneral dot_S262144x32_S32x78_S262144x78_1_0_0_1_n_n none h (transpose S32x78 [1, 0] W3 transposes_S78x32_S32x78_1_0))
    (broadcastInDim S262144x78 ![0, 1] bcast_S1x78_S262144x78_0_1 (broadcastInDim S1x78 ![1] bcast_S78_S1x78_1 b3))

/-- The zero array the softplus compares and adds with. -/
def zero78 : FVec F S262144x78 .f32 := broadcastInDim S262144x78 ![] bcast_S_S262144x78 (constant S_ .f32 0x00000000#32)

/-- The softplus at width 78, as the host writes it: `logaddexp(p, 0)`. -/
def softplus78 (a : FVec F S262144x78 .f32) : FVec F S262144x78 .f32 :=
  select (cmpf .une (subf a zero78) (subf a zero78)) (addf a zero78)
    (addf (maximumf a zero78) (Host.log1p (Host.exp (Host.negf (Host.absf (subf a zero78))))))

/-- The 78 triangle entries of every row of the batch. -/
def triangle (x : FVec F S262144x12 .f32) (W1 : FVec F S128x12 .f32) (b1 : FVec F S128 .f32) (W2 : FVec F S32x128 .f32)
    (b2 : FVec F S32 .f32) (W3 : FVec F S78x32 .f32) (b3 : FVec F S78 .f32) : FVec F S262144x78 .f32 :=
  softplus78 (affine3 (elu32 (affine2 (elu128 (affine1 x W1 b1)) W2 b2)) W3 b3)

/-! ## The table of lower-triangular cells, from constants -/

/-- The 12 × 12 array of ones with its upper triangle zeroed (`row + 0 ≥ column` keeps an entry). -/
def trilOnes : FVec F S12x12 .f32 :=
  select (cmpi .sge (addi (iotaInDim S12x12 32 0) (broadcastInDim S12x12 ![] bcast_S_S12x12 (constantI S_ 32 0#32))) (iotaInDim S12x12 32 1))
    (broadcastInDim S12x12 ![] bcast_S_S12x12 (constant S_ .f32 0x3F800000#32))
    (broadcastInDim S12x12 ![] bcast_S_S12x12 (constant S_ .f32 0x00000000#32))

/-- The mask of its nonzero cells. -/
def trilMask : IVec S12x12 1 :=
  cmpf .une (trilOnes (F := F)) (broadcastInDim S12x12 ![] bcast_S_S12x12 (constant S_ .f32 0x00000000#32))

/-- The running count of mask cells over the 144 flat positions. -/
def maskCum : IVec S144 32 :=
  Host.reduceWindow IntOp.addi ![144] ![1] ![143] ![0] (extui 32 (shapeCast S144 (trilMask (F := F)) shapeCasts_S12x12_S144) natLt_1_32)
    (broadcastInDim S_ ![] bcast_S_S_ (constantI S_ 32 0#32)) reduceWindows_S144_S144_w144s1p143_0 h_S_

/-- The running count clipped below at 0, a negative one wrapped by 78, as a column of bin numbers. -/
def binIdx : IVec S144x1 32 :=
  let clipped : IVec S144 32 := maxsi (broadcastInDim S144 ![] bcast_S_S144 (id (constantI S_ 32 0#32))) (maskCum (F := F))
  broadcastInDim S144x1 ![0] bcast_S144_S144x1_0
    (select (cmpi .slt clipped (broadcastInDim S144 ![] bcast_S_S144 (constantI S_ 32 0#32)))
      (addi clipped (broadcastInDim S144 ![] bcast_S_S144 (constantI S_ 32 78#32))) clipped)

/-- How many flat positions carry each running count below 78 (a count of 78 falls outside and is dropped). -/
def binCount : IVec S78 32 :=
  Host.scatter scatter_S78_S144x1_S144_n_0_0_1 IntOp.addi (broadcastInDim S78 ![] bcast_S_S78 (constantI S_ 32 0#32))
    (binIdx (F := F)) (broadcastInDim S144 ![] bcast_S_S144 (constantI S_ 32 1#32))

/-- The flat position of the q-th mask cell: the running sum of the bin counts. -/
def flatPos : IVec S78 32 :=
  Host.reduceWindow IntOp.addi ![78] ![1] ![77] ![0] (binCount (F := F))
    (broadcastInDim S_ ![] bcast_S_S_ (constantI S_ 32 0#32)) reduceWindows_S78_S78_w78s1p77_0 h_S_

/-- Division rounding down, as the host writes it: the truncated quotient, less one where the signs differ and the
    remainder is not zero. -/
def floorDiv (x : IVec S78 32) (d : IVec S_ 32) : IVec S78 32 :=
  let q : IVec S78 32 := Host.divsi x (broadcastInDim S78 ![] bcast_S_S78 d)
  select (andi (cmpi .ne (signi x) (broadcastInDim S78 ![] bcast_S_S78 (signi d)))
      (cmpi .ne (Host.remsi x (broadcastInDim S78 ![] bcast_S_S78 d)) (broadcastInDim S78 ![] bcast_S_S78 (constantI S_ 32 0#32))))
    (subi q (broadcastInDim S78 ![] bcast_S_S78 (constantI S_ 32 1#32))) q

/-- The remainder with the divisor's sign, as the host writes it (a zero divisor replaced by one). -/
def floorMod (x : IVec S78 32) (d : IVec S_ 32) : IVec S78 32 :=
  let e : IVec S_ 32 := select (cmpi .eq (id d) (constantI S_ 32 0#32)) (constantI S_ 32 1#32) (id d)
  let t : IVec S78 32 := Host.remsi x (broadcastInDim S78 ![] bcast_S_S78 e)
  select (andi (cmpi .ne (cmpi .slt t (broadcastInDim S78 ![] bcast_S_S78 (constantI S_ 32 0#32)))
        (broadcastInDim S78 ![] bcast_S_S78 (cmpi .slt e (constantI S_ 32 0#32))))
      (cmpi .ne t (broadcastInDim S78 ![] bcast_S_S78 (constantI S_ 32 0#32))))
    (addi t (broadcastInDim S78 ![] bcast_S_S78 e)) t

/-- A negative index wrapped by 12. -/
def wrap12 (x : IVec S78 32) : IVec S78 32 :=
  select (cmpi .slt x (broadcastInDim S78 ![] bcast_S_S78 (constantI S_ 32 0#32)))
    (addi x (broadcastInDim S78 ![] bcast_S_S78 (constantI S_ 32 12#32))) x

/-- The row of the q-th lower-triangular cell: `(flat ÷ 12) mod 12`. -/
def rowIdx : IVec S78 32 := wrap12 (floorMod (floorDiv (flatPos (F := F)) (constantI S_ 32 12#32)) (constantI S_ 32 12#32))

/-- Its column: `(flat ÷ 1) mod 12`. -/
def colIdx : IVec S78 32 := wrap12 (floorMod (floorDiv (flatPos (F := F)) (constantI S_ 32 1#32)) (constantI S_ 32 12#32))

/-- The table of the 78 cells: row in column 0, column in column 1. -/
def trilTable : IVec S78x2 32 :=
  concatenate S78x2 1 [⟨S78x1, broadcastInDim S78x1 ![0] bcast_S78_S78x1_0 (rowIdx (F := F))⟩,
    ⟨S78x1, broadcastInDim S78x1 ![0] bcast_S78_S78x1_0 (colIdx (F := F))⟩] concatenates_S78x1_S78x1_S78x2_d1

/-! ## The fill and the Gram matrix -/

/-- The triangle entries written into a zero array at the table's cells. -/
def fill (tbl : IVec S78x2 32) (v : FVec F S262144x78 .f32) : FVec F S262144x12x12 .f32 :=
  Host.scatter scatter_S262144x12x12_S78x2_S262144x78_0_12_12_1 (fun _ b => b)
    (broadcastInDim S262144x12x12 ![] bcast_S_S262144x12x12 (constant S_ .f32 0x00000000#32)) tbl v

/-- The Gram matrix `L·Lᵀ` of every row of the batch. -/
def gramOf (L : FVec F S262144x12x12 .f32) : FVec F S262144x12x12 .f32 :=
  Host.dotGeneral dot_S262144x12x12_S262144x12x12_S262144x12x12_2_2_1_1_0_0 none L L

/-- The reference's result as a function of its arguments. -/
def refTerm (x : FVec F S262144x12 .f32) (W1 : FVec F S128x12 .f32) (b1 : FVec F S128 .f32) (W2 : FVec F S32x128 .f32)
    (b2 : FVec F S32 .f32) (W3 : FVec F S78x32 .f32) (b3 : FVec F S78 .f32) : FVec F S262144x12x12 .f32 :=
  gramOf (fill (trilTable (F := F)) (triangle x W1 b1 W2 b2 W3 b3))

end Cert.RefStages

end
-- ==== Proof.LibDense.lean ====
/-
  Dense layers on the extended reals, general in the extents.

  A dense layer takes a table `h` of `A` rows and `K` columns, a weight table `W` of `K` rows and `N`
  columns and a bias row `b` of `N` entries, and gives the table whose entry in row `r`, column `j` is

      (∑ k, h r k · W k j) + b j        (`Dense.affine`),

  followed, in a hidden layer, by the hyperbolic tangent (`Dense.layer`). Row `r` of the result is computed
  from row `r` of `h` alone, so taking a slab of rows before the layer or after it is the same
  (`affine_rows`, `layer_rows`).

  Two spellings of such a layer are brought to this form. On the matrix unit: a product into a zero
  accumulator, plus the bias held as a `[1, N]` row broadcast down the rows (`matmul_affine`,
  `matmul_layer`). On the host: a `dot_general` contracting the left table's columns with the right table's
  rows, plus the bias vector broadcast first to a `[1, N]` row and then down the rows (`host_affine`,
  `host_layer`). Both contract ONE axis, so the sum over the contraction positions is a sum over `k : Fin K`
  (`contr_sum`), with the left factor at `(r, k)` and the right factor at `(k, j)`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-! ## The layer -/

/-- Entry `(r, j)` of `h · W + b`: the inner product of row `r` of `h` with column `j` of `W`, plus `b j`. -/
def pre {A K N : Nat} (h : (⟨2, ![A, K]⟩ : Shape).Idx → EReal) (W : (⟨2, ![K, N]⟩ : Shape).Idx → EReal)
    (b : (⟨1, ![N]⟩ : Shape).Idx → EReal) (r : Fin A) (j : Fin N) : EReal :=
  (∑ k : Fin K, h (ix2 r k) * W (ix2 k j)) + b (ix1 j)

/-- The table `h · W + b` (a layer with no activation). -/
def affine {A K N : Nat} (h : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => pre h W b (i 0) (i 1)

/-- The table `tanh (h · W + b)` (a hidden layer). -/
def layer {A K N : Nat} (h : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => Ideal.tanh (pre h W b (i 0) (i 1))

/-- The rows `ρ 0, ρ 1, …` of a table, as a table of their own. -/
def rows {A B K : Nat} (ρ : Fin A → Fin B) (h : (⟨2, ![B, K]⟩ : Shape).Idx → EReal) :
    (⟨2, ![A, K]⟩ : Shape).Idx → EReal :=
  fun i => h (ix2 (ρ (i 0)) (i 1))

/-- A layer's row `r` is computed from row `r` of its input: selecting rows before or after the layer is the same. -/
theorem affine_rows {A B K N : Nat} (ρ : Fin A → Fin B) (h : (⟨2, ![B, K]⟩ : Shape).Idx → EReal)
    (W : (⟨2, ![K, N]⟩ : Shape).Idx → EReal) (b : (⟨1, ![N]⟩ : Shape).Idx → EReal) :
    affine (rows ρ h) W b = rows ρ (affine h W b) := rfl

theorem layer_rows {A B K N : Nat} (ρ : Fin A → Fin B) (h : (⟨2, ![B, K]⟩ : Shape).Idx → EReal)
    (W : (⟨2, ![K, N]⟩ : Shape).Idx → EReal) (b : (⟨1, ![N]⟩ : Shape).Idx → EReal) :
    layer (rows ρ h) W b = rows ρ (layer h W b) := rfl

/-- The bias row of a `[1, N]` table. -/
def row0 {N : Nat} (b : (⟨2, ![1, N]⟩ : Shape).Idx → EReal) : (⟨1, ![N]⟩ : Shape).Idx → EReal :=
  fun j => b (ix2 (0 : Fin 1) (j 0))

/-- A vector recast as a `[1, N]` table has the vector as its row. -/
theorem row0_shapeCast {N : Nat} (b : (⟨1, ![N]⟩ : Shape).Idx → EReal)
    (h : (⟨1, ![N]⟩ : Shape).ShapeCasts ⟨2, ![1, N]⟩) : row0 (shapeCast ⟨2, ![1, N]⟩ b h) = b := by
  funext j
  obtain ⟨q, rfl⟩ : ∃ q : Fin N, j = ix1 q := ⟨j 0, eq_ix1 j⟩
  exact shapeCast_a_1a_apply b h 0 q

/-! ## One contracted axis: the contraction positions are `Fin K` -/

/-- The dimension numbers of a plain product `[A, K] × [K, N] → [A, N]`: the left table's columns are contracted
    with the right table's rows, and there is no batch axis. -/
abbrev plainDims {A K N : Nat}
    (wf : DotDims.WF (⟨2, ![A, K]⟩ : Shape) ⟨2, ![K, N]⟩ ⟨2, ![A, N]⟩ [1] [0] [0] [1] [] []) :
    DotDims ⟨2, ![A, K]⟩ ⟨2, ![K, N]⟩ ⟨2, ![A, N]⟩ where
  lhsContracting := [1]
  rhsContracting := [0]
  lhsNonContracting := [0]
  rhsNonContracting := [1]
  lhsBatch := []
  rhsBatch := []
  wf := wf

section Contr

variable {A K N : Nat} (wf : DotDims.WF (⟨2, ![A, K]⟩ : Shape) ⟨2, ![K, N]⟩ ⟨2, ![A, N]⟩ [1] [0] [0] [1] [] [])

/-- The left operand's index at output `(r, j)` and a contraction position: its row is `r`. -/
theorem lhs_row (i : (⟨2, ![A, N]⟩ : Shape).Idx) (q : (plainDims wf).contr.Idx) :
    ((plainDims wf).lhsIdx i q 0).val = (i 0).val := by
  unfold DotDims.lhsIdx
  have hb : ¬(0 : Fin (⟨2, ![A, K]⟩ : Shape).rank) ∈ (plainDims wf).lhsBatch := List.not_mem_nil
  have hn : (0 : Fin (⟨2, ![A, K]⟩ : Shape).rank) ∈ (plainDims wf).lhsNonContracting := List.mem_singleton.mpr rfl
  rw [dif_neg hb, dif_pos hn]
  rfl

/-- The right operand's index at output `(r, j)` and a contraction position: its column is `j`. -/
theorem rhs_col (i : (⟨2, ![A, N]⟩ : Shape).Idx) (q : (plainDims wf).contr.Idx) :
    ((plainDims wf).rhsIdx i q 1).val = (i 1).val := by
  unfold DotDims.rhsIdx
  have hb : ¬(1 : Fin (⟨2, ![K, N]⟩ : Shape).rank) ∈ (plainDims wf).rhsBatch := List.not_mem_nil
  have hn : (1 : Fin (⟨2, ![K, N]⟩ : Shape).rank) ∈ (plainDims wf).rhsNonContracting := List.mem_singleton.mpr rfl
  rw [dif_neg hb, dif_pos hn]
  rfl

/-- The sum over the contraction positions of a plain product is the sum over `k : Fin K` of the left factor at
    `(r, k)` times the right factor at `(k, j)`. -/
theorem contr_sum (l : (⟨2, ![A, K]⟩ : Shape).Idx → EReal) (r : (⟨2, ![K, N]⟩ : Shape).Idx → EReal)
    (i : (⟨2, ![A, N]⟩ : Shape).Idx) :
    ∑ q : (plainDims wf).contr.Idx, l ((plainDims wf).lhsIdx i q) * r ((plainDims wf).rhsIdx i q)
      = ∑ k : Fin K, l (ix2 (i 0) k) * r (ix2 k (i 1)) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx i ((contrEquiv1 (plainDims wf) K rfl rfl).symm k) = ix2 (i 0) k :=
    funext fun a => Fin.ext (by
      match a with
      | ⟨0, _⟩ => exact lhs_row wf _ _
      | ⟨1, _⟩ => exact ((plainDims wf).lhsIdx_val_of_single rfl _ _).trans hk)
  have er : (plainDims wf).rhsIdx i ((contrEquiv1 (plainDims wf) K rfl rfl).symm k) = ix2 k (i 1) :=
    funext fun a => Fin.ext (by
      match a with
      | ⟨0, _⟩ => exact ((plainDims wf).rhsIdx_val_of_single rfl _ _).trans hk
      | ⟨1, _⟩ => exact rhs_col wf _ _)
  rw [el, er]
  rfl

/-! ## The matrix unit's spelling -/

/-- A product into the zero accumulator, plus a `[1, N]` bias row broadcast down the rows. -/
theorem matmul_affine (hc : (⟨2, ![1, N]⟩ : Shape).ShapeCasts ⟨2, ![1, N]⟩)
    (hb : (⟨2, ![1, N]⟩ : Shape).Broadcasts ⟨2, ![A, N]⟩)
    (h : FVec Ideal ⟨2, ![A, K]⟩ .f32) (W : FVec Ideal ⟨2, ![K, N]⟩ .f32) (b : FVec Ideal ⟨2, ![1, N]⟩ .f32) :
    addf (matmul (plainDims wf) none h W (constant ⟨2, ![A, N]⟩ .f32 0x00000000#32))
        (broadcastTo ⟨2, ![A, N]⟩ (shapeCast ⟨2, ![1, N]⟩ b hc) hb)
      = affine h W (row0 b) := by
  funext i
  obtain ⟨p, q, rfl⟩ : ∃ (p : Fin A) (q : Fin N), i = ix2 p q := ⟨i 0, i 1, eq_ix2 i⟩
  show FloatOps.matmul (plainDims wf) none h W (constant ⟨2, ![A, N]⟩ .f32 0x00000000#32) (ix2 p q)
      + broadcastTo ⟨2, ![A, N]⟩ (shapeCast ⟨2, ![1, N]⟩ b hc) hb (ix2 p q) = _
  rw [shapeCast_self, broadcastTo_1b_ab_apply, Ideal.matmul_constant_zero_apply]
  exact congrArg (· + b (ix2 (0 : Fin 1) q)) (contr_sum wf h W (ix2 p q))

/-- The same under the hyperbolic tangent: a hidden layer. -/
theorem matmul_layer (hc : (⟨2, ![1, N]⟩ : Shape).ShapeCasts ⟨2, ![1, N]⟩)
    (hb : (⟨2, ![1, N]⟩ : Shape).Broadcasts ⟨2, ![A, N]⟩)
    (h : FVec Ideal ⟨2, ![A, K]⟩ .f32) (W : FVec Ideal ⟨2, ![K, N]⟩ .f32) (b : FVec Ideal ⟨2, ![1, N]⟩ .f32) :
    tanh (addf (matmul (plainDims wf) none h W (constant ⟨2, ![A, N]⟩ .f32 0x00000000#32))
        (broadcastTo ⟨2, ![A, N]⟩ (shapeCast ⟨2, ![1, N]⟩ b hc) hb))
      = layer h W (row0 b) := by
  rw [matmul_affine wf hc hb h W b]
  rfl

/-! ## The host's spelling -/

/-- A bias vector broadcast to a `[1, N]` row and then down the rows, read at `(p, q)`, is the vector at `q`. -/
theorem host_bias (hb1 : (⟨1, ![N]⟩ : Shape).BroadcastsInDim ⟨2, ![1, N]⟩ ![1])
    (hb2 : (⟨2, ![1, N]⟩ : Shape).BroadcastsInDim ⟨2, ![A, N]⟩ ![0, 1])
    (b : (⟨1, ![N]⟩ : Shape).Idx → EReal) (p : Fin A) (q : Fin N) :
    broadcastInDim ⟨2, ![A, N]⟩ ![0, 1] hb2 (broadcastInDim ⟨2, ![1, N]⟩ ![1] hb1 b) (ix2 p q) = b (ix1 q) := by
  refine (broadcastInDim_apply ![0, 1] hb2 _ (ix2 p q) (ix2 (0 : Fin 1) q) fun ax => ?_).trans
    (broadcastInDim_apply ![1] hb1 b (ix2 (0 : Fin 1) q) (ix1 q) fun ax => ?_)
  · match ax with
    | ⟨0, _⟩ => rfl
    | ⟨1, _⟩ =>
      show q.val = if N = 1 then 0 else q.val
      split
      · have := q.isLt; omega
      · rfl
  · match ax with
    | ⟨0, _⟩ =>
      show q.val = if N = 1 then 0 else q.val
      split
      · have := q.isLt; omega
      · rfl

/-- A `dot_general` of a plain product, plus the bias vector broadcast to a row and down the rows. -/
theorem host_affine (hb1 : (⟨1, ![N]⟩ : Shape).BroadcastsInDim ⟨2, ![1, N]⟩ ![1])
    (hb2 : (⟨2, ![1, N]⟩ : Shape).BroadcastsInDim ⟨2, ![A, N]⟩ ![0, 1])
    (h : FVec Ideal ⟨2, ![A, K]⟩ .f32) (W : FVec Ideal ⟨2, ![K, N]⟩ .f32) (b : FVec Ideal ⟨1, ![N]⟩ .f32) :
    addf (Host.dotGeneral (F := Ideal) (plainDims wf) none h W)
        (broadcastInDim ⟨2, ![A, N]⟩ ![0, 1] hb2 (broadcastInDim ⟨2, ![1, N]⟩ ![1] hb1 b))
      = affine h W b := by
  funext i
  obtain ⟨p, q, rfl⟩ : ∃ (p : Fin A) (q : Fin N), i = ix2 p q := ⟨i 0, i 1, eq_ix2 i⟩
  show FloatOps.dotGeneral (plainDims wf) none .single h W (ix2 p q)
      + broadcastInDim ⟨2, ![A, N]⟩ ![0, 1] hb2 (broadcastInDim ⟨2, ![1, N]⟩ ![1] hb1 b) (ix2 p q) = _
  rw [host_bias hb1 hb2 b p q, Ideal.dotGeneral_apply]
  exact congrArg (· + b (ix1 q)) (contr_sum wf h W (ix2 p q))

/-- The same under the host's hyperbolic tangent: a hidden layer. -/
theorem host_layer (hb1 : (⟨1, ![N]⟩ : Shape).BroadcastsInDim ⟨2, ![1, N]⟩ ![1])
    (hb2 : (⟨2, ![1, N]⟩ : Shape).BroadcastsInDim ⟨2, ![A, N]⟩ ![0, 1])
    (h : FVec Ideal ⟨2, ![A, K]⟩ .f32) (W : FVec Ideal ⟨2, ![K, N]⟩ .f32) (b : FVec Ideal ⟨1, ![N]⟩ .f32) :
    Host.tanh (F := Ideal) (addf (Host.dotGeneral (F := Ideal) (plainDims wf) none h W)
        (broadcastInDim ⟨2, ![A, N]⟩ ![0, 1] hb2 (broadcastInDim ⟨2, ![1, N]⟩ ![1] hb1 b)))
      = layer h W b := by
  rw [host_affine wf hb1 hb2 h W b]
  rfl

end Contr

end Cert.Dense

end
-- ==== Proof.LibBatchedGram.lean ====
/-
  The batched product of a stack of matrices with a stack of matrices, each contracted on its LAST axis:
  for operands lhs : [B, M, K] and rhs : [B, N, K] and dimension numbers that contract axis 2 of both,
  keep axis 1 of both and batch over axis 0 of both, the entry (b, i, k) of the product is
  the sum over j : Fin K of lhs (b, i, j) * rhs (b, k, j): the operand indices at a result index and a
  contraction index are read coordinate by coordinate, and the contraction's sum is re-indexed by its one
  coordinate. Stated for any batch extent B and any extents M, N, K, both for a matrix unit's product into
  the zero accumulator and for the host's dot_general.
-/
import Idealize.ShloMosaic.PureOps.Ideal.Laws
import Idealize.ShloMosaic.Lib.ValueIdx

noncomputable section

open scoped BigOperators

namespace Cert.BatchedGram

open Idealize.ShloMosaic Idealize.ShloMosaic.ValueIdx

variable {B M N K : Nat}

/-- The dimension numbers of bij,bkj->bik: contract axis 2 with axis 2, free axes 1 and 1, batch axes 0 and 0. -/
abbrev dims (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := wf

variable (wf : DotDims.WF ⟨3, ![B, M, K]⟩ ⟨3, ![B, N, K]⟩ ⟨3, ![B, M, N]⟩ [2] [2] [1] [1] [0] [0])

/-- The left operand is read at the result's batch coordinate, -/
theorem lhs_0 (i : (⟨3, ![B, M, N]⟩ : Shape).Idx) (q : (dims wf).contr.Idx) :
    ((dims wf).lhsIdx i q 0).val = (i 0).val := by
  unfold DotDims.lhsIdx
  rw [dif_pos (show (0 : Fin (⟨3, ![B, M, K]⟩ : Shape).rank) ∈ (dims wf).lhsBatch from List.mem_singleton.mpr rfl)]
  rfl
/-- at the result's row coordinate, -/
theorem lhs_1 (i : (⟨3, ![B, M, N]⟩ : Shape).Idx) (q : (dims wf).contr.Idx) :
    ((dims wf).lhsIdx i q 1).val = (i 1).val := by
  unfold DotDims.lhsIdx
  rw [dif_neg (show ¬(1 : Fin (⟨3, ![B, M, K]⟩ : Shape).rank) ∈ (dims wf).lhsBatch from fun h => absurd (congrArg Fin.val (List.mem_singleton.mp h)) Nat.one_ne_zero),
    dif_pos (show (1 : Fin (⟨3, ![B, M, K]⟩ : Shape).rank) ∈ (dims wf).lhsNonContracting from List.mem_singleton.mpr rfl)]
  rfl
/-- and at the contraction position. -/
theorem lhs_2 (i : (⟨3, ![B, M, N]⟩ : Shape).Idx) (q : (dims wf).contr.Idx) :
    ((dims wf).lhsIdx i q 2).val = (q ⟨0, Nat.one_pos⟩).val :=
  (dims wf).lhsIdx_val_of_single rfl i q
/-- The right operand is read at the result's batch coordinate, -/
theorem rhs_0 (i : (⟨3, ![B, M, N]⟩ : Shape).Idx) (q : (dims wf).contr.Idx) :
    ((dims wf).rhsIdx i q 0).val = (i 0).val := by
  unfold DotDims.rhsIdx
  rw [dif_pos (show (0 : Fin (⟨3, ![B, N, K]⟩ : Shape).rank) ∈ (dims wf).rhsBatch from List.mem_singleton.mpr rfl)]
  rfl
/-- at the result's COLUMN coordinate, -/
theorem rhs_1 (i : (⟨3, ![B, M, N]⟩ : Shape).Idx) (q : (dims wf).contr.Idx) :
    ((dims wf).rhsIdx i q 1).val = (i 2).val := by
  unfold DotDims.rhsIdx
  rw [dif_neg (show ¬(1 : Fin (⟨3, ![B, N, K]⟩ : Shape).rank) ∈ (dims wf).rhsBatch from fun h => absurd (congrArg Fin.val (List.mem_singleton.mp h)) Nat.one_ne_zero),
    dif_pos (show (1 : Fin (⟨3, ![B, N, K]⟩ : Shape).rank) ∈ (dims wf).rhsNonContracting from List.mem_singleton.mpr rfl)]
  rfl
/-- and at the contraction position. -/
theorem rhs_2 (i : (⟨3, ![B, M, N]⟩ : Shape).Idx) (q : (dims wf).contr.Idx) :
    ((dims wf).rhsIdx i q 2).val = (q ⟨0, Nat.one_pos⟩).val :=
  (dims wf).rhsIdx_val_of_single rfl i q

/-- The contraction's sum at entry (b, i, k), re-indexed by the contracted coordinate j. -/
theorem sum_apply (lhs : (⟨3, ![B, M, K]⟩ : Shape).Idx → EReal) (rhs : (⟨3, ![B, N, K]⟩ : Shape).Idx → EReal)
    (b : Fin B) (i : Fin M) (k : Fin N) :
    ∑ q : (dims wf).contr.Idx, lhs ((dims wf).lhsIdx (ix3 b i k) q) * rhs ((dims wf).rhsIdx (ix3 b i k) q)
      = ∑ j : Fin K, lhs (ix3 b i j) * rhs (ix3 b k j) := by
  rw [← Equiv.sum_comp (contrEquiv1 (dims wf) K rfl rfl).symm]
  refine Finset.sum_congr rfl fun j _ => ?_
  have hk := contrEquiv1_symm_val (dims wf) K rfl rfl j
  have el : (dims wf).lhsIdx (ix3 b i k) ((contrEquiv1 (dims wf) K rfl rfl).symm j) = ix3 b i j :=
    funext fun a => Fin.ext (by
      match a with
      | ⟨0, _⟩ => exact lhs_0 wf _ _
      | ⟨1, _⟩ => exact lhs_1 wf _ _
      | ⟨2, _⟩ => exact (lhs_2 wf _ _).trans hk)
  have er : (dims wf).rhsIdx (ix3 b i k) ((contrEquiv1 (dims wf) K rfl rfl).symm j) = ix3 b k j :=
    funext fun a => Fin.ext (by
      match a with
      | ⟨0, _⟩ => exact rhs_0 wf _ _
      | ⟨1, _⟩ => exact rhs_1 wf _ _
      | ⟨2, _⟩ => exact (rhs_2 wf _ _).trans hk)
  rw [el, er]

/-- The same for ANY dimension numbers with those six lists. -/
theorem sum_apply_of_eq (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (lhs : (⟨3, ![B, M, K]⟩ : Shape).Idx → EReal) (rhs : (⟨3, ![B, N, K]⟩ : Shape).Idx → EReal)
    (b : Fin B) (i : Fin M) (k : Fin N) :
    ∑ q : d.contr.Idx, lhs (d.lhsIdx (ix3 b i k) q) * rhs (d.rhsIdx (ix3 b i k) q)
      = ∑ j : Fin K, lhs (ix3 b i j) * rhs (ix3 b k j) := by
  obtain ⟨lc, rc, ln, rn, lb, rb, wf⟩ := d
  dsimp only at hlc hrc hln hrn hlb hrb
  subst hlc hrc hln hrn hlb hrb
  exact sum_apply wf lhs rhs b i k

/-- A matrix unit's batched product into the zero accumulator, at entry (b, i, k). -/
theorem matmul_zero_apply {φ₁ φ₂ : FTy} (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (lhs : FVec Ideal ⟨3, ![B, M, K]⟩ φ₁) (rhs : FVec Ideal ⟨3, ![B, N, K]⟩ φ₂)
    (b : Fin B) (i : Fin M) (k : Fin N) :
    FloatOps.matmul d prec lhs rhs (constant (F := Ideal) ⟨3, ![B, M, N]⟩ .f32 0x00000000#32) (ix3 b i k)
      = ∑ j : Fin K, lhs (ix3 b i j) * rhs (ix3 b k j) :=
  (Ideal.matmul_constant_zero_apply d prec lhs rhs (ix3 b i k)).trans
    (sum_apply_of_eq d hlc hrc hln hrn hlb hrb lhs rhs b i k)

/-- The host's batched dot_general, at entry (b, i, k). -/
theorem dotGeneral_apply {φ₁ φ₂ : FTy} (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (sched : HostSchedule) (lhs : FVec Ideal ⟨3, ![B, M, K]⟩ φ₁)
    (rhs : FVec Ideal ⟨3, ![B, N, K]⟩ φ₂) (b : Fin B) (i : Fin M) (k : Fin N) :
    FloatOps.dotGeneral d prec sched lhs rhs (ix3 b i k) = ∑ j : Fin K, lhs (ix3 b i j) * rhs (ix3 b k j) :=
  (Ideal.dotGeneral_apply d prec sched lhs rhs (ix3 b i k)).trans
    (sum_apply_of_eq d hlc hrc hln hrn hlb hrb lhs rhs b i k)

end Cert.BatchedGram

end
-- ==== Proof.RefFloat.lean ====
/-
  The reference's float stages read at an entry, and its whole result as the specification's Gram matrix.

  Each affine stage is a contraction with the transposed weight matrix plus the bias row, so its entry `(r, c)` is
  `Σ_k h r k · W c k + b c`. The host's exponential linear unit, `select(p > 0, p, 1 · expm1(select(p > 0, 0, p)))`, is
  the specification's: where `0 < p` both give `p`; elsewhere the inner select gives `p` back, `expm1 p = eᵖ − 1`, and
  multiplying by one changes nothing. The host's softplus compares `p − 0` with itself for inequality, which never holds
  on the extended reals, so it is `max(p, 0) + log1p(exp(−|p − 0|))` with `p − 0 = p`. The Gram stage is a batched
  contraction of the last axis: entry `(r, i, k)` is `Σ_j L r i j · L r k j`. With the triangle entries written at the
  lower-triangular cells of a zero array (a hypothesis here, proved where the table of cells is evaluated), the
  reference's result is the specification.
-/
import proofs.«153956_j18674517803680_1_alg».proof.Proof.RefStages
import proofs.«153956_j18674517803680_1_alg».proof.Proof.Spec
import proofs.«153956_j18674517803680_1_alg».proof.Proof.LibDense
import proofs.«153956_j18674517803680_1_alg».proof.Proof.LibBatchedGram
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.RefFloat

open Cert.ReferenceIdeal Cert.ReferenceIdeal.Gen Cert.RefStages Idealize.ShloMosaic Idealize.ShloMosaic.ValueIdx

/-! ## The two activations on one extended real -/

/-- The comparison `p > 0` as a bit. -/
theorem cmp_ogt_zero (p : EReal) : Ideal.cmp .ogt p 0 = if 0 < p then 1#1 else 0#1 := by
  unfold Ideal.cmp
  by_cases h : 0 < p <;> simp [h]

/-- The host's exponential linear unit on one number is the specification's. -/
theorem elu_host (p : EReal) :
    Scalar.select (Ideal.cmp .ogt p 0) p (1 * (Ideal.exp (Scalar.select (Ideal.cmp .ogt p 0) 0 p) - 1)) = Cert.Spec.elu p := by
  unfold Cert.Spec.elu
  rw [cmp_ogt_zero]
  by_cases h : 0 < p
  · rw [if_pos h, if_pos h, select_one]
  · rw [if_neg h, if_neg h, select_zero, select_zero, one_mul]

/-- A number is never different from itself. -/
theorem cmp_une_self (d : EReal) : Ideal.cmp .une d d = 0#1 := by
  unfold Ideal.cmp
  simp

/-- The host's softplus on one number is the specification's. -/
theorem softplus_host (p : EReal) :
    Scalar.select (Ideal.cmp .une (p - 0) (p - 0)) (p + 0)
      (max p 0 + Ideal.log1p (Ideal.exp (-(max (p - 0) (-(p - 0)))))) = Cert.Spec.softplus p := by
  unfold Cert.Spec.softplus
  rw [cmp_une_self, select_zero, sub_zero]

/-! ## The stages at an entry -/

theorem elu128_apply (a : FVec Ideal S262144x128 .f32) (j : S262144x128.Idx) :
    elu128 (F := Ideal) a j = Cert.Spec.elu (a j) := by
  show Scalar.select (Ideal.cmp .ogt (a j) (Ideal.ofBits .f32 0x00000000#32)) (a j)
      (Ideal.ofBits .f32 0x3F800000#32
        * (Ideal.exp (Scalar.select (Ideal.cmp .ogt (a j) (Ideal.ofBits .f32 0x00000000#32)) (Ideal.ofBits .f32 0x00000000#32) (a j)) - 1))
    = _
  rw [Ideal.ofBits_zero_f32, Ideal.ofBits_one_f32]
  exact elu_host (a j)

theorem elu32_apply (a : FVec Ideal S262144x32 .f32) (j : S262144x32.Idx) :
    elu32 (F := Ideal) a j = Cert.Spec.elu (a j) := by
  show Scalar.select (Ideal.cmp .ogt (a j) (Ideal.ofBits .f32 0x00000000#32)) (a j)
      (Ideal.ofBits .f32 0x3F800000#32
        * (Ideal.exp (Scalar.select (Ideal.cmp .ogt (a j) (Ideal.ofBits .f32 0x00000000#32)) (Ideal.ofBits .f32 0x00000000#32) (a j)) - 1))
    = _
  rw [Ideal.ofBits_zero_f32, Ideal.ofBits_one_f32]
  exact elu_host (a j)

theorem softplus78_apply (a : FVec Ideal S262144x78 .f32) (j : S262144x78.Idx) :
    softplus78 (F := Ideal) a j = Cert.Spec.softplus (a j) := by
  show Scalar.select (Ideal.cmp .une (a j - Ideal.ofBits .f32 0x00000000#32) (a j - Ideal.ofBits .f32 0x00000000#32))
      (a j + Ideal.ofBits .f32 0x00000000#32)
      (max (a j) (Ideal.ofBits .f32 0x00000000#32)
        + Ideal.log1p (Ideal.exp (-(max (a j - Ideal.ofBits .f32 0x00000000#32) (-(a j - Ideal.ofBits .f32 0x00000000#32))))))
    = _
  rw [Ideal.ofBits_zero_f32]
  exact softplus_host (a j)

/-- The first affine stage at an entry. -/
theorem affine1_apply (x : FVec Ideal S262144x12 .f32) (W1 : FVec Ideal S128x12 .f32) (b1 : FVec Ideal S128 .f32)
    (r : Fin 262144) (c : Fin 128) :
    affine1 (F := Ideal) x W1 b1 (ix2 r c) = (∑ k : Fin 12, x (ix2 r k) * W1 (ix2 c k)) + b1 (ix1 c) := by
  have e : affine1 (F := Ideal) x W1 b1
      = Cert.Dense.affine x (transpose S12x128 [1, 0] W1 transposes_S128x12_S12x128_1_0) b1 :=
    Cert.Dense.host_affine dot_S262144x12_S12x128_S262144x128_1_0_0_1_n_n_wf bcast_S128_S1x128_1 bcast_S1x128_S262144x128_0_1 x _ b1
  rw [e]
  show (∑ k : Fin 12, x (ix2 r k) * transpose S12x128 [1, 0] W1 transposes_S128x12_S12x128_1_0 (ix2 k c)) + b1 (ix1 c) = _
  exact congrArg (· + b1 (ix1 c)) (Finset.sum_congr rfl fun k _ =>
    congrArg (x (ix2 r k) * ·) (transpose_ix2_apply W1 transposes_S128x12_S12x128_1_0 k c))

/-- The second affine stage at an entry. -/
theorem affine2_apply (h : FVec Ideal S262144x128 .f32) (W2 : FVec Ideal S32x128 .f32) (b2 : FVec Ideal S32 .f32)
    (r : Fin 262144) (a : Fin 32) :
    affine2 (F := Ideal) h W2 b2 (ix2 r a) = (∑ c : Fin 128, h (ix2 r c) * W2 (ix2 a c)) + b2 (ix1 a) := by
  have e : affine2 (F := Ideal) h W2 b2
      = Cert.Dense.affine h (transpose S128x32 [1, 0] W2 transposes_S32x128_S128x32_1_0) b2 :=
    Cert.Dense.host_affine dot_S262144x128_S128x32_S262144x32_1_0_0_1_n_n_wf bcast_S32_S1x32_1 bcast_S1x32_S262144x32_0_1 h _ b2
  rw [e]
  show (∑ c : Fin 128, h (ix2 r c) * transpose S128x32 [1, 0] W2 transposes_S32x128_S128x32_1_0 (ix2 c a)) + b2 (ix1 a) = _
  exact congrArg (· + b2 (ix1 a)) (Finset.sum_congr rfl fun c _ =>
    congrArg (h (ix2 r c) * ·) (transpose_ix2_apply W2 transposes_S32x128_S128x32_1_0 c a))

/-- The third affine stage at an entry. -/
theorem affine3_apply (h : FVec Ideal S262144x32 .f32) (W3 : FVec Ideal S78x32 .f32) (b3 : FVec Ideal S78 .f32)
    (r : Fin 262144) (q : Fin 78) :
    affine3 (F := Ideal) h W3 b3 (ix2 r q) = (∑ a : Fin 32, h (ix2 r a) * W3 (ix2 q a)) + b3 (ix1 q) := by
  have e : affine3 (F := Ideal) h W3 b3
      = Cert.Dense.affine h (transpose S32x78 [1, 0] W3 transposes_S78x32_S32x78_1_0) b3 :=
    Cert.Dense.host_affine dot_S262144x32_S32x78_S262144x78_1_0_0_1_n_n_wf bcast_S78_S1x78_1 bcast_S1x78_S262144x78_0_1 h _ b3
  rw [e]
  show (∑ a : Fin 32, h (ix2 r a) * transpose S32x78 [1, 0] W3 transposes_S78x32_S32x78_1_0 (ix2 a q)) + b3 (ix1 q) = _
  exact congrArg (· + b3 (ix1 q)) (Finset.sum_congr rfl fun a _ =>
    congrArg (h (ix2 r a) * ·) (transpose_ix2_apply W3 transposes_S78x32_S32x78_1_0 a q))

section

variable (x : FVec Ideal S262144x12 .f32) (W1 : FVec Ideal S128x12 .f32) (b1 : FVec Ideal S128 .f32)
  (W2 : FVec Ideal S32x128 .f32) (b2 : FVec Ideal S32 .f32) (W3 : FVec Ideal S78x32 .f32) (b3 : FVec Ideal S78 .f32)

/-- The triangle entries of the reference are the specification's. -/
theorem triangle_apply (r : Fin 262144) (q : Fin 78) :
    triangle (F := Ideal) x W1 b1 W2 b2 W3 b3 (ix2 r q) = Cert.Spec.tri x W1 b1 W2 b2 W3 b3 r q := by
  unfold triangle Cert.Spec.tri Cert.Spec.pre3
  rw [softplus78_apply, affine3_apply]
  refine congrArg Cert.Spec.softplus (congrArg (· + b3 (ix1 q)) (Finset.sum_congr rfl fun a _ => congrArg (· * W3 (ix2 q a)) ?_))
  unfold Cert.Spec.hid2 Cert.Spec.pre2
  rw [elu32_apply, affine2_apply]
  refine congrArg Cert.Spec.elu (congrArg (· + b2 (ix1 a)) (Finset.sum_congr rfl fun c _ => congrArg (· * W2 (ix2 a c)) ?_))
  unfold Cert.Spec.hid1 Cert.Spec.pre1
  rw [elu128_apply, affine1_apply]

/-- The Gram stage at an entry. -/
theorem gramOf_apply (L : FVec Ideal S262144x12x12 .f32) (r : Fin 262144) (i k : Fin 12) :
    gramOf (F := Ideal) L (ix3 r i k) = ∑ j : Fin 12, L (ix3 r i j) * L (ix3 r k j) :=
  Cert.BatchedGram.dotGeneral_apply dot_S262144x12x12_S262144x12x12_S262144x12x12_2_2_1_1_0_0 rfl rfl rfl rfl rfl rfl none .single L L r i k

/-- The reference's result is the specification, given that the fill puts the triangle entries at the
    lower-triangular cells of a zero array. -/
theorem refTerm_eq
    (hfill : ∀ (v : FVec Ideal S262144x78 .f32) (r : Fin 262144) (i j : Fin 12),
      fill (F := Ideal) (trilTable (F := Ideal)) v (ix3 r i j) = if h : j ≤ i then v (ix2 r (Cert.Spec.triPos i j h)) else 0) :
    refTerm (F := Ideal) x W1 b1 W2 b2 W3 b3 = Cert.Spec.G x W1 b1 W2 b2 W3 b3 := by
  funext idx
  obtain ⟨r, i, k, rfl⟩ : ∃ (r : Fin 262144) (i k : Fin 12), idx = ix3 r i k := ⟨idx 0, idx 1, idx 2, eq_ix3 idx⟩
  rw [Cert.Spec.G_apply]
  unfold refTerm Cert.Spec.gram
  rw [gramOf_apply]
  refine Finset.sum_congr rfl fun j _ => ?_
  have hl : ∀ (i j : Fin 12), fill (F := Ideal) (trilTable (F := Ideal)) (triangle (F := Ideal) x W1 b1 W2 b2 W3 b3) (ix3 r i j)
      = Cert.Spec.lower x W1 b1 W2 b2 W3 b3 r i j := by
    intro i j
    rw [hfill]
    unfold Cert.Spec.lower
    by_cases h : j ≤ i
    · rw [dif_pos h, dif_pos h, triangle_apply]
    · rw [dif_neg h, dif_neg h]
  rw [hl, hl]

end

end Cert.RefFloat

end
-- ==== Proof.Assemble.lean ====
/-
  The five claims from three facts.

  The two kernel programs run, and leave their arguments alone, by their generated frames. The reference runs by its own
  run read back. The idealized kernel's result array is the specification's function `G` of its arguments; the
  reference's result is the composition of its host operations, which is `G` of ITS arguments; the two memories agree on
  the arguments; so the results are equal, entry by entry, as extended reals. Nothing here uses that an input is finite:
  the two sides differ only in the order of finite sums and in `p − 0`, `p + 0`, `0 − p`, `1 · p`, which hold on all of
  the extended reals.

  The three facts are taken as hypotheses: what the kernel's body computes from its blocks (`hbody`), where the
  reference's fill puts the triangle entries (`hfill`), and the reference's run ending at the composed term (`hrun`).
-/
import proofs.«153956_j18674517803680_1_alg».proof.Defs
import proofs.«153956_j18674517803680_1_alg».proof.Proof.Gen.Kernel
import proofs.«153956_j18674517803680_1_alg».proof.Proof.Gen.Kernel.Frame
import proofs.«153956_j18674517803680_1_alg».proof.Proof.Gen.KernelIdeal
import proofs.«153956_j18674517803680_1_alg».proof.Proof.Gen.KernelIdeal.Frame
import proofs.«153956_j18674517803680_1_alg».proof.Proof.Gen.KernelIdeal.Value
import proofs.«153956_j18674517803680_1_alg».proof.Proof.Gen.ReferenceIdeal
import proofs.«153956_j18674517803680_1_alg».proof.Proof.Gen.Pre_finite_inputs
import proofs.«153956_j18674517803680_1_alg».proof.Proof.KernelBlocks
import proofs.«153956_j18674517803680_1_alg».proof.Proof.RefFloat

noncomputable section

open Idealize.ShloMosaic Idealize.ShloMosaic.TcCoe Idealize.SL.Sem Idealize.ShloMosaic.ValueIdx

namespace Cert.Assemble

/-- Where the reference's fill puts the triangle entries: at the lower-triangular cells of a zero array. -/
def FillSpec : Prop :=
  ∀ (v : FVec Ideal Cert.ReferenceIdeal.S262144x78 .f32) (r : Fin 262144) (i j : Fin 12),
    Cert.RefStages.fill (F := Ideal) (Cert.RefStages.trilTable (F := Ideal)) v (ix3 r i j)
      = if h : j ≤ i then v (ix2 r (Cert.Spec.triPos i j h)) else 0

/-- The reference's run, read back to the composed term of its arguments. -/
def RefRunSpec : Prop :=
  ∀ (m : (ℓ : Loc Cert.ReferenceIdeal.nD Cert.ReferenceIdeal.τ Cert.ReferenceIdeal.sig) → Buf (Elt Ideal) ℓ)
    (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v53)
          = Cert.RefStages.refTerm (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference (hrun : RefRunSpec) : Cert.frame_ReferenceIdeal := fun m ρ _ =>
  (θ_run Cert.ReferenceIdeal.defs _ _).mono (fun _ h c => (h c).2) (hrun m ρ)

/-- The idealization rewrote nothing. -/
theorem preserves : Cert.preserves_Kernel_KernelIdeal := trivial

/-- Both idealized programs end at the specification's array of the (agreeing) arguments. -/
theorem algebraic (hbody : Cert.KernelBlocks.BodySpec) (hfill : FillSpec) (hrun : RefRunSpec) :
    Cert.algebraic_KernelIdeal_ReferenceIdeal := by
  intro m ρ m' ρ' _ hagree
  refine ⟨fun c => Cert.KernelBlocks.specOf m c, Cert.KernelBlocks.kernel_run m ρ hbody, ?_⟩
  refine (θ_run Cert.ReferenceIdeal.defs _ _).mono (fun _ h c => ⟨(h c).1.trans ?_, (h c).2⟩) (hrun m' ρ')
  rw [Cert.RefFloat.refTerm_eq _ _ _ _ _ _ _ hfill, (hagree c).1, (hagree c).2.1, (hagree c).2.2.1, (hagree c).2.2.2.1,
    (hagree c).2.2.2.2.1, (hagree c).2.2.2.2.2.1, (hagree c).2.2.2.2.2.2]

/-- The certificate's claim from the three facts. -/
theorem claim_of (hbody : Cert.KernelBlocks.BodySpec) (hfill : FillSpec) (hrun : RefRunSpec) : Cert.Claim :=
  ⟨Cert.Kernel.Gen.facts, Cert.KernelIdeal.Gen.facts, Cert.ReferenceIdeal.Gen.facts, Cert.Pre_finite_inputs.Gen.facts,
    frame_kernel, frame_kernelIdeal, frame_reference hrun, preserves, algebraic hbody hfill hrun⟩

end Cert.Assemble

end
-- ==== Proof.KernelLayers.lean ====
/-
  The three affine layers and the two activations of the kernel's body, read one entry at a time.

  A plain product of an [M, K] table with a [K, N] table contracts ONE axis, so the sum over its contraction
  positions is a sum over k : Fin K of the left factor at (r, k) times the right factor at (k, o). On the matrix
  unit a layer is that product into a zero accumulator plus the bias vector, recast as one row and broadcast down
  the rows: entry (r, o) is (Σ_k a r k · w k o) + bias o. The exponential linear unit is a select on
  "greater than zero" between the number and its exponential less one; the softplus is
  max(p, 0) + log(1 + exp(0 - |p - 0|)), guarded by a select on "d differs from d", which no extended real
  satisfies; a change of float format is the identity. Only 0 + s = s, y - 0 = y and 0 - y = -y are used.

  The layers are stated for a block of 512 rows whose row r holds row R r of the input, against weight blocks
  that hold the TRANSPOSED weight matrices (entry (k, c) of the block is entry (c, k) of the matrix): the
  third layer's pre-activation and the 78 triangle entries of the block are then the specification's at row R r.
-/
import proofs.«153956_j18674517803680_1_alg».proof.Proof.Spec
import proofs.«153956_j18674517803680_1_alg».proof.Proof.Gen.KernelIdeal.Skeleton
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

/-- The dimension numbers of a plain product: rows by contraction times contraction by columns. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

theorem lhs_0 (i : (⟨2, ![M, N]⟩ : Shape).Idx) (q : (dims wf).contr.Idx) :
    ((dims wf).lhsIdx i q 0).val = (i 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl
theorem lhs_1 (i : (⟨2, ![M, N]⟩ : Shape).Idx) (q : (dims wf).contr.Idx) :
    ((dims wf).lhsIdx i q 1).val = (q ⟨0, Nat.one_pos⟩).val :=
  (dims wf).lhsIdx_val_of_single rfl i q
theorem rhs_0 (i : (⟨2, ![M, N]⟩ : Shape).Idx) (q : (dims wf).contr.Idx) :
    ((dims wf).rhsIdx i q 0).val = (q ⟨0, Nat.one_pos⟩).val :=
  (dims wf).rhsIdx_val_of_single rfl i q
theorem rhs_1 (i : (⟨2, ![M, N]⟩ : Shape).Idx) (q : (dims wf).contr.Idx) :
    ((dims wf).rhsIdx i q 1).val = (i 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The contraction's sum at entry (r, o), re-indexed by the contracted coordinate. -/
theorem sum_apply (lhs : (⟨2, ![M, K]⟩ : Shape).Idx → EReal) (rhs : (⟨2, ![K, N]⟩ : Shape).Idx → EReal)
    (r : Fin M) (o : Fin N) :
    ∑ q : (dims wf).contr.Idx, lhs ((dims wf).lhsIdx (ix2 r o) q) * rhs ((dims wf).rhsIdx (ix2 r o) q)
      = ∑ k : Fin K, lhs (ix2 r k) * rhs (ix2 k o) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r o) ((contrEquiv1 (dims wf) K rfl rfl).symm k) = ix2 r k :=
    funext fun a => Fin.ext (by
      match a with
      | ⟨0, _⟩ => exact lhs_0 wf _ _
      | ⟨1, _⟩ => exact (lhs_1 wf _ _).trans hk)
  have er : (dims wf).rhsIdx (ix2 r o) ((contrEquiv1 (dims wf) K rfl rfl).symm k) = ix2 k o :=
    funext fun a => Fin.ext (by
      match a with
      | ⟨0, _⟩ => exact (rhs_0 wf _ _).trans hk
      | ⟨1, _⟩ => exact rhs_1 wf _ _)
  rw [el, er]

/-- A matrix unit's plain product into the zero accumulator, at entry (r, o), for any dimension numbers with
    those six lists. -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (o : Fin N) :
    FloatOps.matmul d prec lhs rhs (constant (F := Ideal) ⟨2, ![M, N]⟩ .f32 0x00000000#32) (ix2 r o)
      = ∑ k : Fin K, lhs (ix2 r k) * rhs (ix2 k o) := by
  refine (Ideal.matmul_constant_zero_apply d prec lhs rhs (ix2 r o)).trans ?_
  obtain ⟨lc, rc, ln, rn, lb, rb, wf⟩ := d
  dsimp only at hlc hrc hln hrn hlb hrb
  subst hlc hrc hln hrn hlb hrb
  exact sum_apply wf lhs rhs r o

end Cert.PlainDot

namespace Cert.KernelValue

open Idealize.ShloMosaic Idealize.ShloMosaic.ValueIdx Cert.KernelIdeal Cert.KernelIdeal.Gen

/-- The word 0x3F800000 is the number one. -/
theorem one_f32 : Ideal.ofBits .f32 0x3F800000#32 = 1 := by
  simp [Ideal.ofBits, Ideal.ieee, -EReal.coe_mul]; norm_num

/-- One affine layer on the matrix unit, at entry (r, o): the product into the zero accumulator plus the bias
    vector, recast as one row and broadcast down the rows. -/
theorem affine_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![M, K]⟩ φ₁) (w : FVec Ideal ⟨2, ![K, N]⟩ φ₂) (bias : FVec Ideal ⟨1, ![N]⟩ .f32)
    (hc : (⟨1, ![N]⟩ : Shape).ShapeCasts ⟨2, ![1, N]⟩) (hb : (⟨2, ![1, N]⟩ : Shape).Broadcasts ⟨2, ![M, N]⟩)
    (r : Fin M) (o : Fin N) :
    addf (matmul d none a w (constant ⟨2, ![M, N]⟩ .f32 0x00000000#32))
        (broadcastTo ⟨2, ![M, N]⟩ (shapeCast ⟨2, ![1, N]⟩ bias hc) hb) (ix2 r o)
      = (∑ k : Fin K, a (ix2 r k) * w (ix2 k o)) + bias (ix1 o) := by
  show FloatOps.matmul d none a w (constant (F := Ideal) ⟨2, ![M, N]⟩ .f32 0x00000000#32) (ix2 r o)
      + broadcastTo ⟨2, ![M, N]⟩ (shapeCast ⟨2, ![1, N]⟩ bias hc) hb (ix2 r o) = _
  rw [broadcastTo_1b_ab_apply, shapeCast_a_1a_apply, PlainDot.matmul_zero_apply d hlc hrc hln hrn hlb hrb]

/-- The exponential linear unit as the body spells it: a select on "greater than the zero word" between the
    number and its exponential less the word of one. -/
theorem elu_apply {s : Shape} (p : FVec Ideal s .f32) (i : s.Idx) :
    select (cmpf .ogt p (broadcast s (Scalar.ofBits (F := Ideal) .f32 0x00000000#32))) p
        (subf (exp p) (broadcast s (Scalar.ofBits (F := Ideal) .f32 0x3F800000#32))) i
      = Spec.elu (p i) := by
  show Scalar.select (Ideal.cmp .ogt (p i) (Ideal.ofBits .f32 0x00000000#32)) (p i)
      (Ideal.exp (p i) - Ideal.ofBits .f32 0x3F800000#32) = _
  rw [Ideal.ofBits_zero_f32, one_f32]
  unfold Spec.elu Scalar.select Ideal.cmp
  by_cases h : (0 : EReal) < p i
  · simp [h]
  · simp [h]

end Cert.KernelValue

namespace Cert.KernelValue

open Idealize.ShloMosaic Idealize.ShloMosaic.ValueIdx Cert.KernelIdeal Cert.KernelIdeal.Gen

/-- A hidden layer on the matrix unit, at entry (r, o): the exponential linear unit of the affine layer (the change of
    float format after it is the identity on the extended reals). -/
theorem hidden_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![M, K]⟩ φ₁) (w : FVec Ideal ⟨2, ![K, N]⟩ φ₂) (bias : FVec Ideal ⟨1, ![N]⟩ .f32)
    (hc : (⟨1, ![N]⟩ : Shape).ShapeCasts ⟨2, ![1, N]⟩) (hb : (⟨2, ![1, N]⟩ : Shape).Broadcasts ⟨2, ![M, N]⟩)
    (hbits : FTy.bits .bf16 < FTy.bits .f32) (r : Fin M) (o : Fin N) :
    (truncf .bf16
      (select
        (cmpf .ogt
          (addf (matmul d none a w (constant ⟨2, ![M, N]⟩ .f32 0x00000000#32))
            (broadcastTo ⟨2, ![M, N]⟩ (shapeCast ⟨2, ![1, N]⟩ bias hc) hb))
          (broadcast ⟨2, ![M, N]⟩ (Scalar.ofBits (F := Ideal) .f32 0x00000000#32)))
        (addf (matmul d none a w (constant ⟨2, ![M, N]⟩ .f32 0x00000000#32))
          (broadcastTo ⟨2, ![M, N]⟩ (shapeCast ⟨2, ![1, N]⟩ bias hc) hb))
        (subf
          (exp (addf (matmul d none a w (constant ⟨2, ![M, N]⟩ .f32 0x00000000#32))
            (broadcastTo ⟨2, ![M, N]⟩ (shapeCast ⟨2, ![1, N]⟩ bias hc) hb)))
          (broadcast ⟨2, ![M, N]⟩ (Scalar.ofBits (F := Ideal) .f32 0x3F800000#32))))
      hbits : FVec Ideal ⟨2, ![M, N]⟩ .bf16) (ix2 r o)
      = Spec.elu ((∑ k : Fin K, a (ix2 r k) * w (ix2 k o)) + bias (ix1 o)) :=
  (elu_apply _ (ix2 r o)).trans
    (congrArg Spec.elu (affine_apply d hlc hrc hln hrn hlb hrb a w bias hc hb r o))

section Layers

variable (X : FVec Ideal ⟨2, ![262144, 12]⟩ .f32) (W1 : FVec Ideal ⟨2, ![128, 12]⟩ .f32) (b1 : FVec Ideal ⟨1, ![128]⟩ .f32)
  (W2 : FVec Ideal ⟨2, ![32, 128]⟩ .f32) (b2 : FVec Ideal ⟨1, ![32]⟩ .f32)
  (W3 : FVec Ideal ⟨2, ![78, 32]⟩ .f32) (b3 : FVec Ideal ⟨1, ![78]⟩ .f32)
  (R : Fin 512 → Fin 262144)
  (v0 : Vec Ideal S512x12 .f32) (v2 : Vec Ideal S12x128 .bf16) (v5 : Vec Ideal S128 .f32)
  (v16 : Vec Ideal S128x32 .bf16) (v19 : Vec Ideal S32 .f32) (v30 : Vec Ideal S32x78 .bf16) (v33 : Vec Ideal S78 .f32)

/-- The third layer's pre-activation of a block of 512 rows, at (r, q): when the block holds the rows R r of the
    input and the weight blocks hold the transposed weights, it is the specification's at row R r. -/
theorem pay2_apply
    (h0 : ∀ (r : Fin 512) (k : Fin 12), v0 (ix2 r k) = X (ix2 (R r) k))
    (h2 : ∀ (k : Fin 12) (c : Fin 128), v2 (ix2 k c) = W1 (ix2 c k))
    (h5 : ∀ c : Fin 128, v5 (ix1 c) = b1 (ix1 c))
    (h16 : ∀ (c : Fin 128) (a : Fin 32), v16 (ix2 c a) = W2 (ix2 a c))
    (h19 : ∀ a : Fin 32, v19 (ix1 a) = b2 (ix1 a))
    (h30 : ∀ (a : Fin 32) (q : Fin 78), v30 (ix2 a q) = W3 (ix2 q a))
    (h33 : ∀ q : Fin 78, v33 (ix1 q) = b3 (ix1 q))
    (r : Fin 512) (q : Fin 78) :
    k0_pay2 v0 v2 v5 v16 v19 v30 v33 (ix2 r q) = Spec.pre3 X W1 b1 W2 b2 W3 b3 (R r) q := by
  unfold k0_pay2
  refine (affine_apply dot_S512x32_S32x78_S512x78_1_0_0_1_n_n rfl rfl rfl rfl rfl rfl _ _ _ _ _ r q).trans ?_
  unfold Spec.pre3
  refine congrArg₂ (· + ·) (Finset.sum_congr rfl fun a _ => congrArg₂ (· * ·) ?_ ?_) (h33 q)
  · refine (hidden_apply dot_S512x128_S128x32_S512x32_1_0_0_1_n_n rfl rfl rfl rfl rfl rfl _ _ _ _ _ _ r a).trans ?_
    unfold Spec.hid2 Spec.pre2
    refine congrArg Spec.elu (congrArg₂ (· + ·) (Finset.sum_congr rfl fun c _ => congrArg₂ (· * ·) ?_ ?_) (h19 a))
    · refine (hidden_apply dot_S512x12_S12x128_S512x128_1_0_0_1_n_n rfl rfl rfl rfl rfl rfl _ _ _ _ _ _ r c).trans ?_
      unfold Spec.hid1 Spec.pre1
      refine congrArg Spec.elu (congrArg₂ (· + ·) (Finset.sum_congr rfl fun k _ => congrArg₂ (· * ·) ?_ ?_) (h5 c))
      · exact h0 r k
      · rw [shapeCast_self]; exact h2 k c
    · rw [shapeCast_self]; exact h16 c a
  · rw [shapeCast_self]; exact h30 a q

end Layers

end Cert.KernelValue

namespace Cert.KernelValue

open Idealize.ShloMosaic Idealize.ShloMosaic.ValueIdx Cert.KernelIdeal Cert.KernelIdeal.Gen

/-- The softplus as the body spells it, at one entry: with p the pre-activation, its maximum with zero and a zero
    splat given, the select on "d is not d" (never true of an extended real) takes the overflow-free form
    max(p, 0) + log(1 + exp(0 - |p - 0|)). -/
theorem pay5_apply (v36 v38 v39 : FVec Ideal S512x78 .f32) (i : S512x78.Idx) (p : EReal)
    (h36 : v36 i = p) (h38 : v38 i = max p 0) (h39 : v39 i = 0) :
    k0_pay5 v36 (Scalar.ofBits (F := Ideal) .f32 0x00000000#32) v38 v39 i = Spec.softplus p := by
  unfold k0_pay5
  show Scalar.select (Ideal.cmp .one (v36 i - v39 i) (v36 i - v39 i)) (v36 i + Ideal.ofBits .f32 0x00000000#32)
      (v38 i + Ideal.log1p (Ideal.exp (Ideal.ofBits .f32 0x00000000#32 - max (v36 i - v39 i) (-(v36 i - v39 i))))) = _
  rw [h36, h38, h39, Ideal.ofBits_zero_f32, sub_zero, sub_eq_add_neg 0, zero_add]
  unfold Spec.softplus Scalar.select Ideal.cmp
  simp

section Tri

variable (X : FVec Ideal ⟨2, ![262144, 12]⟩ .f32) (W1 : FVec Ideal ⟨2, ![128, 12]⟩ .f32) (b1 : FVec Ideal ⟨1, ![128]⟩ .f32)
  (W2 : FVec Ideal ⟨2, ![32, 128]⟩ .f32) (b2 : FVec Ideal ⟨1, ![32]⟩ .f32)
  (W3 : FVec Ideal ⟨2, ![78, 32]⟩ .f32) (b3 : FVec Ideal ⟨1, ![78]⟩ .f32)
  (R : Fin 512 → Fin 262144)
  (v0 : Vec Ideal S512x12 .f32) (v2 : Vec Ideal S12x128 .bf16) (v5 : Vec Ideal S128 .f32)
  (v16 : Vec Ideal S128x32 .bf16) (v19 : Vec Ideal S32 .f32) (v30 : Vec Ideal S32x78 .bf16) (v33 : Vec Ideal S78 .f32)

/-- The 78 triangle entries of a block of 512 rows, at (r, q): the specification's at row R r. -/
theorem tri_apply
    (h0 : ∀ (r : Fin 512) (k : Fin 12), v0 (ix2 r k) = X (ix2 (R r) k))
    (h2 : ∀ (k : Fin 12) (c : Fin 128), v2 (ix2 k c) = W1 (ix2 c k))
    (h5 : ∀ c : Fin 128, v5 (ix1 c) = b1 (ix1 c))
    (h16 : ∀ (c : Fin 128) (a : Fin 32), v16 (ix2 c a) = W2 (ix2 a c))
    (h19 : ∀ a : Fin 32, v19 (ix1 a) = b2 (ix1 a))
    (h30 : ∀ (a : Fin 32) (q : Fin 78), v30 (ix2 a q) = W3 (ix2 q a))
    (h33 : ∀ q : Fin 78, v33 (ix1 q) = b3 (ix1 q))
    (r : Fin 512) (q : Fin 78) :
    k0_pay5 (k0_pay2 v0 v2 v5 v16 v19 v30 v33) (Scalar.ofBits (F := Ideal) .f32 0x00000000#32)
        (k0_pay3 v0 v2 v5 v16 v19 v30 v33) (k0_pay4 (F := Ideal)) (ix2 r q)
      = Spec.tri X W1 b1 W2 b2 W3 b3 (R r) q := by
  have e2 := pay2_apply X W1 b1 W2 b2 W3 b3 R v0 v2 v5 v16 v19 v30 v33 h0 h2 h5 h16 h19 h30 h33 r q
  refine pay5_apply _ _ _ (ix2 r q) (Spec.pre3 X W1 b1 W2 b2 W3 b3 (R r) q) e2 ?_ ?_
  · unfold k0_pay3
    show max (k0_pay2 v0 v2 v5 v16 v19 v30 v33 (ix2 r q)) (Ideal.ofBits .f32 0x00000000#32) = _
    rw [e2, Ideal.ofBits_zero_f32]
  · unfold k0_pay4
    exact Ideal.ofBits_zero_f32

end Tri

end Cert.KernelValue

end
-- ==== Proof.KernelRows.lean ====
/-
  The lower-triangular matrix the kernel's body lays out of a block's 78 triangle entries.

  Row i of the matrix is cut out of the entries as a band of i + 1 columns starting at column i(i+1)/2
  (0, 1, 3, 6, 10, 15, 21, 28, 36, 45, 55, 66) and filled up to twelve columns with zeros; the last row is the
  last twelve entries as they are. Read at column j a row is therefore entry i(i+1)/2 + j while j ≤ i and zero
  above the diagonal. The twelve rows, each recast as a one-row matrix, are stacked along the middle axis: the
  stack at (b, i, j) is row i of block row b at column j.
-/
import proofs.«153956_j18674517803680_1_alg».proof.Proof.Spec
import proofs.«153956_j18674517803680_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelValue

open Idealize.ShloMosaic Idealize.ShloMosaic.ValueIdx Cert.KernelIdeal Cert.KernelIdeal.Gen

/-! ## A row of the triangle: a band of the 78 entries followed by a constant -/

/-- A band of w columns starting at column o, followed by w' columns of a constant z: at column j the band's
    entry o + j while j < w, the constant from there on. -/
theorem padRow_apply {α : Type} {n W w w' T o : Nat} (V : (⟨2, ![n, W]⟩ : Shape).Idx → α) (z : α)
    (hs : (⟨2, ![n, W]⟩ : Shape).Slices ![0, o] ⟨2, ![n, w]⟩)
    (hc : Shape.Concatenates [⟨2, ![n, w]⟩, ⟨2, ![n, w']⟩] ⟨2, ![n, T]⟩ 1)
    (hT : w + w' = T) (hW : o + w ≤ W) (b : Fin n) (j : Fin T) :
    concatenate ⟨2, ![n, T]⟩ 1
        [⟨⟨2, ![n, w]⟩, extractStridedSlice ⟨2, ![n, w]⟩ ![0, o] V hs⟩, ⟨⟨2, ![n, w']⟩, broadcast ⟨2, ![n, w']⟩ z⟩]
        hc (ix2 b j)
      = if h : j.val < w then V (ix2 b ⟨o + j.val, by omega⟩) else z := by
  by_cases h : j.val < w
  · rw [dif_pos h]
    refine (concatenate_pair_apply_left 1 _ _ hc (ix2 b j) rfl (ix2 b ⟨j.val, h⟩) (fun a => ?_)).trans ?_
    · match a with
      | ⟨0, _⟩ => rfl
      | ⟨1, _⟩ => rfl
    · exact slice2_axis1_apply o V hs b ⟨j.val, h⟩ _ rfl
  · rw [dif_neg h]
    have hj := j.isLt
    refine (concatenate_pair_apply_right 1 _ _ hc (ix2 b j) rfl rfl (ix2 b ⟨j.val - w, by omega⟩) (fun a ha => ?_) ?_).trans rfl
    · match a with
      | ⟨0, _⟩ => rfl
      | ⟨1, _⟩ => exact absurd rfl ha
    · show j.val - w + w = j.val
      omega

/-- A table of n rows of T entries recast as n one-row matrices: the same entries. -/
theorem shapeCast_ab_a1b_apply {α : Type} {n T : Nat} (v : (⟨2, ![n, T]⟩ : Shape).Idx → α)
    (h : (⟨2, ![n, T]⟩ : Shape).ShapeCasts ⟨3, ![n, 1, T]⟩) (b : Fin n) (u : Fin 1) (j : Fin T) :
    shapeCast ⟨3, ![n, 1, T]⟩ v h (ix3 b u j) = v (ix2 b j) :=
  shapeCast_apply v h _ _ (by
    have hu : u.val = 0 := by omega
    rw [Shape.rowMajor_val_three, Shape.rowMajor_val_two]
    show b.val * T + j.val = (b.val * 1 + u.val) * T + j.val
    rw [hu, Nat.mul_one, Nat.add_zero])

/-- Row i of the lower-triangular matrix built from a block's 78 triangle entries: the entries
    i(i+1)/2 + j for j ≤ i, zero above the diagonal. -/
def lowerBlk (V : FVec Ideal S512x78 .f32) (b : Fin 512) (i j : Fin 12) : EReal :=
  if h : j ≤ i then V (ix2 b (Spec.triPos i j h)) else 0

/-- A band of width i + 1 starting at i(i+1)/2, then zeros, is row i of the triangle. -/
theorem band_eq_lowerBlk (V : FVec Ideal S512x78 .f32) (b : Fin 512) (i j : Fin 12) (w o : Nat)
    (hw : w = i.val + 1) (ho : o = i.val * (i.val + 1) / 2) (hb : ∀ _ : j.val < w, o + j.val < 78) :
    (if h : j.val < w then V (ix2 b ⟨o + j.val, hb h⟩) else Ideal.ofBits .f32 0x00000000#32) = lowerBlk V b i j := by
  unfold lowerBlk
  subst hw ho
  by_cases h : j ≤ i
  · have h' : j.val < i.val + 1 := Nat.lt_succ_of_le h
    rw [dif_pos h, dif_pos h']
    exact congrArg (fun q => V (ix2 b q)) (Fin.ext rfl)
  · have h' : ¬ j.val < i.val + 1 := fun h'' => h (Nat.le_of_lt_succ h'')
    rw [dif_neg h, dif_neg h']
    exact Ideal.ofBits_zero_f32

end Cert.KernelValue

namespace Cert.KernelValue

open Idealize.ShloMosaic Idealize.ShloMosaic.ValueIdx Cert.KernelIdeal Cert.KernelIdeal.Gen

/-! ## The twelve rows the body cuts out of the triangle entries -/

section Rows

variable (v36 : FVec Ideal S512x78 .f32) (c : Ideal .f32) (v38 v39 : FVec Ideal S512x78 .f32)

theorem row0_apply (b : Fin 512) (j : Fin 12) :
    k0_pay15 v36 c v38 v39 (ix3 b (0 : Fin 1) j) = lowerBlk (k0_pay5 v36 c v38 v39) b 0 j := by
  unfold k0_pay15
  exact (shapeCast_ab_a1b_apply _ shapeCasts_S512x12_S512x1x12 b 0 j).trans
    ((padRow_apply (k0_pay5 v36 c v38 v39) _ slices_S512x78_o0_0_S512x1 concatenates_S512x1_S512x11_S512x12_d1
      rfl (by decide) b j).trans (band_eq_lowerBlk _ b 0 j 1 0 rfl rfl _))

theorem row1_apply (b : Fin 512) (j : Fin 12) :
    k0_pay16 v36 c v38 v39 (ix3 b (0 : Fin 1) j) = lowerBlk (k0_pay5 v36 c v38 v39) b 1 j := by
  unfold k0_pay16
  exact (shapeCast_ab_a1b_apply _ shapeCasts_S512x12_S512x1x12 b 0 j).trans
    ((padRow_apply (k0_pay5 v36 c v38 v39) _ slices_S512x78_o0_1_S512x2 concatenates_S512x2_S512x10_S512x12_d1
      rfl (by decide) b j).trans (band_eq_lowerBlk _ b 1 j 2 1 rfl rfl _))

theorem row2_apply (b : Fin 512) (j : Fin 12) :
    k0_pay17 v36 c v38 v39 (ix3 b (0 : Fin 1) j) = lowerBlk (k0_pay5 v36 c v38 v39) b 2 j := by
  unfold k0_pay17
  exact (shapeCast_ab_a1b_apply _ shapeCasts_S512x12_S512x1x12 b 0 j).trans
    ((padRow_apply (k0_pay5 v36 c v38 v39) _ slices_S512x78_o0_3_S512x3 concatenates_S512x3_S512x9_S512x12_d1
      rfl (by decide) b j).trans (band_eq_lowerBlk _ b 2 j 3 3 rfl rfl _))

theorem row3_apply (b : Fin 512) (j : Fin 12) :
    k0_pay6 v36 c v38 v39 (ix2 b j) = lowerBlk (k0_pay5 v36 c v38 v39) b 3 j := by
  unfold k0_pay6
  exact (padRow_apply (k0_pay5 v36 c v38 v39) _ slices_S512x78_o0_6_S512x4 concatenates_S512x4_S512x8_S512x12_d1
    rfl (by decide) b j).trans (band_eq_lowerBlk _ b 3 j 4 6 rfl rfl _)

theorem row4_apply (b : Fin 512) (j : Fin 12) :
    k0_pay7 v36 c v38 v39 (ix2 b j) = lowerBlk (k0_pay5 v36 c v38 v39) b 4 j := by
  unfold k0_pay7
  exact (padRow_apply (k0_pay5 v36 c v38 v39) _ slices_S512x78_o0_10_S512x5 concatenates_S512x5_S512x7_S512x12_d1
    rfl (by decide) b j).trans (band_eq_lowerBlk _ b 4 j 5 10 rfl rfl _)

theorem row5_apply (b : Fin 512) (j : Fin 12) :
    k0_pay8 v36 c v38 v39 (ix2 b j) = lowerBlk (k0_pay5 v36 c v38 v39) b 5 j := by
  unfold k0_pay8
  exact (padRow_apply (k0_pay5 v36 c v38 v39) _ slices_S512x78_o0_15_S512x6 concatenates_S512x6_S512x6_S512x12_d1
    rfl (by decide) b j).trans (band_eq_lowerBlk _ b 5 j 6 15 rfl rfl _)

theorem row6_apply (b : Fin 512) (j : Fin 12) :
    k0_pay9 v36 c v38 v39 (ix2 b j) = lowerBlk (k0_pay5 v36 c v38 v39) b 6 j := by
  unfold k0_pay9
  exact (padRow_apply (k0_pay5 v36 c v38 v39) _ slices_S512x78_o0_21_S512x7 concatenates_S512x7_S512x5_S512x12_d1
    rfl (by decide) b j).trans (band_eq_lowerBlk _ b 6 j 7 21 rfl rfl _)

theorem row7_apply (b : Fin 512) (j : Fin 12) :
    k0_pay10 v36 c v38 v39 (ix2 b j) = lowerBlk (k0_pay5 v36 c v38 v39) b 7 j := by
  unfold k0_pay10
  exact (padRow_apply (k0_pay5 v36 c v38 v39) _ slices_S512x78_o0_28_S512x8 concatenates_S512x8_S512x4_S512x12_d1
    rfl (by decide) b j).trans (band_eq_lowerBlk _ b 7 j 8 28 rfl rfl _)

theorem row8_apply (b : Fin 512) (j : Fin 12) :
    k0_pay11 v36 c v38 v39 (ix2 b j) = lowerBlk (k0_pay5 v36 c v38 v39) b 8 j := by
  unfold k0_pay11
  exact (padRow_apply (k0_pay5 v36 c v38 v39) _ slices_S512x78_o0_36_S512x9 concatenates_S512x9_S512x3_S512x12_d1
    rfl (by decide) b j).trans (band_eq_lowerBlk _ b 8 j 9 36 rfl rfl _)

theorem row9_apply (b : Fin 512) (j : Fin 12) :
    k0_pay12 v36 c v38 v39 (ix2 b j) = lowerBlk (k0_pay5 v36 c v38 v39) b 9 j := by
  unfold k0_pay12
  exact (padRow_apply (k0_pay5 v36 c v38 v39) _ slices_S512x78_o0_45_S512x10 concatenates_S512x10_S512x2_S512x12_d1
    rfl (by decide) b j).trans (band_eq_lowerBlk _ b 9 j 10 45 rfl rfl _)

theorem row10_apply (b : Fin 512) (j : Fin 12) :
    k0_pay13 v36 c v38 v39 (ix2 b j) = lowerBlk (k0_pay5 v36 c v38 v39) b 10 j := by
  unfold k0_pay13
  exact (padRow_apply (k0_pay5 v36 c v38 v39) _ slices_S512x78_o0_55_S512x11 concatenates_S512x11_S512x1_S512x12_d1
    rfl (by decide) b j).trans (band_eq_lowerBlk _ b 10 j 11 55 rfl rfl _)

/-- The last row is the last twelve entries, with nothing above the diagonal to fill. -/
theorem row11_apply (b : Fin 512) (j : Fin 12) :
    k0_pay14 v36 c v38 v39 (ix2 b j) = lowerBlk (k0_pay5 v36 c v38 v39) b 11 j := by
  unfold k0_pay14 lowerBlk
  rw [dif_pos (show j ≤ (11 : Fin 12) from Nat.le_of_lt_succ j.isLt)]
  exact slice2_axis1_apply 66 _ slices_S512x78_o0_66_S512x12 b j _ rfl

end Rows

/-! ## The stack of the twelve rows -/

/-- A concatenation, along axis 1, of twelve pieces of one row each: at (b, n, j), piece n at (b, 0, j). -/
theorem piece_apply (xs : List ((s : Shape) × (s.Idx → EReal)))
    (h : Shape.Concatenates (xs.map (·.1)) S512x12x12 1) (hlen : xs.length = 12)
    (n : Nat) (hn : n < 12) (p : S512x1x12.Idx → EReal) (hx : xs[n]'(hlen ▸ hn) = ⟨S512x1x12, p⟩)
    (hpre : (((xs.take n).map (·.1)).map fun s =>
      if h : s.rank = S512x12x12.rank then s.size ((1 : Fin S512x12x12.rank).cast h.symm) else 0).sum = n)
    (b : Fin 512) (j : Fin 12) :
    concatenate S512x12x12 1 xs h (ix3 b ⟨n, hn⟩ j) = p (ix3 b (0 : Fin 1) j) :=
  concatenate_apply_piece 1 xs h (ix3 b ⟨n, hn⟩ j) n (hlen ▸ hn) S512x1x12 p hx rfl n hpre (ix3 b (0 : Fin 1) j)
    (fun a ha => by
      match a with
      | ⟨0, _⟩ => rfl
      | ⟨1, _⟩ => exact absurd rfl ha
      | ⟨2, _⟩ => rfl)
    (Nat.add_zero n)

/-- The stack read at (b, i, j): row i at column j. -/
theorem stack_apply (p0 p1 p2 p3 p4 p5 p6 p7 p8 p9 p10 p11 : FVec Ideal S512x1x12 .f32)
    (Lr : Fin 512 → Fin 12 → Fin 12 → EReal)
    (h0 : ∀ b j, p0 (ix3 b (0 : Fin 1) j) = Lr b 0 j) (h1 : ∀ b j, p1 (ix3 b (0 : Fin 1) j) = Lr b 1 j)
    (h2 : ∀ b j, p2 (ix3 b (0 : Fin 1) j) = Lr b 2 j) (h3 : ∀ b j, p3 (ix3 b (0 : Fin 1) j) = Lr b 3 j)
    (h4 : ∀ b j, p4 (ix3 b (0 : Fin 1) j) = Lr b 4 j) (h5 : ∀ b j, p5 (ix3 b (0 : Fin 1) j) = Lr b 5 j)
    (h6 : ∀ b j, p6 (ix3 b (0 : Fin 1) j) = Lr b 6 j) (h7 : ∀ b j, p7 (ix3 b (0 : Fin 1) j) = Lr b 7 j)
    (h8 : ∀ b j, p8 (ix3 b (0 : Fin 1) j) = Lr b 8 j) (h9 : ∀ b j, p9 (ix3 b (0 : Fin 1) j) = Lr b 9 j)
    (h10 : ∀ b j, p10 (ix3 b (0 : Fin 1) j) = Lr b 10 j) (h11 : ∀ b j, p11 (ix3 b (0 : Fin 1) j) = Lr b 11 j)
    (b : Fin 512) (i j : Fin 12) :
    concatenate S512x12x12 1 [⟨S512x1x12, p0⟩, ⟨S512x1x12, p1⟩, ⟨S512x1x12, p2⟩, ⟨S512x1x12, p3⟩, ⟨S512x1x12, p4⟩,
        ⟨S512x1x12, p5⟩, ⟨S512x1x12, p6⟩, ⟨S512x1x12, p7⟩, ⟨S512x1x12, p8⟩, ⟨S512x1x12, p9⟩, ⟨S512x1x12, p10⟩,
        ⟨S512x1x12, p11⟩]
        concatenates_S512x1x12_S512x1x12_S512x1x12_S512x1x12_S512x1x12_S512x1x12_S512x1x12_S512x1x12_S512x1x12_S512x1x12_S512x1x12_S512x1x12_S512x12x12_d1
        (ix3 b i j) = Lr b i j := by
  match i with
  | ⟨0, _⟩ => exact (piece_apply _ _ rfl 0 _ p0 rfl rfl b j).trans (h0 b j)
  | ⟨1, _⟩ => exact (piece_apply _ _ rfl 1 _ p1 rfl rfl b j).trans (h1 b j)
  | ⟨2, _⟩ => exact (piece_apply _ _ rfl 2 _ p2 rfl rfl b j).trans (h2 b j)
  | ⟨3, _⟩ => exact (piece_apply _ _ rfl 3 _ p3 rfl rfl b j).trans (h3 b j)
  | ⟨4, _⟩ => exact (piece_apply _ _ rfl 4 _ p4 rfl rfl b j).trans (h4 b j)
  | ⟨5, _⟩ => exact (piece_apply _ _ rfl 5 _ p5 rfl rfl b j).trans (h5 b j)
  | ⟨6, _⟩ => exact (piece_apply _ _ rfl 6 _ p6 rfl rfl b j).trans (h6 b j)
  | ⟨7, _⟩ => exact (piece_apply _ _ rfl 7 _ p7 rfl rfl b j).trans (h7 b j)
  | ⟨8, _⟩ => exact (piece_apply _ _ rfl 8 _ p8 rfl rfl b j).trans (h8 b j)
  | ⟨9, _⟩ => exact (piece_apply _ _ rfl 9 _ p9 rfl rfl b j).trans (h9 b j)
  | ⟨10, _⟩ => exact (piece_apply _ _ rfl 10 _ p10 rfl rfl b j).trans (h10 b j)
  | ⟨11, _⟩ => exact (piece_apply _ _ rfl 11 _ p11 rfl rfl b j).trans (h11 b j)
  | ⟨n + 12, h⟩ => exact absurd h (by omega)

end Cert.KernelValue

end
-- ==== Proof.KernelBody.lean ====
/-
  What one grid point of the kernel leaves in its output block, entry by entry.

  The body's one store holds the batched product of the stack of twelve rows with itself, contracted on the
  column axis: entry (b, i, k) is the sum over j of L b i j times L b k j, where L is the lower-triangular matrix
  of block row b. With the rows read off the triangle entries and the triangle entries off the three layers, the
  block written at a point whose row b holds row R b of the input is the Gram matrix of the specification at row
  R b, for weight blocks that hold the transposed weight matrices.
-/
import proofs.«153956_j18674517803680_1_alg».proof.Proof.Spec
import proofs.«153956_j18674517803680_1_alg».proof.Proof.Gen.KernelIdeal.Frame
import proofs.«153956_j18674517803680_1_alg».proof.Proof.LibBatchedGram
import proofs.«153956_j18674517803680_1_alg».proof.Proof.KernelLayers
import proofs.«153956_j18674517803680_1_alg».proof.Proof.KernelRows
import Idealize.ShloMosaic.Lib.Pipeline.Value

noncomputable section

open scoped BigOperators

namespace Cert.KernelValue

open Idealize.ShloMosaic Idealize.ShloMosaic.ValueIdx Cert.KernelIdeal Cert.KernelIdeal.Gen

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The body's store, at entry (b, i, k): the rows given as a family Lr, the sum over j of Lr b i j * Lr b k j. -/
theorem pay1_apply (v62 v65 v68 v71 v74 v77 v80 v83 v84 : FVec Ideal S512x12 .f32)
    (v85 v86 v87 : FVec Ideal S512x1x12 .f32) (Lr : Fin 512 → Fin 12 → Fin 12 → EReal)
    (h85 : ∀ b j, v85 (ix3 b (0 : Fin 1) j) = Lr b 0 j) (h86 : ∀ b j, v86 (ix3 b (0 : Fin 1) j) = Lr b 1 j)
    (h87 : ∀ b j, v87 (ix3 b (0 : Fin 1) j) = Lr b 2 j) (h62 : ∀ b j, v62 (ix2 b j) = Lr b 3 j)
    (h65 : ∀ b j, v65 (ix2 b j) = Lr b 4 j) (h68 : ∀ b j, v68 (ix2 b j) = Lr b 5 j)
    (h71 : ∀ b j, v71 (ix2 b j) = Lr b 6 j) (h74 : ∀ b j, v74 (ix2 b j) = Lr b 7 j)
    (h77 : ∀ b j, v77 (ix2 b j) = Lr b 8 j) (h80 : ∀ b j, v80 (ix2 b j) = Lr b 9 j)
    (h83 : ∀ b j, v83 (ix2 b j) = Lr b 10 j) (h84 : ∀ b j, v84 (ix2 b j) = Lr b 11 j)
    (b : Fin 512) (i k : Fin 12) :
    k0_pay1 v62 v65 v68 v71 v74 v77 v80 v83 v84 v85 v86 v87 (ix3 b i k) = ∑ j : Fin 12, Lr b i j * Lr b k j := by
  unfold k0_pay1
  refine (BatchedGram.matmul_zero_apply dot_S512x12x12_S512x12x12_S512x12x12_2_2_1_1_0_0 rfl rfl rfl rfl rfl rfl
    none _ _ b i k).trans ?_
  refine Finset.sum_congr rfl fun j _ => congrArg₂ (· * ·) ?_ ?_
  · exact stack_apply _ _ _ _ _ _ _ _ _ _ _ _ Lr h85 h86 h87
      (fun b j => (shapeCast_ab_a1b_apply v62 shapeCasts_S512x12_S512x1x12 b 0 j).trans (h62 b j))
      (fun b j => (shapeCast_ab_a1b_apply v65 shapeCasts_S512x12_S512x1x12 b 0 j).trans (h65 b j))
      (fun b j => (shapeCast_ab_a1b_apply v68 shapeCasts_S512x12_S512x1x12 b 0 j).trans (h68 b j))
      (fun b j => (shapeCast_ab_a1b_apply v71 shapeCasts_S512x12_S512x1x12 b 0 j).trans (h71 b j))
      (fun b j => (shapeCast_ab_a1b_apply v74 shapeCasts_S512x12_S512x1x12 b 0 j).trans (h74 b j))
      (fun b j => (shapeCast_ab_a1b_apply v77 shapeCasts_S512x12_S512x1x12 b 0 j).trans (h77 b j))
      (fun b j => (shapeCast_ab_a1b_apply v80 shapeCasts_S512x12_S512x1x12 b 0 j).trans (h80 b j))
      (fun b j => (shapeCast_ab_a1b_apply v83 shapeCasts_S512x12_S512x1x12 b 0 j).trans (h83 b j))
      (fun b j => (shapeCast_ab_a1b_apply v84 shapeCasts_S512x12_S512x1x12 b 0 j).trans (h84 b j)) b i j
  · exact stack_apply _ _ _ _ _ _ _ _ _ _ _ _ Lr h85 h86 h87
      (fun b j => (shapeCast_ab_a1b_apply v62 shapeCasts_S512x12_S512x1x12 b 0 j).trans (h62 b j))
      (fun b j => (shapeCast_ab_a1b_apply v65 shapeCasts_S512x12_S512x1x12 b 0 j).trans (h65 b j))
      (fun b j => (shapeCast_ab_a1b_apply v68 shapeCasts_S512x12_S512x1x12 b 0 j).trans (h68 b j))
      (fun b j => (shapeCast_ab_a1b_apply v71 shapeCasts_S512x12_S512x1x12 b 0 j).trans (h71 b j))
      (fun b j => (shapeCast_ab_a1b_apply v74 shapeCasts_S512x12_S512x1x12 b 0 j).trans (h74 b j))
      (fun b j => (shapeCast_ab_a1b_apply v77 shapeCasts_S512x12_S512x1x12 b 0 j).trans (h77 b j))
      (fun b j => (shapeCast_ab_a1b_apply v80 shapeCasts_S512x12_S512x1x12 b 0 j).trans (h80 b j))
      (fun b j => (shapeCast_ab_a1b_apply v83 shapeCasts_S512x12_S512x1x12 b 0 j).trans (h83 b j))
      (fun b j => (shapeCast_ab_a1b_apply v84 shapeCasts_S512x12_S512x1x12 b 0 j).trans (h84 b j)) b k j

section Block

variable (X : FVec Ideal ⟨2, ![262144, 12]⟩ .f32) (W1 : FVec Ideal ⟨2, ![128, 12]⟩ .f32) (b1 : FVec Ideal ⟨1, ![128]⟩ .f32)
  (W2 : FVec Ideal ⟨2, ![32, 128]⟩ .f32) (b2 : FVec Ideal ⟨1, ![32]⟩ .f32)
  (W3 : FVec Ideal ⟨2, ![78, 32]⟩ .f32) (b3 : FVec Ideal ⟨1, ![78]⟩ .f32)
  (R : Fin 512 → Fin 262144)
  (x0 : Vec Ideal S512x12 .f32) (x1 : Vec Ideal S12x128 .bf16) (x2 : Vec Ideal S128 .f32)
  (x3 : Vec Ideal S128x32 .bf16) (x4 : Vec Ideal S32 .f32) (x5 : Vec Ideal S32x78 .bf16) (x6 : Vec Ideal S78 .f32)

/-- THE BLOCK A GRID POINT WRITES, at entry (p, i, k): the specification's Gram matrix of row R p. -/
theorem out_block
    (h0 : ∀ (r : Fin 512) (k : Fin 12), x0 (ix2 r k) = X (ix2 (R r) k))
    (h1 : ∀ (k : Fin 12) (c : Fin 128), x1 (ix2 k c) = W1 (ix2 c k))
    (h2 : ∀ c : Fin 128, x2 (ix1 c) = b1 (ix1 c))
    (h3 : ∀ (c : Fin 128) (a : Fin 32), x3 (ix2 c a) = W2 (ix2 a c))
    (h4 : ∀ a : Fin 32, x4 (ix1 a) = b2 (ix1 a))
    (h5 : ∀ (a : Fin 32) (q : Fin 78), x5 (ix2 a q) = W3 (ix2 q a))
    (h6 : ∀ q : Fin 78, x6 (ix1 q) = b3 (ix1 q))
    (p : Fin 512) (i k : Fin 12) :
    out0_7 x0 x1 x2 x3 x4 x5 x6 (ix3 p i k) = Spec.gram X W1 b1 W2 b2 W3 b3 (R p) i k := by
  unfold out0_7
  rw [View.canon_unit_zero hz3]
  rw [show View.ld x0 r0_0 = x0 from View.ld_unit_zero hz2 _ x0,
    show View.ld x1 r0_1 = x1 from View.ld_unit_zero hz2 _ x1,
    show View.ld x2 r0_2 = x2 from View.ld_unit_zero hz1 _ x2,
    show View.ld x3 r0_3 = x3 from View.ld_unit_zero hz2 _ x3,
    show View.ld x4 r0_4 = x4 from View.ld_unit_zero hz1 _ x4,
    show View.ld x5 r0_5 = x5 from View.ld_unit_zero hz2 _ x5,
    show View.ld x6 r0_6 = x6 from View.ld_unit_zero hz1 _ x6]
  have hL : ∀ (b : Fin 512) (i j : Fin 12),
      lowerBlk (k0_pay5 (k0_pay2 x0 x1 x2 x3 x4 x5 x6) (Scalar.ofBits (F := Ideal) .f32 0x00000000#32)
        (k0_pay3 x0 x1 x2 x3 x4 x5 x6) (k0_pay4 (F := Ideal))) b i j
        = Spec.lower X W1 b1 W2 b2 W3 b3 (R b) i j := by
    intro b i j
    unfold lowerBlk Spec.lower
    by_cases h : j ≤ i
    · rw [dif_pos h, dif_pos h]
      exact tri_apply X W1 b1 W2 b2 W3 b3 R x0 x1 x2 x3 x4 x5 x6 h0 h1 h2 h3 h4 h5 h6 b _
    · rw [dif_neg h, dif_neg h]
  refine (pay1_apply _ _ _ _ _ _ _ _ _ _ _ _ (fun b i j => Spec.lower X W1 b1 W2 b2 W3 b3 (R b) i j)
    (fun b j => (row0_apply _ _ _ _ b j).trans (hL b 0 j))
    (fun b j => (row1_apply _ _ _ _ b j).trans (hL b 1 j))
    (fun b j => (row2_apply _ _ _ _ b j).trans (hL b 2 j))
    (fun b j => (row3_apply _ _ _ _ b j).trans (hL b 3 j))
    (fun b j => (row4_apply _ _ _ _ b j).trans (hL b 4 j))
    (fun b j => (row5_apply _ _ _ _ b j).trans (hL b 5 j))
    (fun b j => (row6_apply _ _ _ _ b j).trans (hL b 6 j))
    (fun b j => (row7_apply _ _ _ _ b j).trans (hL b 7 j))
    (fun b j => (row8_apply _ _ _ _ b j).trans (hL b 8 j))
    (fun b j => (row9_apply _ _ _ _ b j).trans (hL b 9 j))
    (fun b j => (row10_apply _ _ _ _ b j).trans (hL b 10 j))
    (fun b j => (row11_apply _ _ _ _ b j).trans (hL b 11 j)) p i k).trans rfl

end Block

end Cert.KernelValue

end
-- ==== Proof.KernelBodySpec.lean ====
/-
  The body's block, entry by entry, in the form the blocks-to-array argument takes it as its one hypothesis:
  for every block of 512 rows that holds the rows R r of the input, against weight blocks that hold the
  transposed weight matrices, the block the body writes is the specification's Gram matrix of row R p at (p, i, k).
-/
import proofs.«153956_j18674517803680_1_alg».proof.Proof.KernelBody
import proofs.«153956_j18674517803680_1_alg».proof.Proof.KernelBlocks

noncomputable section

namespace Cert.KernelValue

theorem body_spec : Cert.KernelBlocks.BodySpec :=
  fun X W1 b1 W2 b2 W3 b3 R x0 x1 x2 x3 x4 x5 x6 h0 h1 h2 h3 h4 h5 h6 p i k =>
    out_block X W1 b1 W2 b2 W3 b3 R x0 x1 x2 x3 x4 x5 x6 h0 h1 h2 h3 h4 h5 h6 p i k

end Cert.KernelValue

end
-- ==== Proof.TrilCells.lean ====
/-
  The lower triangle of a 12 × 12 matrix has 78 cells.  Listed row by row, cell number `q` sits in row `triRow q`, the
  largest `r` with `r(r+1)/2 ≤ q`, and column `triCol q = q − r(r+1)/2`.  The facts below say that this is the inverse
  of `(i, j) ↦ i(i+1)/2 + j` on the cells `j ≤ i < 12`; each is a finite check over the 78 cells.
-/
import proofs.«153956_j18674517803680_1_alg».proof.Proof.Spec

namespace Cert.TrilCells

open Cert.Spec

/-- The row of the `q`-th lower-triangular cell: the triangular numbers 0, 1, 3, 6, … , 66 mark where each row starts. -/
def triRow (q : Fin 78) : Nat :=
  if q.val < 1 then 0 else if q.val < 3 then 1 else if q.val < 6 then 2 else if q.val < 10 then 3
  else if q.val < 15 then 4 else if q.val < 21 then 5 else if q.val < 28 then 6 else if q.val < 36 then 7
  else if q.val < 45 then 8 else if q.val < 55 then 9 else if q.val < 66 then 10 else 11

/-- The column of the `q`-th lower-triangular cell: its offset from the start of its row. -/
def triCol (q : Fin 78) : Nat := q.val - triRow q * (triRow q + 1) / 2

/-- A cell's column does not exceed its row. -/
theorem triCol_le_triRow : ∀ q : Fin 78, triCol q ≤ triRow q := by decide

/-- A cell's row is below 12. -/
theorem triRow_lt : ∀ q : Fin 78, triRow q < 12 := by decide

/-- A cell's column is below 12. -/
theorem triCol_lt (q : Fin 78) : triCol q < 12 := Nat.lt_of_le_of_lt (triCol_le_triRow q) (triRow_lt q)

/-- A cell's number is recovered from its row and column. -/
theorem tri_decomp : ∀ q : Fin 78, triRow q * (triRow q + 1) / 2 + triCol q = q.val := by decide

/-- The cell numbered `i(i+1)/2 + j` is in row `i` … -/
theorem triRow_triPos : ∀ i j : Fin 12, ∀ h : j ≤ i, triRow (triPos i j h) = i.val := by decide

/-- … and column `j`. -/
theorem triCol_triPos : ∀ i j : Fin 12, ∀ h : j ≤ i, triCol (triPos i j h) = j.val := by decide

/-- A cell in row `i` and column `j` is the cell numbered `i(i+1)/2 + j`. -/
theorem eq_triPos (q : Fin 78) (i j : Fin 12) (h : j ≤ i) (hr : triRow q = i.val) (hc : triCol q = j.val) :
    q = triPos i j h := by
  apply Fin.ext
  have := tri_decomp q
  rw [hr, hc] at this
  exact this.symm

/-- The flat position of a cell in the 12 × 12 array. -/
def triFlat (q : Fin 78) : Nat := 12 * triRow q + triCol q

end Cert.TrilCells
-- ==== Proof.TrilClosed.lean ====
/-
  Closed forms of the stages through which the reference computes its table of lower-triangular cells.

  The reference builds the 12 × 12 mask `column ≤ row`, numbers the mask's cells by a running sum along the 144 flat
  positions `n = 12r + c`, inverts that numbering by counting, for each number below 78, the flat positions that carry it
  and summing those counts again, and splits each flat position into its row and its column.  The functions here say
  what each stage holds; the sibling modules prove it stage by stage.
-/
import proofs.«153956_j18674517803680_1_alg».proof.Proof.RefStages
import proofs.«153956_j18674517803680_1_alg».proof.Proof.TrilCells

namespace Cert.TrilIndex

open Cert.ReferenceIdeal Cert.TrilCells Idealize.ShloMosaic

/-- The mask: one at the cells on and below the diagonal. -/
def maskFn : IVec S12x12 1 := fun i => if (i 1).val ≤ (i 0).val then 1#1 else 0#1

/-- The mask along the 144 flat positions, as words: position `n = 12r + c` is cell `(r, c)`. -/
def maskWord : IVec S144 32 := fun n => if (n 0).val % 12 ≤ (n 0).val / 12 then 1#32 else 0#32

/-- The number of mask cells at flat positions `≤ n`, `n = 12r + c`: the `r` rows above contribute `1 + 2 + … + r`, row
    `r` itself its cells up to column `min(c, r)`. -/
def cumCount (n : Nat) : Nat := (n / 12) * (n / 12 + 1) / 2 + min (n % 12) (n / 12) + 1

/-- The running count at each flat position. -/
def cumFn : IVec S144 32 := fun n => BitVec.ofNat 32 (cumCount (n 0).val)

/-- The bin each flat position is counted into: its running count (never negative, so neither clipped nor wrapped). -/
def binFn : IVec S144x1 32 := fun i => BitVec.ofNat 32 (cumCount (i 0).val)

/-- How many flat positions have running count `k`: none for `k = 0`; for `k ≥ 1` the running count reaches `k` at the
    `k`-th mask cell, cell number `k − 1` at `(r, c)`, and stays there until the next mask cell — the very next
    position when `c < r`, and the start of the next row, `12 − r` positions on, when the cell is on the diagonal. -/
def binSize (k : Fin 78) : Nat :=
  if h : k.val = 0 then 0
  else if triCol ⟨k.val - 1, by omega⟩ < triRow ⟨k.val - 1, by omega⟩ then 1 else 12 - triRow ⟨k.val - 1, by omega⟩

/-- The bin sizes below 78. -/
def sizeFn : IVec S78 32 := fun k => BitVec.ofNat 32 (binSize (k 0))

/-- The flat position of each cell. -/
def flatFn : IVec S78 32 := fun q => BitVec.ofNat 32 (triFlat (q 0))

/-- The row of each cell. -/
def rowFn : IVec S78 32 := fun q => BitVec.ofNat 32 (triRow (q 0))

/-- The column of each cell. -/
def colFn : IVec S78 32 := fun q => BitVec.ofNat 32 (triCol (q 0))

end Cert.TrilIndex
-- ==== Proof.TrilMask.lean ====
/-
  The mask of the lower triangle.  The reference takes a 12 × 12 array of ones, keeps an entry where
  `row + 0 ≥ column` (a signed comparison of the two coordinate words) and puts zero elsewhere, and then marks the
  entries that differ from zero.  On the extended reals one differs from zero and zero does not, so the mark at cell
  `(a, b)` is one exactly where `b ≤ a`.
-/
import proofs.«153956_j18674517803680_1_alg».proof.Proof.TrilClosed
import Idealize.ShloMosaic.Lib.IdealHost
import Idealize.ShloMosaic.Lib.ValueIdx

namespace Cert.TrilIndex

open Cert.ReferenceIdeal Cert.ReferenceIdeal.Gen Cert.RefStages
open Idealize.ShloMosaic Idealize.ShloMosaic.ValueIdx

/-- On coordinates below 12 the signed comparison `row + 0 ≥ column` of the coordinate words is the comparison of the
    coordinates. -/
theorem sge_coords : ∀ a b : Fin 12,
    IntOp.cmpi .sge (IntOp.addi (BitVec.ofNat 32 a.val) 0#32) (BitVec.ofNat 32 b.val) = if b.val ≤ a.val then 1#1 else 0#1 := by
  decide

/-- The mask at cell `(a, b)`. -/
theorem trilMask_apply (a b : Fin 12) : trilMask (F := Ideal) (ix2 a b) = if b.val ≤ a.val then 1#1 else 0#1 := by
  show Ideal.cmp .une (Scalar.select (IntOp.cmpi .sge (IntOp.addi (BitVec.ofNat 32 a.val) 0#32) (BitVec.ofNat 32 b.val))
      (Ideal.ofBits .f32 0x3F800000#32) (Ideal.ofBits .f32 0x00000000#32)) (Ideal.ofBits .f32 0x00000000#32) = _
  rw [sge_coords, Ideal.ofBits_one_f32, Ideal.ofBits_zero_f32]
  by_cases h : b.val ≤ a.val
  · rw [if_pos h, select_one]; simp [Ideal.cmp]
  · rw [if_neg h, select_zero]; simp [Ideal.cmp]

/-- The mask is the indicator of the lower triangle. -/
theorem trilMask_eq : trilMask (F := Ideal) = maskFn := by
  funext i
  obtain ⟨a, b, rfl⟩ : ∃ (a b : Fin 12), i = ix2 a b := ⟨i 0, i 1, eq_ix2 i⟩
  exact trilMask_apply a b

end Cert.TrilIndex
-- ==== Proof.TrilMaskFlat.lean ====
/-
  The mask read along the flat positions.  Flattening the 12 × 12 mask row by row sends cell `(r, c)` to position
  `12r + c`, so position `n` holds the mask of cell `(n ÷ 12, n mod 12)`; widening its bit to a word gives one where
  `n mod 12 ≤ n ÷ 12` and zero elsewhere.  A computation on 144 bits.
-/
import proofs.«153956_j18674517803680_1_alg».proof.Proof.TrilClosed
import Idealize.ShloMosaic.Lib.ValueIdx
import Idealize.ShloMosaic.Lib.Decide

set_option Elab.async false

namespace Cert.TrilIndex

open Cert.ReferenceIdeal Cert.ReferenceIdeal.Gen Cert.RefStages Cert.TrilCells
open Idealize.ShloMosaic Idealize.ShloMosaic.ValueIdx

/-- Flattening the mask row by row and widening its bits to words gives the mask along the flat positions. -/
theorem maskFlat_apply : ∀ k : Fin 144,
    extui 32 (shapeCast S144 maskFn shapeCasts_S12x12_S144) natLt_1_32 (ix1 k) = maskWord (ix1 k) := by
  decide +kernel

theorem maskFlat_eq : extui 32 (shapeCast S144 maskFn shapeCasts_S12x12_S144) natLt_1_32 = maskWord := by
  funext n
  obtain ⟨k, rfl⟩ : ∃ k : Fin 144, n = ix1 k := ⟨n 0, eq_ix1 n⟩
  exact maskFlat_apply k

end Cert.TrilIndex
-- ==== Proof.TrilCum.lean ====
/-
  The running count of mask cells.  Along the 144 flat positions `n = 12r + c` the mask is one where `c ≤ r`; its
  running sum at `n` counts the mask cells at positions `≤ n`: `1 + 2 + … + r` from the rows above and `min(c, r) + 1`
  from row `r`.  A computation on 144 words.
-/
import proofs.«153956_j18674517803680_1_alg».proof.Proof.TrilMaskFlat

set_option Elab.async false

namespace Cert.TrilIndex

open Cert.ReferenceIdeal Cert.ReferenceIdeal.Gen Cert.RefStages
open Idealize.ShloMosaic Idealize.ShloMosaic.ValueIdx

/-- The running sum of the flat mask at position `k` is the count of mask cells up to `k`. -/
theorem maskCum_apply : ∀ k : Fin 144,
    Host.reduceWindow IntOp.addi ![144] ![1] ![143] ![0] maskWord
      (broadcastInDim S_ ![] bcast_S_S_ (constantI S_ 32 0#32)) reduceWindows_S144_S144_w144s1p143_0 h_S_ (ix1 k)
      = cumFn (ix1 k) := by
  decide +kernel

/-- Given the mask, the running count. -/
theorem maskCum_eq_of (h : trilMask (F := Ideal) = maskFn) : maskCum (F := Ideal) = cumFn := by
  unfold maskCum
  rw [h, maskFlat_eq]
  funext n
  obtain ⟨k, rfl⟩ : ∃ k : Fin 144, n = ix1 k := ⟨n 0, eq_ix1 n⟩
  exact maskCum_apply k

end Cert.TrilIndex
-- ==== Proof.TrilBin.lean ====
/-
  From running counts to bin sizes.  A running count is at least one, so clipping it below at zero and wrapping a
  negative value by 78 leave it as it is: each flat position is counted into the bin numbered by its running count.
  Adding one into that bin for every flat position (a count of 78, reached at the last position only, has no bin and
  is dropped) leaves in bin `k` the number of flat positions whose running count is `k`.
-/
import proofs.«153956_j18674517803680_1_alg».proof.Proof.TrilClosed
import Idealize.ShloMosaic.Lib.ValueIdx
import Idealize.ShloMosaic.Lib.Decide

set_option Elab.async false

namespace Cert.TrilIndex

open Cert.ReferenceIdeal Cert.ReferenceIdeal.Gen Cert.RefStages
open Idealize.ShloMosaic Idealize.ShloMosaic.ValueIdx

/-- Given the running counts, the bin numbers. -/
theorem binIdx_eq_of (h : maskCum (F := Ideal) = cumFn) : binIdx (F := Ideal) = binFn := by
  unfold binIdx
  rw [h]
  funext i
  obtain ⟨k, z, rfl⟩ : ∃ (k : Fin 144) (z : Fin 1), i = ix2 k z := ⟨i 0, i 1, eq_ix2 i⟩
  revert k z
  decide +kernel

/-- Given the bin numbers, the bin sizes. -/
theorem binCount_eq_of (h : binIdx (F := Ideal) = binFn) : binCount (F := Ideal) = sizeFn := by
  unfold binCount
  rw [h]
  funext n
  obtain ⟨k, rfl⟩ : ∃ k : Fin 78, n = ix1 k := ⟨n 0, eq_ix1 n⟩
  revert k
  decide +kernel

end Cert.TrilIndex
-- ==== Proof.TrilFlatPos.lean ====
/-
  From bin sizes to flat positions.  Bin `k ≥ 1` holds the flat positions from the `k`-th mask cell up to just before
  the next one (bin 0 is empty), so the sum of the bin sizes up to `q` is the flat position `12·row + column` of cell
  `q`: a running sum over 78 words.
-/
import proofs.«153956_j18674517803680_1_alg».proof.Proof.TrilClosed
import Idealize.ShloMosaic.Lib.ValueIdx
import Idealize.ShloMosaic.Lib.Decide

set_option Elab.async false

namespace Cert.TrilIndex

open Cert.ReferenceIdeal Cert.ReferenceIdeal.Gen Cert.RefStages Cert.TrilCells
open Idealize.ShloMosaic Idealize.ShloMosaic.ValueIdx

/-- Given the bin sizes, the flat positions of the cells. -/
theorem flatPos_eq_of (h : binCount (F := Ideal) = sizeFn) : flatPos (F := Ideal) = flatFn := by
  unfold flatPos
  rw [h]
  funext n
  obtain ⟨k, rfl⟩ : ∃ k : Fin 78, n = ix1 k := ⟨n 0, eq_ix1 n⟩
  revert k
  decide +kernel

end Cert.TrilIndex
-- ==== Proof.TrilRowCol.lean ====
/-
  From flat positions to rows and columns.  Dividing the flat position `12·row + column` by 12 (rounding down; nothing
  is negative, so the correction for differing signs does not apply) and reducing modulo 12 gives the row; reducing the
  position itself (divided by one) modulo 12 gives the column.  Neither is negative, so the final wrap by 12 changes
  nothing.  Both are computations on 78 words, one word at a time.
-/
import proofs.«153956_j18674517803680_1_alg».proof.Proof.TrilClosed
import Idealize.ShloMosaic.Lib.ValueIdx
import Idealize.ShloMosaic.Lib.Decide

set_option Elab.async false

namespace Cert.TrilIndex

open Cert.ReferenceIdeal Cert.ReferenceIdeal.Gen Cert.RefStages Cert.TrilCells
open Idealize.ShloMosaic Idealize.ShloMosaic.ValueIdx

/-- Given the flat positions, the rows. -/
theorem rowIdx_eq_of (h : flatPos (F := Ideal) = flatFn) : rowIdx (F := Ideal) = rowFn := by
  unfold rowIdx
  rw [h]
  funext n
  obtain ⟨k, rfl⟩ : ∃ k : Fin 78, n = ix1 k := ⟨n 0, eq_ix1 n⟩
  revert k
  decide +kernel

/-- Given the flat positions, the columns. -/
theorem colIdx_eq_of (h : flatPos (F := Ideal) = flatFn) : colIdx (F := Ideal) = colFn := by
  unfold colIdx
  rw [h]
  funext n
  obtain ⟨k, rfl⟩ : ∃ k : Fin 78, n = ix1 k := ⟨n 0, eq_ix1 n⟩
  revert k
  decide +kernel

end Cert.TrilIndex
-- ==== Proof.TrilTable.lean ====
/-
  The table puts the rows of the 78 cells in its first column and their columns in its second: it is the two
  78-long lists, each made a 78 × 1 column, set side by side.
-/
import proofs.«153956_j18674517803680_1_alg».proof.Proof.TrilClosed
import Idealize.ShloMosaic.Lib.ValueIdx
import Idealize.ShloMosaic.Lib.Decide

set_option Elab.async false

namespace Cert.TrilIndex

open Cert.ReferenceIdeal Cert.ReferenceIdeal.Gen Cert.RefStages Cert.TrilCells
open Idealize.ShloMosaic Idealize.ShloMosaic.ValueIdx

/-- Given the rows and the columns, the table's two columns. -/
theorem trilTable_apply_of (hr : rowIdx (F := Ideal) = rowFn) (hc : colIdx (F := Ideal) = colFn) :
    ∀ q : Fin 78, trilTable (F := Ideal) (ix2 q 0) = BitVec.ofNat 32 (triRow q)
      ∧ trilTable (F := Ideal) (ix2 q 1) = BitVec.ofNat 32 (triCol q) := by
  unfold trilTable
  rw [hr, hc]
  decide +kernel

end Cert.TrilIndex
-- ==== Proof.TrilIndex.lean ====
/-
  The table of lower-triangular cells that the reference computes from constants, evaluated.

  The reference never writes the 78 cells down: it builds the 12 × 12 mask `column ≤ row`, numbers the mask's cells by a
  running sum along the 144 flat positions, inverts that numbering by counting, for each number below 78, the flat
  positions that carry it and summing those counts again, and splits each flat position into its row and its column.
  Each stage has a closed form, proved from the closed form of the stage before it; chained, they say that row `q` of
  the table is `(row of cell q, column of cell q)`:

    mask cell (a, b)          = 1 where b ≤ a, else 0
    running count at n        = r(r+1)/2 + min(c, r) + 1,  n = 12r + c
    bin number at n           = the running count at n
    bin size at k < 78        = number of flat positions whose running count is k
    flat position of cell q   = sum of the bin sizes up to q = 12·(row of q) + (column of q)
    row, column of cell q     = (flat ÷ 12) mod 12,  flat mod 12
-/
import proofs.«153956_j18674517803680_1_alg».proof.Proof.TrilMask
import proofs.«153956_j18674517803680_1_alg».proof.Proof.TrilCum
import proofs.«153956_j18674517803680_1_alg».proof.Proof.TrilBin
import proofs.«153956_j18674517803680_1_alg».proof.Proof.TrilFlatPos
import proofs.«153956_j18674517803680_1_alg».proof.Proof.TrilRowCol
import proofs.«153956_j18674517803680_1_alg».proof.Proof.TrilTable

namespace Cert.TrilIndex

open Cert.ReferenceIdeal Cert.RefStages Cert.TrilCells
open Idealize.ShloMosaic Idealize.ShloMosaic.ValueIdx

/-- The running count of mask cells at each flat position. -/
theorem maskCum_eq : maskCum (F := Ideal) = cumFn := maskCum_eq_of trilMask_eq

/-- The bin each flat position is counted into. -/
theorem binIdx_eq : binIdx (F := Ideal) = binFn := binIdx_eq_of maskCum_eq

/-- The number of flat positions in each bin. -/
theorem binCount_eq : binCount (F := Ideal) = sizeFn := binCount_eq_of binIdx_eq

/-- The flat position of each cell. -/
theorem flatPos_eq : flatPos (F := Ideal) = flatFn := flatPos_eq_of binCount_eq

/-- The row of each cell. -/
theorem rowIdx_eq : rowIdx (F := Ideal) = rowFn := rowIdx_eq_of flatPos_eq

/-- The column of each cell. -/
theorem colIdx_eq : colIdx (F := Ideal) = colFn := colIdx_eq_of flatPos_eq

/-- Row `q` of the table is the row and the column of the `q`-th lower-triangular cell. -/
theorem trilTable_apply (q : Fin 78) :
    trilTable (F := Ideal) (ix2 q 0) = BitVec.ofNat 32 (triRow q)
      ∧ trilTable (F := Ideal) (ix2 q 1) = BitVec.ofNat 32 (triCol q) :=
  trilTable_apply_of rowIdx_eq colIdx_eq q

end Cert.TrilIndex
-- ==== Proof.ScatterSet.lean ====
/-
  A scatter whose combining function keeps the update ("set") writes each update at the operand index it
  lands on.  When at most one update lands on an index, the result there is that update; an index no update
  lands on keeps the operand's element.  The statement is first proved for a left fold of point updates over
  an arbitrary duplicate-free list, by induction on the list with the accumulator generalized, and then read
  off for the row-major list of all update positions.
-/
import Idealize.ShloMosaic.PureOps

namespace Idealize.ShloMosaic.ScatterSet

open Idealize.ShloMosaic

section Fold

variable {ι κ α : Type}

/-- A fold of point updates: `g n` is the index update `n` targets (or none), `u n` the value it writes.
    If no entry of the list targets `i`, the fold leaves `i` as it found it. -/
theorem foldl_miss (g : κ → Option ι) (step : (ι → α) → κ → ι → α)
    (hnone : ∀ r n, g n = none → step r n = r)
    (hoff : ∀ r n k i', g n = some k → i' ≠ k → step r n i' = r i')
    (i : ι) (l : List κ) (x : ι → α) (h : ∀ n ∈ l, g n ≠ some i) :
    l.foldl step x i = x i := by
  induction l generalizing x with
  | nil => rfl
  | cons a l ih =>
    rw [List.foldl_cons, ih (step x a) (fun n hn => h n (List.mem_cons_of_mem _ hn))]
    cases hga : g a with
    | none => rw [hnone x a hga]
    | some k =>
      exact hoff x a k i hga (fun hik => h a List.mem_cons_self (by rw [hga, hik]))

/-- If `n` is in the duplicate-free list, targets `i`, and is the only entry that does, the fold holds `u n`
    at `i`: the entries before `n` are overwritten, those after it do not touch `i`. -/
theorem foldl_hit (g : κ → Option ι) (u : κ → α) (step : (ι → α) → κ → ι → α)
    (hnone : ∀ r n, g n = none → step r n = r)
    (hat : ∀ r n k, g n = some k → step r n k = u n)
    (hoff : ∀ r n k i', g n = some k → i' ≠ k → step r n i' = r i')
    (i : ι) (n : κ) (hn : g n = some i) (l : List κ) (x : ι → α) (hl : l.Nodup)
    (huniq : ∀ b ∈ l, g b = some i → b = n) (hmem : n ∈ l) :
    l.foldl step x i = u n := by
  induction l generalizing x with
  | nil => exact absurd hmem List.not_mem_nil
  | cons a l ih =>
    rw [List.foldl_cons]
    have hnd := List.nodup_cons.1 hl
    rcases List.mem_cons.1 hmem with hna | hnl
    · subst hna
      rw [foldl_miss g step hnone hoff i l (step x n) (fun m hm hgm => by
        have := huniq m (List.mem_cons_of_mem _ hm) hgm
        subst this
        exact hnd.1 hm)]
      exact hat x n i hn
    · exact ih (step x a) hnd.2 (fun b hb => huniq b (List.mem_cons_of_mem _ hb)) hnl

end Fold

section Scatter

variable {s si u : Shape} {w : Nat} {α : Type}

/-- The three facts about one step of the scatter's fold that the list lemmas use. -/
private theorem step_none (d : ScatterDims s si u) (idx : IVec si w) (upd : u.Idx → α) (r : s.Idx → α) (n : Fin u.numel)
    (h : d.resultIdx? (u.rowMajor.symm n) idx = none) :
    (match d.resultIdx? (u.rowMajor.symm n) idx with
      | some i => fun i' => if i' = i then (fun (_ b : α) => b) (r i) (upd (u.rowMajor.symm n)) else r i'
      | none => r) = r := by
  rw [h]

private theorem step_at (d : ScatterDims s si u) (idx : IVec si w) (upd : u.Idx → α) (r : s.Idx → α) (n : Fin u.numel)
    (k : s.Idx) (h : d.resultIdx? (u.rowMajor.symm n) idx = some k) :
    (match d.resultIdx? (u.rowMajor.symm n) idx with
      | some i => fun i' => if i' = i then (fun (_ b : α) => b) (r i) (upd (u.rowMajor.symm n)) else r i'
      | none => r) k = upd (u.rowMajor.symm n) := by
  rw [h]; exact if_pos rfl

private theorem step_off (d : ScatterDims s si u) (idx : IVec si w) (upd : u.Idx → α) (r : s.Idx → α) (n : Fin u.numel)
    (k i' : s.Idx) (h : d.resultIdx? (u.rowMajor.symm n) idx = some k) (hne : i' ≠ k) :
    (match d.resultIdx? (u.rowMajor.symm n) idx with
      | some i => fun i' => if i' = i then (fun (_ b : α) => b) (r i) (upd (u.rowMajor.symm n)) else r i'
      | none => r) i' = r i' := by
  rw [h]; exact if_neg hne

/-- A set-scatter at an operand index `i` that update position `j`, and no other, lands on: the update at `j`. -/
theorem scatter_set_hit (d : ScatterDims s si u) (x : s.Idx → α) (idx : IVec si w) (upd : u.Idx → α)
    (j : u.Idx) (i : s.Idx) (h : d.resultIdx? j idx = some i)
    (huniq : ∀ j' : u.Idx, d.resultIdx? j' idx = some i → j' = j) :
    Host.scatter d (fun _ b => b) x idx upd i = upd j := by
  unfold Host.scatter
  have hj : u.rowMajor.symm (u.rowMajor j) = j := Equiv.symm_apply_apply _ _
  have key := foldl_hit (fun n : Fin u.numel => d.resultIdx? (u.rowMajor.symm n) idx)
    (fun n => upd (u.rowMajor.symm n)) _
    (fun r n hg => step_none d idx upd r n hg)
    (fun r n k hg => step_at d idx upd r n k hg)
    (fun r n k i' hg hne => step_off d idx upd r n k i' hg hne)
    i (u.rowMajor j) (by rw [hj]; exact h) (List.finRange u.numel) x (List.nodup_finRange _)
    (fun b _ hb => by
      have := huniq _ hb
      rw [← this]; exact (Equiv.apply_symm_apply _ _).symm)
    (List.mem_finRange _)
  rw [hj] at key
  exact key

/-- A set-scatter at an operand index no update position lands on: the operand's element. -/
theorem scatter_set_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  unfold Host.scatter
  exact foldl_miss (fun n : Fin u.numel => d.resultIdx? (u.rowMajor.symm n) idx) _
    (fun r n hg => step_none d idx upd r n hg)
    (fun r n k i' hg hne => step_off d idx upd r n k i' hg hne)
    i (List.finRange u.numel) x (fun n _ => h _)

end Scatter

end Idealize.ShloMosaic.ScatterSet
-- ==== Proof.TrilScatter.lean ====
/-
  The fill of the lower triangles, read at an entry, for ANY index table whose two columns list the rows and the
  columns of the 78 cells.

  The fill writes update `(r, q)` — entry `q` of batch row `r` — at the operand index whose first coordinate is `r`
  (the one window axis) and whose other two coordinates are the table's row `q`, read as signed words.  With the
  table's row `q` holding `(R q, C q)`, both below 12, the update lands on `(r, R q, C q)`.  If `q ↦ (R q, C q)` is a
  bijection from the 78 cells onto the pairs `j ≤ i < 12`, then an entry `(r, i, j)` with `j ≤ i` is hit by exactly one
  update, the one for the cell numbered `i(i+1)/2 + j`, and an entry above the diagonal by none.
-/
import proofs.«153956_j18674517803680_1_alg».proof.Proof.RefStages
import proofs.«153956_j18674517803680_1_alg».proof.Proof.ScatterSet
import proofs.«153956_j18674517803680_1_alg».proof.Proof.Spec
import Idealize.ShloMosaic.Lib.ValueIdx

namespace Cert.TrilScatter

open Cert.ReferenceIdeal Cert.ReferenceIdeal.Gen Cert.Spec
open Idealize.ShloMosaic Idealize.ShloMosaic.ValueIdx Idealize.ShloMosaic.ScatterSet

/-- The fill's dimension numbers: update axis 0 is the window axis and goes to operand axis 0; the table's row gives
    the start on operand axes 1 and 2. -/
abbrev fillDims : ScatterDims S262144x12x12 S78x2 S262144x78 := scatter_S262144x12x12_S78x2_S262144x78_0_12_12_1

variable (r : Fin 262144) (q : Fin 78) (tbl : IVec S78x2 32)

/-- The window coordinate of update `(r, q)`: `r` on axis 0, nothing on the two inserted axes. -/
theorem window_0 : fillDims.window (ix2 r q) 0 = r.val := rfl
theorem window_1 : fillDims.window (ix2 r q) 1 = 0 := rfl
theorem window_2 : fillDims.window (ix2 r q) 2 = 0 := rfl

/-- Update `(r, q)` reads component `c` of its start at the table's entry `(q, c)`. -/
theorem siIdx_0 (h : 0 < fillDims.scatterDimsToOperandDims.length) :
    fillDims.siIdx (ix2 r q) ⟨0, h⟩ = ix2 q 0 := by
  funext b
  match b with
  | ⟨0, _⟩ => rfl
  | ⟨1, _⟩ => rfl

theorem siIdx_1 (h : 1 < fillDims.scatterDimsToOperandDims.length) :
    fillDims.siIdx (ix2 r q) ⟨1, h⟩ = ix2 q 1 := by
  funext b
  match b with
  | ⟨0, _⟩ => rfl
  | ⟨1, _⟩ => rfl

/-- The start of update `(r, q)`: zero on axis 0, the table's row `q` on axes 1 and 2. -/
theorem start_0 : fillDims.start (ix2 r q) tbl 0 = 0 := rfl
theorem start_1 : fillDims.start (ix2 r q) tbl 1 = (tbl (ix2 q 0)).toInt := by
  show (tbl (fillDims.siIdx (ix2 r q) ⟨0, _⟩)).toInt = _
  exact congrArg (fun z => (tbl z).toInt) (siIdx_0 r q _)
theorem start_2 : fillDims.start (ix2 r q) tbl 2 = (tbl (ix2 q 1)).toInt := by
  show (tbl (fillDims.siIdx (ix2 r q) ⟨1, _⟩)).toInt = _
  exact congrArg (fun z => (tbl z).toInt) (siIdx_1 r q _)

/-- A word below 12 read signed is itself. -/
theorem toInt_small : ∀ n : Fin 12, (BitVec.ofNat 32 n.val).toInt = (n.val : Int) := by decide

/-- Where update `(r, q)` lands when the table's row `q` is `(R, C)`. -/
theorem resultIdx_eq (R C : Fin 12) (hR : tbl (ix2 q 0) = BitVec.ofNat 32 R.val)
    (hC : tbl (ix2 q 1) = BitVec.ofNat 32 C.val) :
    fillDims.resultIdx? (ix2 r q) tbl = some (ix3 r R C) := by
  have hs : ∀ a, fillDims.start (ix2 r q) tbl a + fillDims.window (ix2 r q) a = ((ix3 r R C a).val : Int) := by
    intro a
    match a with
    | ⟨0, _⟩ => show fillDims.start (ix2 r q) tbl 0 + fillDims.window (ix2 r q) 0 = (r.val : Int)
                rw [start_0, window_0]; simp
    | ⟨1, _⟩ => show fillDims.start (ix2 r q) tbl 1 + fillDims.window (ix2 r q) 1 = (R.val : Int)
                rw [start_1, window_1, hR, toInt_small]; simp
    | ⟨2, _⟩ => show fillDims.start (ix2 r q) tbl 2 + fillDims.window (ix2 r q) 2 = (C.val : Int)
                rw [start_2, window_2, hC, toInt_small]; simp
  unfold ScatterDims.resultIdx?
  rw [dif_pos (fun a => by
    rw [hs a]
    exact ⟨Int.natCast_nonneg _, Int.ofNat_lt.2 (ix3 r R C a).isLt⟩)]
  congr 1
  funext a
  apply Fin.ext
  show (fillDims.start (ix2 r q) tbl a + fillDims.window (ix2 r q) a).toNat = (ix3 r R C a).val
  rw [hs a]; exact Int.toNat_natCast _

variable {α : Type}

/-- The fill read at an entry, for a table whose rows are the cells' `(row, column)`: below and on the diagonal the
    update for the cell numbered `i(i+1)/2 + j`, above it the operand. -/
theorem fill_apply (R C : Fin 78 → Fin 12)
    (hR : ∀ q, tbl (ix2 q 0) = BitVec.ofNat 32 (R q).val) (hC : ∀ q, tbl (ix2 q 1) = BitVec.ofNat 32 (C q).val)
    (hle : ∀ q, C q ≤ R q)
    (hpos : ∀ (i j : Fin 12) (h : j ≤ i), R (triPos i j h) = i ∧ C (triPos i j h) = j)
    (huniq : ∀ (q : Fin 78) (i j : Fin 12) (h : j ≤ i), R q = i → C q = j → q = triPos i j h)
    (x : S262144x12x12.Idx → α) (v : S262144x78.Idx → α) (r : Fin 262144) (i j : Fin 12) :
    Host.scatter fillDims (fun _ b => b) x tbl v (ix3 r i j)
      = if h : j ≤ i then v (ix2 r (triPos i j h)) else x (ix3 r i j) := by
  have land : ∀ (r' : Fin 262144) (q' : Fin 78),
      fillDims.resultIdx? (ix2 r' q') tbl = some (ix3 r' (R q') (C q')) :=
    fun r' q' => resultIdx_eq r' q' tbl (R q') (C q') (hR q') (hC q')
  have coords : ∀ (r' : Fin 262144) (q' : Fin 78), fillDims.resultIdx? (ix2 r' q') tbl = some (ix3 r i j) →
      r' = r ∧ R q' = i ∧ C q' = j := by
    intro r' q' hj'
    rw [land r' q'] at hj'
    have e := Option.some.inj hj'
    exact ⟨congrFun e 0, congrFun e 1, congrFun e 2⟩
  by_cases h : j ≤ i
  · rw [dif_pos h]
    refine scatter_set_hit fillDims x tbl v (ix2 r (triPos i j h)) (ix3 r i j) ?_ ?_
    · rw [land, (hpos i j h).1, (hpos i j h).2]
    · intro j' hj'
      obtain ⟨r', q', rfl⟩ : ∃ (r' : Fin 262144) (q' : Fin 78), j' = ix2 r' q' := ⟨j' 0, j' 1, eq_ix2 j'⟩
      obtain ⟨h0, h1, h2⟩ := coords r' q' hj'
      rw [h0, huniq q' i j h h1 h2]
  · rw [dif_neg h]
    refine scatter_set_miss fillDims x tbl v (ix3 r i j) (fun j' hj' => ?_)
    obtain ⟨r', q', rfl⟩ : ∃ (r' : Fin 262144) (q' : Fin 78), j' = ix2 r' q' := ⟨j' 0, j' 1, eq_ix2 j'⟩
    obtain ⟨_, h1, h2⟩ := coords r' q' hj'
    apply h
    rw [← h1, ← h2]
    exact hle q'

end Cert.TrilScatter
-- ==== Proof.TrilFill.lean ====
/-
  The reference's lower-triangular fill, read at an entry.  The table the reference computes lists the 78 cells of
  the lower triangle row by row, and `q ↦ (row of q, column of q)` is the inverse of `(i, j) ↦ i(i+1)/2 + j` on the
  cells `j ≤ i < 12`.  Writing the 78 numbers of batch row `r` into a zero array at those cells therefore leaves, at
  entry `(r, i, j)`, number `i(i+1)/2 + j` of row `r` when `j ≤ i`, and zero above the diagonal.
-/
import proofs.«153956_j18674517803680_1_alg».proof.Proof.TrilIndex
import proofs.«153956_j18674517803680_1_alg».proof.Proof.TrilScatter

namespace Cert.TrilFill

open Cert.ReferenceIdeal Cert.ReferenceIdeal.Gen Cert.RefStages Cert.TrilCells Cert.TrilIndex Cert.TrilScatter Cert.Spec
open Idealize.ShloMosaic Idealize.ShloMosaic.ValueIdx

/-- The fill at the reference's own table: the triangle entries below and on the diagonal, zero above it. -/
theorem fill_trilTable_apply (v : FVec Ideal S262144x78 .f32) (r : Fin 262144) (i j : Fin 12) :
    fill (F := Ideal) (trilTable (F := Ideal)) v (ix3 r i j)
      = if h : j ≤ i then v (ix2 r (triPos i j h)) else (0 : EReal) := by
  unfold fill
  have key := fill_apply (trilTable (F := Ideal)) (fun q => ⟨triRow q, triRow_lt q⟩) (fun q => ⟨triCol q, triCol_lt q⟩)
    (fun q => (trilTable_apply q).1) (fun q => (trilTable_apply q).2)
    (fun q => triCol_le_triRow q)
    (fun i j h => ⟨Fin.ext (triRow_triPos i j h), Fin.ext (triCol_triPos i j h)⟩)
    (fun q i j h hr hc => eq_triPos q i j h (congrArg Fin.val hr) (congrArg Fin.val hc))
    (broadcastInDim S262144x12x12 ![] bcast_S_S262144x12x12 (constant (F := Ideal) S_ .f32 0x00000000#32)) v r i j
  rw [key]
  by_cases h : j ≤ i
  · rw [dif_pos h, dif_pos h]
  · rw [dif_neg h, dif_neg h]
    exact Ideal.ofBits_zero_f32

end Cert.TrilFill
-- ==== Proof.LibFoldSplit.lean ====
/-
  The fold of a line of host operations over buffer contents, split at a position: running the whole line from
  contents `V` is running its first `k` operations from `V` and the rest from what they leave. A long line can then be
  read back stretch by stretch, each stretch from NAMED contents, instead of in one pass.
-/
import Idealize.ShloMosaic.Lib.StableHlo.Run

noncomputable section

namespace Idealize.ShloMosaic.StableHlo.FoldSplit

open Idealize.ShloMosaic Idealize.ShloMosaic.StableHlo

variable {τ : Topo} {sig : RefSig} {Val : EltTy → Type}

/-- Two lines run one after the other are their concatenation run as one, on the contents as on the program. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line split at position `k`. -/
theorem after_split (k : Nat) (l : List (HloOp τ sig Val)) (V : Valuation τ sig Val) :
    after l V = after (l.drop k) (after (l.take k) V) := by
  rw [← after_append, List.take_append_drop]

end Idealize.ShloMosaic.StableHlo.FoldSplit

end
-- ==== Proof.RefRunOps.lean ====
/-
  The reference program's @main as ONE straight line of host operations, and its run.

  The printed @main is a sequence of plain operations and of calls of module-local functions, some of which call
  further functions; a call executes the callee's body on the operands, over the buffers the call's record names.
  Written out, with every call replaced by its body (and every nested call by its body in turn), @main is 197
  operations. They are listed here in stretches — one stretch per run of plain operations and one per top-level
  call — and `ops` is their concatenation in program order. Each stretch comes with the list of the buffers it
  writes (one per operation: the operation's result), so that a buffer outside the list is known to keep its
  contents across the stretch.

  The run: from any memory with zero counters every weakly fair execution of @main terminates, and every buffer then
  holds the fold of the 197 operations over the launch contents; the seven arguments are written by no operation and
  keep their contents.
-/
import proofs.«153956_j18674517803680_1_alg».proof.Proof.Gen.ReferenceIdeal
import proofs.«153956_j18674517803680_1_alg».proof.Proof.LibFoldSplit
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.StableHlo.FoldSplit (after_append)

variable {F : FTy → Type} [FloatOps F]

/-! ## The stretches -/

/-- @main's own operations up to the next call. -/
def ops00 : List (HloOp τ sig (Elt F)) :=
  [ unary main_arg1 main_v0 ((transpose S12x128 [1, 0] · transposes_S128x12_S12x128_1_0) : (⟨S128x12, .f32⟩ : BufTy).Contents (Elt F) → (⟨S12x128, .f32⟩ : BufTy).Contents (Elt F)),
    binary main_arg0 main_v0 main_v1 ((fun l r => Host.dotGeneral dot_S262144x12_S12x128_S262144x128_1_0_0_1_n_n none l r) : (⟨S262144x12, .f32⟩ : BufTy).Contents (Elt F) → (⟨S12x128, .f32⟩ : BufTy).Contents (Elt F) → (⟨S262144x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S262144x128 ![0, 1] bcast_S1x128_S262144x128_0_1 : (⟨S1x128, .f32⟩ : BufTy).Contents (Elt F) → (⟨S262144x128, .f32⟩ : BufTy).Contents (Elt F)),
    binary main_v1 main_v3 main_v4 (addf : (⟨S262144x128, .f32⟩ : BufTy).Contents (Elt F) → (⟨S262144x128, .f32⟩ : BufTy).Contents (Elt F) → (⟨S262144x128, .f32⟩ : BufTy).Contents (Elt F)) ]

/-- The buffers that stretch writes: each operation's result, in order. -/
abbrev W00 : List (Ref sig .tc) :=
  [main_v0, main_v1, main_v2, main_v3, main_v4]

/-- The call of @elu (buffer record `main_call0`), its body's operations in order, nested calls inlined. -/
def ops01 : List (HloOp τ sig (Elt F)) :=
  [ TRef.nullary main_call0.cst (constant S_ .f32 0x00000000#32),
    TRef.unary main_call0.cst main_call0.v0 (broadcastInDim S262144x128 ![] bcast_S_S262144x128),
    TRef.binary (.of main_v4 : TRef sig ⟨S262144x128, .f32⟩) main_call0.v0 main_call0.v1 (cmpf .ogt),
    TRef.nullary main_call0.cst_0 (constant S_ .f32 0x00000000#32),
    TRef.unary main_call0.cst_0 main_call0.v2 (broadcastInDim S262144x128 ![] bcast_S_S262144x128),
    TRef.binary (.of main_v4 : TRef sig ⟨S262144x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S262144x128 ![] bcast_S_S262144x128),
    TRef.ternary main_call0.v3 main_call0.call0.v1 (.of main_v4 : TRef sig ⟨S262144x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S262144x128 ![] bcast_S_S262144x128),
    TRef.binary main_call0.v6 main_call0.v5 main_call0.v7 mulf,
    TRef.ternary main_call0.v1 (.of main_v4 : TRef sig ⟨S262144x128, .f32⟩) main_call0.v7 main_call0.call1.v0 select ]

/-- The buffers that stretch writes: each operation's result, in order. -/
abbrev W01 : List (Ref sig .tc) :=
  [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v5]

/-- @main's own operations up to the next call. -/
def ops02 : List (HloOp τ sig (Elt F)) :=
  [ unary main_arg3 main_v6 ((transpose S128x32 [1, 0] · transposes_S32x128_S128x32_1_0) : (⟨S32x128, .f32⟩ : BufTy).Contents (Elt F) → (⟨S128x32, .f32⟩ : BufTy).Contents (Elt F)),
    binary main_v5 main_v6 main_v7 ((fun l r => Host.dotGeneral dot_S262144x128_S128x32_S262144x32_1_0_0_1_n_n none l r) : (⟨S262144x128, .f32⟩ : BufTy).Contents (Elt F) → (⟨S128x32, .f32⟩ : BufTy).Contents (Elt F) → (⟨S262144x32, .f32⟩ : BufTy).Contents (Elt F)),
    unary main_arg4 main_v8 (broadcastInDim S1x32 ![1] bcast_S32_S1x32_1 : (⟨S32, .f32⟩ : BufTy).Contents (Elt F) → (⟨S1x32, .f32⟩ : BufTy).Contents (Elt F)),
    unary main_v8 main_v9 (broadcastInDim S262144x32 ![0, 1] bcast_S1x32_S262144x32_0_1 : (⟨S1x32, .f32⟩ : BufTy).Contents (Elt F) → (⟨S262144x32, .f32⟩ : BufTy).Contents (Elt F)),
    binary main_v7 main_v9 main_v10 (addf : (⟨S262144x32, .f32⟩ : BufTy).Contents (Elt F) → (⟨S262144x32, .f32⟩ : BufTy).Contents (Elt F) → (⟨S262144x32, .f32⟩ : BufTy).Contents (Elt F)) ]

/-- The buffers that stretch writes: each operation's result, in order. -/
abbrev W02 : List (Ref sig .tc) :=
  [main_v6, main_v7, main_v8, main_v9, main_v10]

/-- The call of @elu_1 (buffer record `main_call1`), its body's operations in order, nested calls inlined. -/
def ops03 : List (HloOp τ sig (Elt F)) :=
  [ TRef.nullary main_call1.cst (constant S_ .f32 0x00000000#32),
    TRef.unary main_call1.cst main_call1.v0 (broadcastInDim S262144x32 ![] bcast_S_S262144x32),
    TRef.binary (.of main_v10 : TRef sig ⟨S262144x32, .f32⟩) main_call1.v0 main_call1.v1 (cmpf .ogt),
    TRef.nullary main_call1.cst_0 (constant S_ .f32 0x00000000#32),
    TRef.unary main_call1.cst_0 main_call1.v2 (broadcastInDim S262144x32 ![] bcast_S_S262144x32),
    TRef.binary (.of main_v10 : TRef sig ⟨S262144x32, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S262144x32 ![] bcast_S_S262144x32),
    TRef.ternary main_call1.v3 main_call1.call0.v1 (.of main_v10 : TRef sig ⟨S262144x32, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S262144x32 ![] bcast_S_S262144x32),
    TRef.binary main_call1.v6 main_call1.v5 main_call1.v7 mulf,
    TRef.ternary main_call1.v1 (.of main_v10 : TRef sig ⟨S262144x32, .f32⟩) main_call1.v7 main_call1.call1.v0 select ]

/-- The buffers that stretch writes: each operation's result, in order. -/
abbrev W03 : List (Ref sig .tc) :=
  [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v11]

/-- @main's own operations up to the next call. -/
def ops04 : List (HloOp τ sig (Elt F)) :=
  [ unary main_arg5 main_v12 ((transpose S32x78 [1, 0] · transposes_S78x32_S32x78_1_0) : (⟨S78x32, .f32⟩ : BufTy).Contents (Elt F) → (⟨S32x78, .f32⟩ : BufTy).Contents (Elt F)),
    binary main_v11 main_v12 main_v13 ((fun l r => Host.dotGeneral dot_S262144x32_S32x78_S262144x78_1_0_0_1_n_n none l r) : (⟨S262144x32, .f32⟩ : BufTy).Contents (Elt F) → (⟨S32x78, .f32⟩ : BufTy).Contents (Elt F) → (⟨S262144x78, .f32⟩ : BufTy).Contents (Elt F)),
    unary main_arg6 main_v14 (broadcastInDim S1x78 ![1] bcast_S78_S1x78_1 : (⟨S78, .f32⟩ : BufTy).Contents (Elt F) → (⟨S1x78, .f32⟩ : BufTy).Contents (Elt F)),
    unary main_v14 main_v15 (broadcastInDim S262144x78 ![0, 1] bcast_S1x78_S262144x78_0_1 : (⟨S1x78, .f32⟩ : BufTy).Contents (Elt F) → (⟨S262144x78, .f32⟩ : BufTy).Contents (Elt F)),
    binary main_v13 main_v15 main_v16 (addf : (⟨S262144x78, .f32⟩ : BufTy).Contents (Elt F) → (⟨S262144x78, .f32⟩ : BufTy).Contents (Elt F) → (⟨S262144x78, .f32⟩ : BufTy).Contents (Elt F)) ]

/-- The buffers that stretch writes: each operation's result, in order. -/
abbrev W04 : List (Ref sig .tc) :=
  [main_v12, main_v13, main_v14, main_v15, main_v16]

/-- The call of @softplus (buffer record `main_call2`), its body's operations in order, nested calls inlined. -/
def ops05 : List (HloOp τ sig (Elt F)) :=
  [ TRef.nullary main_call2.cst (constant S_ .f32 0x00000000#32),
    TRef.unary main_call2.cst main_call2.v0 (broadcastInDim S262144x78 ![] bcast_S_S262144x78),
    TRef.binary (.of main_v16 : TRef sig ⟨S262144x78, .f32⟩) main_call2.v0 main_call2.v1 maximumf,
    TRef.unary main_call2.cst main_call2.v2 (broadcastInDim S262144x78 ![] bcast_S_S262144x78),
    TRef.binary (.of main_v16 : TRef sig ⟨S262144x78, .f32⟩) main_call2.v2 main_call2.v3 subf,
    TRef.binary main_call2.v3 main_call2.v3 main_call2.v4 (cmpf .une),
    TRef.unary main_call2.cst main_call2.v5 (broadcastInDim S262144x78 ![] bcast_S_S262144x78),
    TRef.binary (.of main_v16 : TRef sig ⟨S262144x78, .f32⟩) main_call2.v5 main_call2.v6 addf,
    TRef.unary main_call2.v3 main_call2.v7 Host.absf,
    TRef.unary main_call2.v7 main_call2.v8 Host.negf,
    TRef.unary main_call2.v8 main_call2.v9 Host.exp,
    TRef.unary main_call2.v9 main_call2.v10 Host.log1p,
    TRef.binary main_call2.v1 main_call2.v10 main_call2.v11 addf,
    TRef.ternary main_call2.v4 main_call2.v6 main_call2.v11 main_call2.v12 select ]

/-- The buffers that stretch writes: each operation's result, in order. -/
abbrev W05 : List (Ref sig .tc) :=
  [main_call2_cst, main_call2_v0, main_call2_v1, main_call2_v2, main_call2_v3, main_call2_v4, main_call2_v5, main_call2_v6, main_call2_v7, main_call2_v8, main_call2_v9, main_call2_v10, main_call2_v11, main_v17]

/-- @main's own operations up to the next call. -/
def ops06 : List (HloOp τ sig (Elt F)) :=
  [ nullary main_cst (constant S_ .f32 0x3F800000#32),
    unary main_cst main_v18 (broadcastInDim S12x12 ![] bcast_S_S12x12 : (⟨S_, .f32⟩ : BufTy).Contents (Elt F) → (⟨S12x12, .f32⟩ : BufTy).Contents (Elt F)) ]

/-- The buffers that stretch writes: each operation's result, in order. -/
abbrev W06 : List (Ref sig .tc) :=
  [main_cst, main_v18]

/-- The call of @tril (buffer record `main_call3`), its body's operations in order, nested calls inlined. -/
def ops07 : List (HloOp τ sig (Elt F)) :=
  [ TRef.nullary main_call3.v0 (iotaInDim S12x12 32 0),
    TRef.nullary main_call3.c (constantI S_ 32 0#32),
    TRef.unary main_call3.c main_call3.v1 (broadcastInDim S12x12 ![] bcast_S_S12x12),
    TRef.binary main_call3.v0 main_call3.v1 main_call3.v2 addi,
    TRef.nullary main_call3.v3 (iotaInDim S12x12 32 1),
    TRef.binary main_call3.v2 main_call3.v3 main_call3.v4 (cmpi .sge),
    TRef.nullary main_call3.cst (constant S_ .f32 0x00000000#32),
    TRef.unary main_call3.cst main_call3.v5 (broadcastInDim S12x12 ![] bcast_S_S12x12),
    TRef.ternary main_call3.v4 (.of main_v18 : TRef sig ⟨S12x12, .f32⟩) main_call3.v5 main_call3.v6 select ]

/-- The buffers that stretch writes: each operation's result, in order. -/
abbrev W07 : List (Ref sig .tc) :=
  [main_call3_v0, main_call3_c, main_call3_v1, main_call3_v2, main_call3_v3, main_call3_v4, main_call3_cst, main_call3_v5, main_v19]

/-- @main's own operations up to the next call. -/
def ops08 : List (HloOp τ sig (Elt F)) :=
  [ nullary main_cst_0 (constant S_ .f32 0x00000000#32),
    unary main_cst_0 main_v20 (broadcastInDim S12x12 ![] bcast_S_S12x12 : (⟨S_, .f32⟩ : BufTy).Contents (Elt F) → (⟨S12x12, .f32⟩ : BufTy).Contents (Elt F)),
    binary main_v19 main_v20 main_v21 (cmpf .une : (⟨S12x12, .f32⟩ : BufTy).Contents (Elt F) → (⟨S12x12, .f32⟩ : BufTy).Contents (Elt F) → (⟨S12x12, .i1⟩ : BufTy).Contents (Elt F)) ]

/-- The buffers that stretch writes: each operation's result, in order. -/
abbrev W08 : List (Ref sig .tc) :=
  [main_cst_0, main_v20, main_v21]

/-- The call of @cumsum (buffer record `main_call4`), its body's operations in order, nested calls inlined. -/
def ops09 : List (HloOp τ sig (Elt F)) :=
  [ TRef.reshape (.of main_v21 : TRef sig ⟨S12x12, .i1⟩) main_call4.v0 rfl shapeCasts_S12x12_S144,
    TRef.unary main_call4.v0 main_call4.v1 (extui 32 · natLt_1_32),
    TRef.nullary main_call4.call0.c (constantI S_ 32 0#32),
    TRef.unary main_call4.call0.c main_call4.call0.v0 (broadcastInDim S_ ![] bcast_S_S_),
    TRef.binary main_call4.v1 main_call4.call0.v0 main_call4.call0.v1 (fun x v => Host.reduceWindow IntOp.addi ![144] ![1] ![143] ![0] x v reduceWindows_S144_S144_w144s1p143_0 h_S_) ]

/-- The buffers that stretch writes: each operation's result, in order. -/
abbrev W09 : List (Ref sig .tc) :=
  [main_call4_v0, main_call4_v1, main_call4_call0_c, main_call4_call0_v0, main_v22]

/-- @main's own operations up to the next call. -/
def ops10 : List (HloOp τ sig (Elt F)) :=
  [ nullary main_c (constantI S_ 32 0#32),
    unary main_c main_v23 (broadcastInDim S78 ![] bcast_S_S78 : (⟨S_, .i32⟩ : BufTy).Contents (Elt F) → (⟨S78, .i32⟩ : BufTy).Contents (Elt F)),
    nullary main_c_1 (constantI S_ 32 0#32) ]

/-- The buffers that stretch writes: each operation's result, in order. -/
abbrev W10 : List (Ref sig .tc) :=
  [main_c, main_v23, main_c_1]

/-- The call of @clip (buffer record `main_call5`), its body's operations in order, nested calls inlined. -/
def ops11 : List (HloOp τ sig (Elt F)) :=
  [ TRef.unary (.of main_c_1 : TRef sig ⟨S_, .i32⟩) main_call5.v0 id,
    TRef.unary main_call5.v0 main_call5.v1 (broadcastInDim S144 ![] bcast_S_S144),
    TRef.binary main_call5.v1 (.of main_v22 : TRef sig ⟨S144, .i32⟩) main_call5.v2 maxsi ]

/-- The buffers that stretch writes: each operation's result, in order. -/
abbrev W11 : List (Ref sig .tc) :=
  [main_call5_v0, main_call5_v1, main_v24]

/-- @main's own operations up to the next call. -/
def ops12 : List (HloOp τ sig (Elt F)) :=
  [ nullary main_c_2 (constantI S_ 32 0#32),
    unary main_c_2 main_v25 (broadcastInDim S144 ![] bcast_S_S144 : (⟨S_, .i32⟩ : BufTy).Contents (Elt F) → (⟨S144, .i32⟩ : BufTy).Contents (Elt F)),
    binary main_v24 main_v25 main_v26 (cmpi .slt : (⟨S144, .i32⟩ : BufTy).Contents (Elt F) → (⟨S144, .i32⟩ : BufTy).Contents (Elt F) → (⟨S144, .i1⟩ : BufTy).Contents (Elt F)),
    nullary main_c_3 (constantI S_ 32 78#32),
    unary main_c_3 main_v27 (broadcastInDim S144 ![] bcast_S_S144 : (⟨S_, .i32⟩ : BufTy).Contents (Elt F) → (⟨S144, .i32⟩ : BufTy).Contents (Elt F)),
    binary main_v24 main_v27 main_v28 (addi : (⟨S144, .i32⟩ : BufTy).Contents (Elt F) → (⟨S144, .i32⟩ : BufTy).Contents (Elt F) → (⟨S144, .i32⟩ : BufTy).Contents (Elt F)),
    ternary main_v26 main_v28 main_v24 main_v29 (select : (⟨S144, .i1⟩ : BufTy).Contents (Elt F) → (⟨S144, .i32⟩ : BufTy).Contents (Elt F) → (⟨S144, .i32⟩ : BufTy).Contents (Elt F) → (⟨S144, .i32⟩ : BufTy).Contents (Elt F)),
    unary main_v29 main_v30 (broadcastInDim S144x1 ![0] bcast_S144_S144x1_0 : (⟨S144, .i32⟩ : BufTy).Contents (Elt F) → (⟨S144x1, .i32⟩ : BufTy).Contents (Elt F)),
    nullary main_c_4 (constantI S_ 32 1#32),
    unary main_c_4 main_v31 (broadcastInDim S144 ![] bcast_S_S144 : (⟨S_, .i32⟩ : BufTy).Contents (Elt F) → (⟨S144, .i32⟩ : BufTy).Contents (Elt F)),
    ternary main_v23 main_v30 main_v31 main_v32 ((fun x i u => Host.scatter scatter_S78_S144x1_S144_n_0_0_1 IntOp.addi x i u) : (⟨S78, .i32⟩ : BufTy).Contents (Elt F) → (⟨S144x1, .i32⟩ : BufTy).Contents (Elt F) → (⟨S144, .i32⟩ : BufTy).Contents (Elt F) → (⟨S78, .i32⟩ : BufTy).Contents (Elt F)) ]

/-- The buffers that stretch writes: each operation's result, in order. -/
abbrev W12 : List (Ref sig .tc) :=
  [main_c_2, main_v25, main_v26, main_c_3, main_v27, main_v28, main_v29, main_v30, main_c_4, main_v31, main_v32]

/-- The call of @cumsum_5 (buffer record `main_call6`), its body's operations in order, nested calls inlined. -/
def ops13 : List (HloOp τ sig (Elt F)) :=
  [ TRef.nullary main_call6.call0.c (constantI S_ 32 0#32),
    TRef.unary main_call6.call0.c main_call6.call0.v0 (broadcastInDim S_ ![] bcast_S_S_),
    TRef.binary (.of main_v32 : TRef sig ⟨S78, .i32⟩) main_call6.call0.v0 main_call6.call0.v1 (fun x v => Host.reduceWindow IntOp.addi ![78] ![1] ![77] ![0] x v reduceWindows_S78_S78_w78s1p77_0 h_S_) ]

/-- The buffers that stretch writes: each operation's result, in order. -/
abbrev W13 : List (Ref sig .tc) :=
  [main_call6_call0_c, main_call6_call0_v0, main_v33]

/-- @main's own operations up to the next call. -/
def ops14 : List (HloOp τ sig (Elt F)) :=
  [ nullary main_c_5 (constantI S_ 32 12#32) ]

/-- The buffers that stretch writes: each operation's result, in order. -/
abbrev W14 : List (Ref sig .tc) :=
  [main_c_5]

/-- The call of @floor_divide (buffer record `main_call7`), its body's operations in order, nested calls inlined. -/
def ops15 : List (HloOp τ sig (Elt F)) :=
  [ TRef.unary (.of main_c_5 : TRef sig ⟨S_, .i32⟩) main_call7.v0 (broadcastInDim S78 ![] bcast_S_S78),
    TRef.binary (.of main_v33 : TRef sig ⟨S78, .i32⟩) main_call7.v0 main_call7.v1 Host.divsi,
    TRef.unary (.of main_v33 : TRef sig ⟨S78, .i32⟩) main_call7.v2 signi,
    TRef.unary (.of main_c_5 : TRef sig ⟨S_, .i32⟩) main_call7.v3 signi,
    TRef.unary main_call7.v3 main_call7.v4 (broadcastInDim S78 ![] bcast_S_S78),
    TRef.binary main_call7.v2 main_call7.v4 main_call7.v5 (cmpi .ne),
    TRef.unary (.of main_c_5 : TRef sig ⟨S_, .i32⟩) main_call7.v6 (broadcastInDim S78 ![] bcast_S_S78),
    TRef.binary (.of main_v33 : TRef sig ⟨S78, .i32⟩) main_call7.v6 main_call7.v7 Host.remsi,
    TRef.nullary main_call7.c (constantI S_ 32 0#32),
    TRef.unary main_call7.c main_call7.v8 (broadcastInDim S78 ![] bcast_S_S78),
    TRef.binary main_call7.v7 main_call7.v8 main_call7.v9 (cmpi .ne),
    TRef.binary main_call7.v5 main_call7.v9 main_call7.v10 andi,
    TRef.nullary main_call7.c_0 (constantI S_ 32 1#32),
    TRef.unary main_call7.c_0 main_call7.v11 (broadcastInDim S78 ![] bcast_S_S78),
    TRef.binary main_call7.v1 main_call7.v11 main_call7.v12 subi,
    TRef.ternary main_call7.v10 main_call7.v12 main_call7.v1 main_call7.call0.v0 select ]

/-- The buffers that stretch writes: each operation's result, in order. -/
abbrev W15 : List (Ref sig .tc) :=
  [main_call7_v0, main_call7_v1, main_call7_v2, main_call7_v3, main_call7_v4, main_call7_v5, main_call7_v6, main_call7_v7, main_call7_c, main_call7_v8, main_call7_v9, main_call7_v10, main_call7_c_0, main_call7_v11, main_call7_v12, main_v34]

/-- @main's own operations up to the next call. -/
def ops16 : List (HloOp τ sig (Elt F)) :=
  [ nullary main_c_6 (constantI S_ 32 12#32) ]

/-- The buffers that stretch writes: each operation's result, in order. -/
abbrev W16 : List (Ref sig .tc) :=
  [main_c_6]

/-- The call of @remainder (buffer record `main_call8`), its body's operations in order, nested calls inlined. -/
def ops17 : List (HloOp τ sig (Elt F)) :=
  [ TRef.unary (.of main_c_6 : TRef sig ⟨S_, .i32⟩) main_call8.v0 id,
    TRef.nullary main_call8.c (constantI S_ 32 0#32),
    TRef.binary main_call8.v0 main_call8.c main_call8.v1 (cmpi .eq),
    TRef.nullary main_call8.c_0 (constantI S_ 32 1#32),
    TRef.ternary main_call8.v1 main_call8.c_0 main_call8.v0 main_call8.call0.v0 select,
    TRef.unary main_call8.call0.v0 main_call8.v3 (broadcastInDim S78 ![] bcast_S_S78),
    TRef.binary (.of main_v34 : TRef sig ⟨S78, .i32⟩) main_call8.v3 main_call8.v4 Host.remsi,
    TRef.nullary main_call8.c_1 (constantI S_ 32 0#32),
    TRef.unary main_call8.c_1 main_call8.v5 (broadcastInDim S78 ![] bcast_S_S78),
    TRef.binary main_call8.v4 main_call8.v5 main_call8.v6 (cmpi .ne),
    TRef.nullary main_call8.c_2 (constantI S_ 32 0#32),
    TRef.unary main_call8.c_2 main_call8.v7 (broadcastInDim S78 ![] bcast_S_S78),
    TRef.binary main_call8.v4 main_call8.v7 main_call8.v8 (cmpi .slt),
    TRef.nullary main_call8.c_3 (constantI S_ 32 0#32),
    TRef.binary main_call8.call0.v0 main_call8.c_3 main_call8.v9 (cmpi .slt),
    TRef.unary main_call8.v9 main_call8.v10 (broadcastInDim S78 ![] bcast_S_S78),
    TRef.binary main_call8.v8 main_call8.v10 main_call8.v11 (cmpi .ne),
    TRef.binary main_call8.v11 main_call8.v6 main_call8.v12 andi,
    TRef.unary main_call8.call0.v0 main_call8.v13 (broadcastInDim S78 ![] bcast_S_S78),
    TRef.binary main_call8.v4 main_call8.v13 main_call8.v14 addi,
    TRef.ternary main_call8.v12 main_call8.v14 main_call8.v4 main_call8.v15 select ]

/-- The buffers that stretch writes: each operation's result, in order. -/
abbrev W17 : List (Ref sig .tc) :=
  [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v35]

/-- @main's own operations up to the next call. -/
def ops18 : List (HloOp τ sig (Elt F)) :=
  [ nullary main_c_7 (constantI S_ 32 1#32) ]

/-- The buffers that stretch writes: each operation's result, in order. -/
abbrev W18 : List (Ref sig .tc) :=
  [main_c_7]

/-- The call of @floor_divide (buffer record `main_call9`), its body's operations in order, nested calls inlined. -/
def ops19 : List (HloOp τ sig (Elt F)) :=
  [ TRef.unary (.of main_c_7 : TRef sig ⟨S_, .i32⟩) main_call9.v0 (broadcastInDim S78 ![] bcast_S_S78),
    TRef.binary (.of main_v33 : TRef sig ⟨S78, .i32⟩) main_call9.v0 main_call9.v1 Host.divsi,
    TRef.unary (.of main_v33 : TRef sig ⟨S78, .i32⟩) main_call9.v2 signi,
    TRef.unary (.of main_c_7 : TRef sig ⟨S_, .i32⟩) main_call9.v3 signi,
    TRef.unary main_call9.v3 main_call9.v4 (broadcastInDim S78 ![] bcast_S_S78),
    TRef.binary main_call9.v2 main_call9.v4 main_call9.v5 (cmpi .ne),
    TRef.unary (.of main_c_7 : TRef sig ⟨S_, .i32⟩) main_call9.v6 (broadcastInDim S78 ![] bcast_S_S78),
    TRef.binary (.of main_v33 : TRef sig ⟨S78, .i32⟩) main_call9.v6 main_call9.v7 Host.remsi,
    TRef.nullary main_call9.c (constantI S_ 32 0#32),
    TRef.unary main_call9.c main_call9.v8 (broadcastInDim S78 ![] bcast_S_S78),
    TRef.binary main_call9.v7 main_call9.v8 main_call9.v9 (cmpi .ne),
    TRef.binary main_call9.v5 main_call9.v9 main_call9.v10 andi,
    TRef.nullary main_call9.c_0 (constantI S_ 32 1#32),
    TRef.unary main_call9.c_0 main_call9.v11 (broadcastInDim S78 ![] bcast_S_S78),
    TRef.binary main_call9.v1 main_call9.v11 main_call9.v12 subi,
    TRef.ternary main_call9.v10 main_call9.v12 main_call9.v1 main_call9.call0.v0 select ]

/-- The buffers that stretch writes: each operation's result, in order. -/
abbrev W19 : List (Ref sig .tc) :=
  [main_call9_v0, main_call9_v1, main_call9_v2, main_call9_v3, main_call9_v4, main_call9_v5, main_call9_v6, main_call9_v7, main_call9_c, main_call9_v8, main_call9_v9, main_call9_v10, main_call9_c_0, main_call9_v11, main_call9_v12, main_v36]

/-- @main's own operations up to the next call. -/
def ops20 : List (HloOp τ sig (Elt F)) :=
  [ nullary main_c_8 (constantI S_ 32 12#32) ]

/-- The buffers that stretch writes: each operation's result, in order. -/
abbrev W20 : List (Ref sig .tc) :=
  [main_c_8]

/-- The call of @remainder (buffer record `main_call10`), its body's operations in order, nested calls inlined. -/
def ops21 : List (HloOp τ sig (Elt F)) :=
  [ TRef.unary (.of main_c_8 : TRef sig ⟨S_, .i32⟩) main_call10.v0 id,
    TRef.nullary main_call10.c (constantI S_ 32 0#32),
    TRef.binary main_call10.v0 main_call10.c main_call10.v1 (cmpi .eq),
    TRef.nullary main_call10.c_0 (constantI S_ 32 1#32),
    TRef.ternary main_call10.v1 main_call10.c_0 main_call10.v0 main_call10.call0.v0 select,
    TRef.unary main_call10.call0.v0 main_call10.v3 (broadcastInDim S78 ![] bcast_S_S78),
    TRef.binary (.of main_v36 : TRef sig ⟨S78, .i32⟩) main_call10.v3 main_call10.v4 Host.remsi,
    TRef.nullary main_call10.c_1 (constantI S_ 32 0#32),
    TRef.unary main_call10.c_1 main_call10.v5 (broadcastInDim S78 ![] bcast_S_S78),
    TRef.binary main_call10.v4 main_call10.v5 main_call10.v6 (cmpi .ne),
    TRef.nullary main_call10.c_2 (constantI S_ 32 0#32),
    TRef.unary main_call10.c_2 main_call10.v7 (broadcastInDim S78 ![] bcast_S_S78),
    TRef.binary main_call10.v4 main_call10.v7 main_call10.v8 (cmpi .slt),
    TRef.nullary main_call10.c_3 (constantI S_ 32 0#32),
    TRef.binary main_call10.call0.v0 main_call10.c_3 main_call10.v9 (cmpi .slt),
    TRef.unary main_call10.v9 main_call10.v10 (broadcastInDim S78 ![] bcast_S_S78),
    TRef.binary main_call10.v8 main_call10.v10 main_call10.v11 (cmpi .ne),
    TRef.binary main_call10.v11 main_call10.v6 main_call10.v12 andi,
    TRef.unary main_call10.call0.v0 main_call10.v13 (broadcastInDim S78 ![] bcast_S_S78),
    TRef.binary main_call10.v4 main_call10.v13 main_call10.v14 addi,
    TRef.ternary main_call10.v12 main_call10.v14 main_call10.v4 main_call10.v15 select ]

/-- The buffers that stretch writes: each operation's result, in order. -/
abbrev W21 : List (Ref sig .tc) :=
  [main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v37]

/-- @main's own operations up to the next call. -/
def ops22 : List (HloOp τ sig (Elt F)) :=
  [ nullary main_cst_9 (constant S_ .f32 0x00000000#32),
    unary main_cst_9 main_v38 (broadcastInDim S262144x12x12 ![] bcast_S_S262144x12x12 : (⟨S_, .f32⟩ : BufTy).Contents (Elt F) → (⟨S262144x12x12, .f32⟩ : BufTy).Contents (Elt F)),
    nullary main_c_10 (constantI S_ 32 0#32),
    unary main_c_10 main_v39 (broadcastInDim S78 ![] bcast_S_S78 : (⟨S_, .i32⟩ : BufTy).Contents (Elt F) → (⟨S78, .i32⟩ : BufTy).Contents (Elt F)),
    binary main_v35 main_v39 main_v40 (cmpi .slt : (⟨S78, .i32⟩ : BufTy).Contents (Elt F) → (⟨S78, .i32⟩ : BufTy).Contents (Elt F) → (⟨S78, .i1⟩ : BufTy).Contents (Elt F)),
    nullary main_c_11 (constantI S_ 32 12#32),
    unary main_c_11 main_v41 (broadcastInDim S78 ![] bcast_S_S78 : (⟨S_, .i32⟩ : BufTy).Contents (Elt F) → (⟨S78, .i32⟩ : BufTy).Contents (Elt F)),
    binary main_v35 main_v41 main_v42 (addi : (⟨S78, .i32⟩ : BufTy).Contents (Elt F) → (⟨S78, .i32⟩ : BufTy).Contents (Elt F) → (⟨S78, .i32⟩ : BufTy).Contents (Elt F)),
    ternary main_v40 main_v42 main_v35 main_v43 (select : (⟨S78, .i1⟩ : BufTy).Contents (Elt F) → (⟨S78, .i32⟩ : BufTy).Contents (Elt F) → (⟨S78, .i32⟩ : BufTy).Contents (Elt F) → (⟨S78, .i32⟩ : BufTy).Contents (Elt F)),
    nullary main_c_12 (constantI S_ 32 0#32),
    unary main_c_12 main_v44 (broadcastInDim S78 ![] bcast_S_S78 : (⟨S_, .i32⟩ : BufTy).Contents (Elt F) → (⟨S78, .i32⟩ : BufTy).Contents (Elt F)),
    binary main_v37 main_v44 main_v45 (cmpi .slt : (⟨S78, .i32⟩ : BufTy).Contents (Elt F) → (⟨S78, .i32⟩ : BufTy).Contents (Elt F) → (⟨S78, .i1⟩ : BufTy).Contents (Elt F)),
    nullary main_c_13 (constantI S_ 32 12#32),
    unary main_c_13 main_v46 (broadcastInDim S78 ![] bcast_S_S78 : (⟨S_, .i32⟩ : BufTy).Contents (Elt F) → (⟨S78, .i32⟩ : BufTy).Contents (Elt F)),
    binary main_v37 main_v46 main_v47 (addi : (⟨S78, .i32⟩ : BufTy).Contents (Elt F) → (⟨S78, .i32⟩ : BufTy).Contents (Elt F) → (⟨S78, .i32⟩ : BufTy).Contents (Elt F)),
    ternary main_v45 main_v47 main_v37 main_v48 (select : (⟨S78, .i1⟩ : BufTy).Contents (Elt F) → (⟨S78, .i32⟩ : BufTy).Contents (Elt F) → (⟨S78, .i32⟩ : BufTy).Contents (Elt F) → (⟨S78, .i32⟩ : BufTy).Contents (Elt F)),
    unary main_v43 main_v49 (broadcastInDim S78x1 ![0] bcast_S78_S78x1_0 : (⟨S78, .i32⟩ : BufTy).Contents (Elt F) → (⟨S78x1, .i32⟩ : BufTy).Contents (Elt F)),
    unary main_v48 main_v50 (broadcastInDim S78x1 ![0] bcast_S78_S78x1_0 : (⟨S78, .i32⟩ : BufTy).Contents (Elt F) → (⟨S78x1, .i32⟩ : BufTy).Contents (Elt F)),
    binary main_v49 main_v50 main_v51 ((fun a b => concatenate S78x2 1 [⟨S78x1, a⟩, ⟨S78x1, b⟩] concatenates_S78x1_S78x1_S78x2_d1) : (⟨S78x1, .i32⟩ : BufTy).Contents (Elt F) → (⟨S78x1, .i32⟩ : BufTy).Contents (Elt F) → (⟨S78x2, .i32⟩ : BufTy).Contents (Elt F)),
    ternary main_v38 main_v51 main_v17 main_v52 ((fun x i u => Host.scatter scatter_S262144x12x12_S78x2_S262144x78_0_12_12_1 (fun _ b => b) x i u) : (⟨S262144x12x12, .f32⟩ : BufTy).Contents (Elt F) → (⟨S78x2, .i32⟩ : BufTy).Contents (Elt F) → (⟨S262144x78, .f32⟩ : BufTy).Contents (Elt F) → (⟨S262144x12x12, .f32⟩ : BufTy).Contents (Elt F)),
    binary main_v52 main_v52 main_v53 ((fun l r => Host.dotGeneral dot_S262144x12x12_S262144x12x12_S262144x12x12_2_2_1_1_0_0 none l r) : (⟨S262144x12x12, .f32⟩ : BufTy).Contents (Elt F) → (⟨S262144x12x12, .f32⟩ : BufTy).Contents (Elt F) → (⟨S262144x12x12, .f32⟩ : BufTy).Contents (Elt F)) ]

/-- The buffers that stretch writes: each operation's result, in order. -/
abbrev W22 : List (Ref sig .tc) :=
  [main_cst_9, main_v38, main_c_10, main_v39, main_v40, main_c_11, main_v41, main_v42, main_v43, main_c_12, main_v44, main_v45, main_c_13, main_v46, main_v47, main_v48, main_v49, main_v50, main_v51, main_v52, main_v53]

/-- @main's 197 operations, in program order. -/
abbrev ops : List (HloOp τ sig (Elt F)) :=
  ops00 ++ (ops01 ++ (ops02 ++ (ops03 ++ (ops04 ++ (ops05 ++ (ops06 ++ (ops07 ++ (ops08 ++ (ops09 ++ (ops10 ++ (ops11 ++ (ops12 ++ (ops13 ++ (ops14 ++ (ops15 ++ (ops16 ++ (ops17 ++ (ops18 ++ (ops19 ++ (ops20 ++ (ops21 ++ (ops22))))))))))))))))))))))

/-- Every buffer @main writes. -/
abbrev W : List (Ref sig .tc) :=
  W00 ++ (W01 ++ (W02 ++ (W03 ++ (W04 ++ (W05 ++ (W06 ++ (W07 ++ (W08 ++ (W09 ++ (W10 ++ (W11 ++ (W12 ++ (W13 ++ (W14 ++ (W15 ++ (W16 ++ (W17 ++ (W18 ++ (W19 ++ (W20 ++ (W21 ++ (W22))))))))))))))))))))))

/-- @main is that straight line: the two windows of the printed @main run one after the other, each function's
    definition unfolded at its call and each record at its fields; both sides are then the same chain of steps, by
    computation of the sequencing. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Per stretch: the operations touch TensorCore buffers only, determine their results, and write within the list -/

/-- A result buffer that is a member of a list of references lies in the list's set of device buffers. -/
theorem writes_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

theorem ops00_sub : (ops00 : List (HloOp τ sig (Elt F))).Forall fun op => op.bufs ⊆ tcRefs τ sig :=
  ⟨unary_bufs_sub .., binary_bufs_sub .., unary_bufs_sub .., unary_bufs_sub .., binary_bufs_sub ..⟩
theorem ops00_fresh : (ops00 : List (HloOp τ sig (Elt F))).Forall fun op => op.fresh = ∅ :=
  ⟨rfl, rfl, rfl, rfl, rfl⟩
theorem ops00_writes : (ops00 : List (HloOp τ sig (Elt F))).Forall fun op => op.writes ⊆ (W00.map (Proc.devRef (τ := τ) .tc)).toFinset :=
  ⟨writes_mem (y := main_v0) (by decide), writes_mem (y := main_v1) (by decide), writes_mem (y := main_v2) (by decide), writes_mem (y := main_v3) (by decide), writes_mem (y := main_v4) (by decide)⟩
/-- A buffer that stretch does not write keeps its contents across it. -/
theorem ops00_frame (V : Valuation τ sig (Elt F)) {r : Ref sig .tc} (h : r ∉ W00) :
    after ops00 V (no_index (Proc.devRef .tc r)) = V (Proc.devRef .tc r) :=
  after_of_writes_sub ops00 V ops00_writes h

theorem ops01_sub : (ops01 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem ops01_fresh : (ops01 : List (HloOp τ sig (Elt F))).Forall fun op => op.fresh = ∅ :=
  ⟨rfl, rfl, rfl, rfl, rfl, rfl, rfl, rfl, rfl, rfl, rfl, rfl, rfl, rfl, rfl⟩
theorem ops01_writes : (ops01 : List (HloOp τ sig (Elt F))).Forall fun op => op.writes ⊆ (W01.map (Proc.devRef (τ := τ) .tc)).toFinset :=
  ⟨writes_mem (y := main_call0_cst) (by decide), writes_mem (y := main_call0_v0) (by decide), writes_mem (y := main_call0_v1) (by decide), writes_mem (y := main_call0_cst_0) (by decide), writes_mem (y := main_call0_v2) (by decide), writes_mem (y := main_call0_v3) (by decide), writes_mem (y := main_call0_cst_1) (by decide), writes_mem (y := main_call0_call0_v0) (by decide), writes_mem (y := main_call0_call0_v1) (by decide), writes_mem (y := main_call0_v4) (by decide), writes_mem (y := main_call0_v5) (by decide), writes_mem (y := main_call0_cst_2) (by decide), writes_mem (y := main_call0_v6) (by decide), writes_mem (y := main_call0_v7) (by decide), writes_mem (y := main_v5) (by decide)⟩
/-- A buffer that stretch does not write keeps its contents across it. -/
theorem ops01_frame (V : Valuation τ sig (Elt F)) {r : Ref sig .tc} (h : r ∉ W01) :
    after ops01 V (no_index (Proc.devRef .tc r)) = V (Proc.devRef .tc r) :=
  after_of_writes_sub ops01 V ops01_writes h

theorem ops02_sub : (ops02 : List (HloOp τ sig (Elt F))).Forall fun op => op.bufs ⊆ tcRefs τ sig :=
  ⟨unary_bufs_sub .., binary_bufs_sub .., unary_bufs_sub .., unary_bufs_sub .., binary_bufs_sub ..⟩
theorem ops02_fresh : (ops02 : List (HloOp τ sig (Elt F))).Forall fun op => op.fresh = ∅ :=
  ⟨rfl, rfl, rfl, rfl, rfl⟩
theorem ops02_writes : (ops02 : List (HloOp τ sig (Elt F))).Forall fun op => op.writes ⊆ (W02.map (Proc.devRef (τ := τ) .tc)).toFinset :=
  ⟨writes_mem (y := main_v6) (by decide), writes_mem (y := main_v7) (by decide), writes_mem (y := main_v8) (by decide), writes_mem (y := main_v9) (by decide), writes_mem (y := main_v10) (by decide)⟩
/-- A buffer that stretch does not write keeps its contents across it. -/
theorem ops02_frame (V : Valuation τ sig (Elt F)) {r : Ref sig .tc} (h : r ∉ W02) :
    after ops02 V (no_index (Proc.devRef .tc r)) = V (Proc.devRef .tc r) :=
  after_of_writes_sub ops02 V ops02_writes h

theorem ops03_sub : (ops03 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem ops03_fresh : (ops03 : List (HloOp τ sig (Elt F))).Forall fun op => op.fresh = ∅ :=
  ⟨rfl, rfl, rfl, rfl, rfl, rfl, rfl, rfl, rfl, rfl, rfl, rfl, rfl, rfl, rfl⟩
theorem ops03_writes : (ops03 : List (HloOp τ sig (Elt F))).Forall fun op => op.writes ⊆ (W03.map (Proc.devRef (τ := τ) .tc)).toFinset :=
  ⟨writes_mem (y := main_call1_cst) (by decide), writes_mem (y := main_call1_v0) (by decide), writes_mem (y := main_call1_v1) (by decide), writes_mem (y := main_call1_cst_0) (by decide), writes_mem (y := main_call1_v2) (by decide), writes_mem (y := main_call1_v3) (by decide), writes_mem (y := main_call1_cst_1) (by decide), writes_mem (y := main_call1_call0_v0) (by decide), writes_mem (y := main_call1_call0_v1) (by decide), writes_mem (y := main_call1_v4) (by decide), writes_mem (y := main_call1_v5) (by decide), writes_mem (y := main_call1_cst_2) (by decide), writes_mem (y := main_call1_v6) (by decide), writes_mem (y := main_call1_v7) (by decide), writes_mem (y := main_v11) (by decide)⟩
/-- A buffer that stretch does not write keeps its contents across it. -/
theorem ops03_frame (V : Valuation τ sig (Elt F)) {r : Ref sig .tc} (h : r ∉ W03) :
    after ops03 V (no_index (Proc.devRef .tc r)) = V (Proc.devRef .tc r) :=
  after_of_writes_sub ops03 V ops03_writes h

theorem ops04_sub : (ops04 : List (HloOp τ sig (Elt F))).Forall fun op => op.bufs ⊆ tcRefs τ sig :=
  ⟨unary_bufs_sub .., binary_bufs_sub .., unary_bufs_sub .., unary_bufs_sub .., binary_bufs_sub ..⟩
theorem ops04_fresh : (ops04 : List (HloOp τ sig (Elt F))).Forall fun op => op.fresh = ∅ :=
  ⟨rfl, rfl, rfl, rfl, rfl⟩
theorem ops04_writes : (ops04 : List (HloOp τ sig (Elt F))).Forall fun op => op.writes ⊆ (W04.map (Proc.devRef (τ := τ) .tc)).toFinset :=
  ⟨writes_mem (y := main_v12) (by decide), writes_mem (y := main_v13) (by decide), writes_mem (y := main_v14) (by decide), writes_mem (y := main_v15) (by decide), writes_mem (y := main_v16) (by decide)⟩
/-- A buffer that stretch does not write keeps its contents across it. -/
theorem ops04_frame (V : Valuation τ sig (Elt F)) {r : Ref sig .tc} (h : r ∉ W04) :
    after ops04 V (no_index (Proc.devRef .tc r)) = V (Proc.devRef .tc r) :=
  after_of_writes_sub ops04 V ops04_writes h

theorem ops05_sub : (ops05 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem ops05_fresh : (ops05 : List (HloOp τ sig (Elt F))).Forall fun op => op.fresh = ∅ :=
  ⟨rfl, rfl, rfl, rfl, rfl, rfl, rfl, rfl, rfl, rfl, rfl, rfl, rfl, rfl⟩
theorem ops05_writes : (ops05 : List (HloOp τ sig (Elt F))).Forall fun op => op.writes ⊆ (W05.map (Proc.devRef (τ := τ) .tc)).toFinset :=
  ⟨writes_mem (y := main_call2_cst) (by decide), writes_mem (y := main_call2_v0) (by decide), writes_mem (y := main_call2_v1) (by decide), writes_mem (y := main_call2_v2) (by decide), writes_mem (y := main_call2_v3) (by decide), writes_mem (y := main_call2_v4) (by decide), writes_mem (y := main_call2_v5) (by decide), writes_mem (y := main_call2_v6) (by decide), writes_mem (y := main_call2_v7) (by decide), writes_mem (y := main_call2_v8) (by decide), writes_mem (y := main_call2_v9) (by decide), writes_mem (y := main_call2_v10) (by decide), writes_mem (y := main_call2_v11) (by decide), writes_mem (y := main_v17) (by decide)⟩
/-- A buffer that stretch does not write keeps its contents across it. -/
theorem ops05_frame (V : Valuation τ sig (Elt F)) {r : Ref sig .tc} (h : r ∉ W05) :
    after ops05 V (no_index (Proc.devRef .tc r)) = V (Proc.devRef .tc r) :=
  after_of_writes_sub ops05 V ops05_writes h

theorem ops06_sub : (ops06 : List (HloOp τ sig (Elt F))).Forall fun op => op.bufs ⊆ tcRefs τ sig :=
  ⟨nullary_bufs_sub .., unary_bufs_sub ..⟩
theorem ops06_fresh : (ops06 : List (HloOp τ sig (Elt F))).Forall fun op => op.fresh = ∅ :=
  ⟨rfl, rfl⟩
theorem ops06_writes : (ops06 : List (HloOp τ sig (Elt F))).Forall fun op => op.writes ⊆ (W06.map (Proc.devRef (τ := τ) .tc)).toFinset :=
  ⟨writes_mem (y := main_cst) (by decide), writes_mem (y := main_v18) (by decide)⟩
/-- A buffer that stretch does not write keeps its contents across it. -/
theorem ops06_frame (V : Valuation τ sig (Elt F)) {r : Ref sig .tc} (h : r ∉ W06) :
    after ops06 V (no_index (Proc.devRef .tc r)) = V (Proc.devRef .tc r) :=
  after_of_writes_sub ops06 V ops06_writes h

theorem ops07_sub : (ops07 : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., ternary_bufs_sub ..⟩
theorem ops07_fresh : (ops07 : List (HloOp τ sig (Elt F))).Forall fun op => op.fresh = ∅ :=
  ⟨rfl, rfl, rfl, rfl, rfl, rfl, rfl, rfl, rfl⟩
theorem ops07_writes : (ops07 : List (HloOp τ sig (Elt F))).Forall fun op => op.writes ⊆ (W07.map (Proc.devRef (τ := τ) .tc)).toFinset :=
  ⟨writes_mem (y := main_call3_v0) (by decide), writes_mem (y := main_call3_c) (by decide), writes_mem (y := main_call3_v1) (by decide), writes_mem (y := main_call3_v2) (by decide), writes_mem (y := main_call3_v3) (by decide), writes_mem (y := main_call3_v4) (by decide), writes_mem (y := main_call3_cst) (by decide), writes_mem (y := main_call3_v5) (by decide), writes_mem (y := main_v19) (by decide)⟩
/-- A buffer that stretch does not write keeps its contents across it. -/
theorem ops07_frame (V : Valuation τ sig (Elt F)) {r : Ref sig .tc} (h : r ∉ W07) :
    after ops07 V (no_index (Proc.devRef .tc r)) = V (Proc.devRef .tc r) :=
  after_of_writes_sub ops07 V ops07_writes h

theorem ops08_sub : (ops08 : List (HloOp τ sig (Elt F))).Forall fun op => op.bufs ⊆ tcRefs τ sig :=
  ⟨nullary_bufs_sub .., unary_bufs_sub .., binary_bufs_sub ..⟩
theorem ops08_fresh : (ops08 : List (HloOp τ sig (Elt F))).Forall fun op => op.fresh = ∅ :=
  ⟨rfl, rfl, rfl⟩
theorem ops08_writes : (ops08 : List (HloOp τ sig (Elt F))).Forall fun op => op.writes ⊆ (W08.map (Proc.devRef (τ := τ) .tc)).toFinset :=
  ⟨writes_mem (y := main_cst_0) (by decide), writes_mem (y := main_v20) (by decide), writes_mem (y := main_v21) (by decide)⟩
/-- A buffer that stretch does not write keeps its contents across it. -/
theorem ops08_frame (V : Valuation τ sig (Elt F)) {r : Ref sig .tc} (h : r ∉ W08) :
    after ops08 V (no_index (Proc.devRef .tc r)) = V (Proc.devRef .tc r) :=
  after_of_writes_sub ops08 V ops08_writes h

theorem ops09_sub : (ops09 : List (HloOp τ sig (Elt F))).Forall fun op => op.bufs ⊆ tcRefs τ sig :=
  ⟨reshape_bufs_sub .., unary_bufs_sub .., nullary_bufs_sub .., unary_bufs_sub .., binary_bufs_sub ..⟩
theorem ops09_fresh : (ops09 : List (HloOp τ sig (Elt F))).Forall fun op => op.fresh = ∅ :=
  ⟨rfl, rfl, rfl, rfl, rfl⟩
theorem ops09_writes : (ops09 : List (HloOp τ sig (Elt F))).Forall fun op => op.writes ⊆ (W09.map (Proc.devRef (τ := τ) .tc)).toFinset :=
  ⟨writes_mem (y := main_call4_v0) (by decide), writes_mem (y := main_call4_v1) (by decide), writes_mem (y := main_call4_call0_c) (by decide), writes_mem (y := main_call4_call0_v0) (by decide), writes_mem (y := main_v22) (by decide)⟩
/-- A buffer that stretch does not write keeps its contents across it. -/
theorem ops09_frame (V : Valuation τ sig (Elt F)) {r : Ref sig .tc} (h : r ∉ W09) :
    after ops09 V (no_index (Proc.devRef .tc r)) = V (Proc.devRef .tc r) :=
  after_of_writes_sub ops09 V ops09_writes h

theorem ops10_sub : (ops10 : List (HloOp τ sig (Elt F))).Forall fun op => op.bufs ⊆ tcRefs τ sig :=
  ⟨nullary_bufs_sub .., unary_bufs_sub .., nullary_bufs_sub ..⟩
theorem ops10_fresh : (ops10 : List (HloOp τ sig (Elt F))).Forall fun op => op.fresh = ∅ :=
  ⟨rfl, rfl, rfl⟩
theorem ops10_writes : (ops10 : List (HloOp τ sig (Elt F))).Forall fun op => op.writes ⊆ (W10.map (Proc.devRef (τ := τ) .tc)).toFinset :=
  ⟨writes_mem (y := main_c) (by decide), writes_mem (y := main_v23) (by decide), writes_mem (y := main_c_1) (by decide)⟩
/-- A buffer that stretch does not write keeps its contents across it. -/
theorem ops10_frame (V : Valuation τ sig (Elt F)) {r : Ref sig .tc} (h : r ∉ W10) :
    after ops10 V (no_index (Proc.devRef .tc r)) = V (Proc.devRef .tc r) :=
  after_of_writes_sub ops10 V ops10_writes h

theorem ops11_sub : (ops11 : List (HloOp τ sig (Elt F))).Forall fun op => op.bufs ⊆ tcRefs τ sig :=
  ⟨unary_bufs_sub .., unary_bufs_sub .., binary_bufs_sub ..⟩
theorem ops11_fresh : (ops11 : List (HloOp τ sig (Elt F))).Forall fun op => op.fresh = ∅ :=
  ⟨rfl, rfl, rfl⟩
theorem ops11_writes : (ops11 : List (HloOp τ sig (Elt F))).Forall fun op => op.writes ⊆ (W11.map (Proc.devRef (τ := τ) .tc)).toFinset :=
  ⟨writes_mem (y := main_call5_v0) (by decide), writes_mem (y := main_call5_v1) (by decide), writes_mem (y := main_v24) (by decide)⟩
/-- A buffer that stretch does not write keeps its contents across it. -/
theorem ops11_frame (V : Valuation τ sig (Elt F)) {r : Ref sig .tc} (h : r ∉ W11) :
    after ops11 V (no_index (Proc.devRef .tc r)) = V (Proc.devRef .tc r) :=
  after_of_writes_sub ops11 V ops11_writes h

theorem ops12_sub : (ops12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem ops12_fresh : (ops12 : List (HloOp τ sig (Elt F))).Forall fun op => op.fresh = ∅ :=
  ⟨rfl, rfl, rfl, rfl, rfl, rfl, rfl, rfl, rfl, rfl, rfl⟩
theorem ops12_writes : (ops12 : List (HloOp τ sig (Elt F))).Forall fun op => op.writes ⊆ (W12.map (Proc.devRef (τ := τ) .tc)).toFinset :=
  ⟨writes_mem (y := main_c_2) (by decide), writes_mem (y := main_v25) (by decide), writes_mem (y := main_v26) (by decide), writes_mem (y := main_c_3) (by decide), writes_mem (y := main_v27) (by decide), writes_mem (y := main_v28) (by decide), writes_mem (y := main_v29) (by decide), writes_mem (y := main_v30) (by decide), writes_mem (y := main_c_4) (by decide), writes_mem (y := main_v31) (by decide), writes_mem (y := main_v32) (by decide)⟩
/-- A buffer that stretch does not write keeps its contents across it. -/
theorem ops12_frame (V : Valuation τ sig (Elt F)) {r : Ref sig .tc} (h : r ∉ W12) :
    after ops12 V (no_index (Proc.devRef .tc r)) = V (Proc.devRef .tc r) :=
  after_of_writes_sub ops12 V ops12_writes h

theorem ops13_sub : (ops13 : List (HloOp τ sig (Elt F))).Forall fun op => op.bufs ⊆ tcRefs τ sig :=
  ⟨nullary_bufs_sub .., unary_bufs_sub .., binary_bufs_sub ..⟩
theorem ops13_fresh : (ops13 : List (HloOp τ sig (Elt F))).Forall fun op => op.fresh = ∅ :=
  ⟨rfl, rfl, rfl⟩
theorem ops13_writes : (ops13 : List (HloOp τ sig (Elt F))).Forall fun op => op.writes ⊆ (W13.map (Proc.devRef (τ := τ) .tc)).toFinset :=
  ⟨writes_mem (y := main_call6_call0_c) (by decide), writes_mem (y := main_call6_call0_v0) (by decide), writes_mem (y := main_v33) (by decide)⟩
/-- A buffer that stretch does not write keeps its contents across it. -/
theorem ops13_frame (V : Valuation τ sig (Elt F)) {r : Ref sig .tc} (h : r ∉ W13) :
    after ops13 V (no_index (Proc.devRef .tc r)) = V (Proc.devRef .tc r) :=
  after_of_writes_sub ops13 V ops13_writes h

theorem ops14_sub : (ops14 : List (HloOp τ sig (Elt F))).Forall fun op => op.bufs ⊆ tcRefs τ sig :=
  nullary_bufs_sub ..
theorem ops14_fresh : (ops14 : List (HloOp τ sig (Elt F))).Forall fun op => op.fresh = ∅ :=
  rfl
theorem ops14_writes : (ops14 : List (HloOp τ sig (Elt F))).Forall fun op => op.writes ⊆ (W14.map (Proc.devRef (τ := τ) .tc)).toFinset :=
  writes_mem (y := main_c_5) (by decide)
/-- A buffer that stretch does not write keeps its contents across it. -/
theorem ops14_frame (V : Valuation τ sig (Elt F)) {r : Ref sig .tc} (h : r ∉ W14) :
    after ops14 V (no_index (Proc.devRef .tc r)) = V (Proc.devRef .tc r) :=
  after_of_writes_sub ops14 V ops14_writes h

theorem ops15_sub : (ops15 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops15_fresh : (ops15 : List (HloOp τ sig (Elt F))).Forall fun op => op.fresh = ∅ :=
  ⟨rfl, rfl, rfl, rfl, rfl, rfl, rfl, rfl, rfl, rfl, rfl, rfl, rfl, rfl, rfl, rfl⟩
theorem ops15_writes : (ops15 : List (HloOp τ sig (Elt F))).Forall fun op => op.writes ⊆ (W15.map (Proc.devRef (τ := τ) .tc)).toFinset :=
  ⟨writes_mem (y := main_call7_v0) (by decide), writes_mem (y := main_call7_v1) (by decide), writes_mem (y := main_call7_v2) (by decide), writes_mem (y := main_call7_v3) (by decide), writes_mem (y := main_call7_v4) (by decide), writes_mem (y := main_call7_v5) (by decide), writes_mem (y := main_call7_v6) (by decide), writes_mem (y := main_call7_v7) (by decide), writes_mem (y := main_call7_c) (by decide), writes_mem (y := main_call7_v8) (by decide), writes_mem (y := main_call7_v9) (by decide), writes_mem (y := main_call7_v10) (by decide), writes_mem (y := main_call7_c_0) (by decide), writes_mem (y := main_call7_v11) (by decide), writes_mem (y := main_call7_v12) (by decide), writes_mem (y := main_v34) (by decide)⟩
/-- A buffer that stretch does not write keeps its contents across it. -/
theorem ops15_frame (V : Valuation τ sig (Elt F)) {r : Ref sig .tc} (h : r ∉ W15) :
    after ops15 V (no_index (Proc.devRef .tc r)) = V (Proc.devRef .tc r) :=
  after_of_writes_sub ops15 V ops15_writes h

theorem ops16_sub : (ops16 : List (HloOp τ sig (Elt F))).Forall fun op => op.bufs ⊆ tcRefs τ sig :=
  nullary_bufs_sub ..
theorem ops16_fresh : (ops16 : List (HloOp τ sig (Elt F))).Forall fun op => op.fresh = ∅ :=
  rfl
theorem ops16_writes : (ops16 : List (HloOp τ sig (Elt F))).Forall fun op => op.writes ⊆ (W16.map (Proc.devRef (τ := τ) .tc)).toFinset :=
  writes_mem (y := main_c_6) (by decide)
/-- A buffer that stretch does not write keeps its contents across it. -/
theorem ops16_frame (V : Valuation τ sig (Elt F)) {r : Ref sig .tc} (h : r ∉ W16) :
    after ops16 V (no_index (Proc.devRef .tc r)) = V (Proc.devRef .tc r) :=
  after_of_writes_sub ops16 V ops16_writes h

theorem ops17_sub : (ops17 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops17_fresh : (ops17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem ops17_writes : (ops17 : List (HloOp τ sig (Elt F))).Forall fun op => op.writes ⊆ (W17.map (Proc.devRef (τ := τ) .tc)).toFinset :=
  ⟨writes_mem (y := main_call8_v0) (by decide), writes_mem (y := main_call8_c) (by decide), writes_mem (y := main_call8_v1) (by decide), writes_mem (y := main_call8_c_0) (by decide), writes_mem (y := main_call8_v2) (by decide), writes_mem (y := main_call8_v3) (by decide), writes_mem (y := main_call8_v4) (by decide), writes_mem (y := main_call8_c_1) (by decide), writes_mem (y := main_call8_v5) (by decide), writes_mem (y := main_call8_v6) (by decide), writes_mem (y := main_call8_c_2) (by decide), writes_mem (y := main_call8_v7) (by decide), writes_mem (y := main_call8_v8) (by decide), writes_mem (y := main_call8_c_3) (by decide), writes_mem (y := main_call8_v9) (by decide), writes_mem (y := main_call8_v10) (by decide), writes_mem (y := main_call8_v11) (by decide), writes_mem (y := main_call8_v12) (by decide), writes_mem (y := main_call8_v13) (by decide), writes_mem (y := main_call8_v14) (by decide), writes_mem (y := main_v35) (by decide)⟩
/-- A buffer that stretch does not write keeps its contents across it. -/
theorem ops17_frame (V : Valuation τ sig (Elt F)) {r : Ref sig .tc} (h : r ∉ W17) :
    after ops17 V (no_index (Proc.devRef .tc r)) = V (Proc.devRef .tc r) :=
  after_of_writes_sub ops17 V ops17_writes h

theorem ops18_sub : (ops18 : List (HloOp τ sig (Elt F))).Forall fun op => op.bufs ⊆ tcRefs τ sig :=
  nullary_bufs_sub ..
theorem ops18_fresh : (ops18 : List (HloOp τ sig (Elt F))).Forall fun op => op.fresh = ∅ :=
  rfl
theorem ops18_writes : (ops18 : List (HloOp τ sig (Elt F))).Forall fun op => op.writes ⊆ (W18.map (Proc.devRef (τ := τ) .tc)).toFinset :=
  writes_mem (y := main_c_7) (by decide)
/-- A buffer that stretch does not write keeps its contents across it. -/
theorem ops18_frame (V : Valuation τ sig (Elt F)) {r : Ref sig .tc} (h : r ∉ W18) :
    after ops18 V (no_index (Proc.devRef .tc r)) = V (Proc.devRef .tc r) :=
  after_of_writes_sub ops18 V ops18_writes h

theorem ops19_sub : (ops19 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops19_fresh : (ops19 : List (HloOp τ sig (Elt F))).Forall fun op => op.fresh = ∅ :=
  ⟨rfl, rfl, rfl, rfl, rfl, rfl, rfl, rfl, rfl, rfl, rfl, rfl, rfl, rfl, rfl, rfl⟩
theorem ops19_writes : (ops19 : List (HloOp τ sig (Elt F))).Forall fun op => op.writes ⊆ (W19.map (Proc.devRef (τ := τ) .tc)).toFinset :=
  ⟨writes_mem (y := main_call9_v0) (by decide), writes_mem (y := main_call9_v1) (by decide), writes_mem (y := main_call9_v2) (by decide), writes_mem (y := main_call9_v3) (by decide), writes_mem (y := main_call9_v4) (by decide), writes_mem (y := main_call9_v5) (by decide), writes_mem (y := main_call9_v6) (by decide), writes_mem (y := main_call9_v7) (by decide), writes_mem (y := main_call9_c) (by decide), writes_mem (y := main_call9_v8) (by decide), writes_mem (y := main_call9_v9) (by decide), writes_mem (y := main_call9_v10) (by decide), writes_mem (y := main_call9_c_0) (by decide), writes_mem (y := main_call9_v11) (by decide), writes_mem (y := main_call9_v12) (by decide), writes_mem (y := main_v36) (by decide)⟩
/-- A buffer that stretch does not write keeps its contents across it. -/
theorem ops19_frame (V : Valuation τ sig (Elt F)) {r : Ref sig .tc} (h : r ∉ W19) :
    after ops19 V (no_index (Proc.devRef .tc r)) = V (Proc.devRef .tc r) :=
  after_of_writes_sub ops19 V ops19_writes h

theorem ops20_sub : (ops20 : List (HloOp τ sig (Elt F))).Forall fun op => op.bufs ⊆ tcRefs τ sig :=
  nullary_bufs_sub ..
theorem ops20_fresh : (ops20 : List (HloOp τ sig (Elt F))).Forall fun op => op.fresh = ∅ :=
  rfl
theorem ops20_writes : (ops20 : List (HloOp τ sig (Elt F))).Forall fun op => op.writes ⊆ (W20.map (Proc.devRef (τ := τ) .tc)).toFinset :=
  writes_mem (y := main_c_8) (by decide)
/-- A buffer that stretch does not write keeps its contents across it. -/
theorem ops20_frame (V : Valuation τ sig (Elt F)) {r : Ref sig .tc} (h : r ∉ W20) :
    after ops20 V (no_index (Proc.devRef .tc r)) = V (Proc.devRef .tc r) :=
  after_of_writes_sub ops20 V ops20_writes h

theorem ops21_sub : (ops21 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops21_fresh : (ops21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem ops21_writes : (ops21 : List (HloOp τ sig (Elt F))).Forall fun op => op.writes ⊆ (W21.map (Proc.devRef (τ := τ) .tc)).toFinset :=
  ⟨writes_mem (y := main_call10_v0) (by decide), writes_mem (y := main_call10_c) (by decide), writes_mem (y := main_call10_v1) (by decide), writes_mem (y := main_call10_c_0) (by decide), writes_mem (y := main_call10_v2) (by decide), writes_mem (y := main_call10_v3) (by decide), writes_mem (y := main_call10_v4) (by decide), writes_mem (y := main_call10_c_1) (by decide), writes_mem (y := main_call10_v5) (by decide), writes_mem (y := main_call10_v6) (by decide), writes_mem (y := main_call10_c_2) (by decide), writes_mem (y := main_call10_v7) (by decide), writes_mem (y := main_call10_v8) (by decide), writes_mem (y := main_call10_c_3) (by decide), writes_mem (y := main_call10_v9) (by decide), writes_mem (y := main_call10_v10) (by decide), writes_mem (y := main_call10_v11) (by decide), writes_mem (y := main_call10_v12) (by decide), writes_mem (y := main_call10_v13) (by decide), writes_mem (y := main_call10_v14) (by decide), writes_mem (y := main_v37) (by decide)⟩
/-- A buffer that stretch does not write keeps its contents across it. -/
theorem ops21_frame (V : Valuation τ sig (Elt F)) {r : Ref sig .tc} (h : r ∉ W21) :
    after ops21 V (no_index (Proc.devRef .tc r)) = V (Proc.devRef .tc r) :=
  after_of_writes_sub ops21 V ops21_writes h

theorem ops22_sub : (ops22 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub ..⟩
theorem ops22_fresh : (ops22 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem ops22_writes : (ops22 : List (HloOp τ sig (Elt F))).Forall fun op => op.writes ⊆ (W22.map (Proc.devRef (τ := τ) .tc)).toFinset :=
  ⟨writes_mem (y := main_cst_9) (by decide), writes_mem (y := main_v38) (by decide), writes_mem (y := main_c_10) (by decide), writes_mem (y := main_v39) (by decide), writes_mem (y := main_v40) (by decide), writes_mem (y := main_c_11) (by decide), writes_mem (y := main_v41) (by decide), writes_mem (y := main_v42) (by decide), writes_mem (y := main_v43) (by decide), writes_mem (y := main_c_12) (by decide), writes_mem (y := main_v44) (by decide), writes_mem (y := main_v45) (by decide), writes_mem (y := main_c_13) (by decide), writes_mem (y := main_v46) (by decide), writes_mem (y := main_v47) (by decide), writes_mem (y := main_v48) (by decide), writes_mem (y := main_v49) (by decide), writes_mem (y := main_v50) (by decide), writes_mem (y := main_v51) (by decide), writes_mem (y := main_v52) (by decide), writes_mem (y := main_v53) (by decide)⟩
/-- A buffer that stretch does not write keeps its contents across it. -/
theorem ops22_frame (V : Valuation τ sig (Elt F)) {r : Ref sig .tc} (h : r ∉ W22) :
    after ops22 V (no_index (Proc.devRef .tc r)) = V (Proc.devRef .tc r) :=
  after_of_writes_sub ops22 V ops22_writes h

/-! ## The whole line -/

theorem ops_sub : (ops : List (HloOp τ sig (Elt F))).Forall fun op => op.bufs ⊆ tcRefs τ sig :=
  List.forall_append.mpr ⟨ops00_sub, List.forall_append.mpr ⟨ops01_sub, List.forall_append.mpr ⟨ops02_sub, List.forall_append.mpr ⟨ops03_sub, List.forall_append.mpr ⟨ops04_sub, List.forall_append.mpr ⟨ops05_sub, List.forall_append.mpr ⟨ops06_sub, List.forall_append.mpr ⟨ops07_sub, List.forall_append.mpr ⟨ops08_sub, List.forall_append.mpr ⟨ops09_sub, List.forall_append.mpr ⟨ops10_sub, List.forall_append.mpr ⟨ops11_sub, List.forall_append.mpr ⟨ops12_sub, List.forall_append.mpr ⟨ops13_sub, List.forall_append.mpr ⟨ops14_sub, List.forall_append.mpr ⟨ops15_sub, List.forall_append.mpr ⟨ops16_sub, List.forall_append.mpr ⟨ops17_sub, List.forall_append.mpr ⟨ops18_sub, List.forall_append.mpr ⟨ops19_sub, List.forall_append.mpr ⟨ops20_sub, List.forall_append.mpr ⟨ops21_sub, ops22_sub⟩⟩⟩⟩⟩⟩⟩⟩⟩⟩⟩⟩⟩⟩⟩⟩⟩⟩⟩⟩⟩⟩

theorem ops_fresh : ∀ op ∈ (ops : List (HloOp τ sig (Elt F))), op.fresh = ∅ :=
  List.forall_iff_forall_mem.mp (List.forall_append.mpr ⟨ops00_fresh, List.forall_append.mpr ⟨ops01_fresh, List.forall_append.mpr ⟨ops02_fresh, List.forall_append.mpr ⟨ops03_fresh, List.forall_append.mpr ⟨ops04_fresh, List.forall_append.mpr ⟨ops05_fresh, List.forall_append.mpr ⟨ops06_fresh, List.forall_append.mpr ⟨ops07_fresh, List.forall_append.mpr ⟨ops08_fresh, List.forall_append.mpr ⟨ops09_fresh, List.forall_append.mpr ⟨ops10_fresh, List.forall_append.mpr ⟨ops11_fresh, List.forall_append.mpr ⟨ops12_fresh, List.forall_append.mpr ⟨ops13_fresh, List.forall_append.mpr ⟨ops14_fresh, List.forall_append.mpr ⟨ops15_fresh, List.forall_append.mpr ⟨ops16_fresh, List.forall_append.mpr ⟨ops17_fresh, List.forall_append.mpr ⟨ops18_fresh, List.forall_append.mpr ⟨ops19_fresh, List.forall_append.mpr ⟨ops20_fresh, List.forall_append.mpr ⟨ops21_fresh, ops22_fresh⟩⟩⟩⟩⟩⟩⟩⟩⟩⟩⟩⟩⟩⟩⟩⟩⟩⟩⟩⟩⟩⟩)

/-- The fold of the whole line is the folds of the stretches, one after the other. -/
theorem after_ops (V : Valuation τ sig (Elt F)) :
    after ops V = after ops22 (after ops21 (after ops20 (after ops19 (after ops18 (after ops17 (after ops16 (after ops15 (after ops14 (after ops13 (after ops12 (after ops11 (after ops10 (after ops09 (after ops08 (after ops07 (after ops06 (after ops05 (after ops04 (after ops03 (after ops02 (after ops01 (after ops00 V)))))))))))))))))))))) := by
  simp only [after_append]

/-- At the compiled mesh, for any float values, from any memory with zero counters: every weakly fair execution of @main
    on the TensorCores terminates, and every final state has each TensorCore buffer at the operations' fold over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- An argument is written by no stretch: it keeps its launch contents. -/
theorem arg_kept (V : Valuation τ sig (Elt F)) {r : Ref sig .tc}
    (h : r ∉ W00 ∧ r ∉ W01 ∧ r ∉ W02 ∧ r ∉ W03 ∧ r ∉ W04 ∧ r ∉ W05 ∧ r ∉ W06 ∧ r ∉ W07 ∧ r ∉ W08 ∧ r ∉ W09 ∧ r ∉ W10 ∧ r ∉ W11 ∧ r ∉ W12 ∧ r ∉ W13 ∧ r ∉ W14 ∧ r ∉ W15 ∧ r ∉ W16 ∧ r ∉ W17 ∧ r ∉ W18 ∧ r ∉ W19 ∧ r ∉ W20 ∧ r ∉ W21 ∧ r ∉ W22) :
    after ops V (Proc.devRef .tc r) = V (Proc.devRef .tc r) := by
  obtain ⟨h0, h1, h2, h3, h4, h5, h6, h7, h8, h9, h10, h11, h12, h13, h14, h15, h16, h17, h18, h19, h20, h21, h22⟩ := h
  rw [after_ops, ops22_frame _ h22, ops21_frame _ h21, ops20_frame _ h20, ops19_frame _ h19, ops18_frame _ h18, ops17_frame _ h17, ops16_frame _ h16, ops15_frame _ h15, ops14_frame _ h14, ops13_frame _ h13, ops12_frame _ h12, ops11_frame _ h11, ops10_frame _ h10, ops09_frame _ h9, ops08_frame _ h8, ops07_frame _ h7, ops06_frame _ h6, ops05_frame _ h5, ops04_frame _ h4, ops03_frame _ h3, ops02_frame _ h2, ops01_frame _ h1, ops00_frame _ h0]

set_option synthInstance.maxSize 4096 in
/-- The run, at the result and the arguments: the result buffer ends at the fold of the 197 operations over the launch
    contents, and each of the seven arguments is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = after ops (launchContents m c) (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v53,
      (h c main_arg0).trans (arg_kept _ (by decide)),
      (h c main_arg1).trans (arg_kept _ (by decide)),
      (h c main_arg2).trans (arg_kept _ (by decide)),
      (h c main_arg3).trans (arg_kept _ (by decide)),
      (h c main_arg4).trans (arg_kept _ (by decide)),
      (h c main_arg5).trans (arg_kept _ (by decide)),
      (h c main_arg6).trans (arg_kept _ (by decide))⟩)
    (run_all m ρ)

end Cert.ReferenceIdeal.Value

end
-- ==== Proof.RefRun.lean ====
/-
  The reference's result read back as one composed term of its seven arguments.

  Each stretch of the line (one run of plain operations, or one function call with its nested calls inlined) is read
  on its own: from ANY contents `V`, the buffer the stretch produces for later stretches holds the stage's pure
  function of `V` at the buffers the stretch reads — the fold unrolled, each operation's result rewritten at its own
  buffer to its function's value and elsewhere to what was there, and what remains (the transports of a typed
  reference along an equation that is the identity at a literal reference) is an identity by computation.
  Chaining the stretches — a buffer a stretch does not write keeps its contents across it — gives the result buffer
  as the stages composed in program order, which is `Cert.RefStages.refTerm` of the arguments' contents by unfolding
  its definitions.
-/
import proofs.«153956_j18674517803680_1_alg».proof.Proof.RefRunOps
import proofs.«153956_j18674517803680_1_alg».proof.Proof.RefStages

noncomputable section

namespace Cert.ReferenceIdeal.Value

open Cert.ReferenceIdeal Cert.ReferenceIdeal.Gen Idealize.ShloMosaic Idealize.ShloMosaic.TcCoe Idealize.SL.Sem Idealize.ShloMosaic.StableHlo
open Cert.RefStages

variable {F : FTy → Type} [FloatOps F]

/-! ## The stretches, each from any contents -/

set_option maxHeartbeats 400000 in
/-- The first affine layer. -/
theorem ops00_main_v4 (V : Valuation τ sig (Elt F)) :
    after ops00 V (no_index (Proc.devRef .tc main_v4))
      = affine1 (V (Proc.devRef .tc main_arg0)) (V (Proc.devRef .tc main_arg1)) (V (Proc.devRef .tc main_arg2)) := by
  delta ops00
  after_results_simp
  rfl

set_option maxHeartbeats 400000 in
/-- The exponential linear unit at width 128. -/
theorem ops01_main_v5 (V : Valuation τ sig (Elt F)) :
    after ops01 V (no_index (Proc.devRef .tc main_v5))
      = elu128 (V (Proc.devRef .tc main_v4)) := by
  delta ops01
  after_results_simp
  rfl

set_option maxHeartbeats 400000 in
/-- The second affine layer. -/
theorem ops02_main_v10 (V : Valuation τ sig (Elt F)) :
    after ops02 V (no_index (Proc.devRef .tc main_v10))
      = affine2 (V (Proc.devRef .tc main_v5)) (V (Proc.devRef .tc main_arg3)) (V (Proc.devRef .tc main_arg4)) := by
  delta ops02
  after_results_simp
  rfl

set_option maxHeartbeats 400000 in
/-- The exponential linear unit at width 32. -/
theorem ops03_main_v11 (V : Valuation τ sig (Elt F)) :
    after ops03 V (no_index (Proc.devRef .tc main_v11))
      = elu32 (V (Proc.devRef .tc main_v10)) := by
  delta ops03
  after_results_simp
  rfl

set_option maxHeartbeats 400000 in
/-- The third affine layer. -/
theorem ops04_main_v16 (V : Valuation τ sig (Elt F)) :
    after ops04 V (no_index (Proc.devRef .tc main_v16))
      = affine3 (V (Proc.devRef .tc main_v11)) (V (Proc.devRef .tc main_arg5)) (V (Proc.devRef .tc main_arg6)) := by
  delta ops04
  after_results_simp
  rfl

set_option maxHeartbeats 400000 in
/-- The softplus at width 78. -/
theorem ops05_main_v17 (V : Valuation τ sig (Elt F)) :
    after ops05 V (no_index (Proc.devRef .tc main_v17))
      = softplus78 (V (Proc.devRef .tc main_v16)) := by
  delta ops05
  after_results_simp
  rfl

set_option maxHeartbeats 400000 in
/-- The 12 × 12 array of ones. -/
theorem ops06_main_v18 (V : Valuation τ sig (Elt F)) :
    after ops06 V (no_index (Proc.devRef .tc main_v18))
      = broadcastInDim S12x12 ![] bcast_S_S12x12 (constant S_ .f32 0x3F800000#32) := by
  delta ops06
  after_results_simp

set_option maxHeartbeats 400000 in
/-- The upper triangle zeroed. -/
theorem ops07_main_v19 (V : Valuation τ sig (Elt F)) :
    after ops07 V (no_index (Proc.devRef .tc main_v19))
      = select (cmpi .sge (addi (iotaInDim S12x12 32 0) (broadcastInDim S12x12 ![] bcast_S_S12x12 (constantI S_ 32 0#32))) (iotaInDim S12x12 32 1))
        (V (Proc.devRef .tc main_v18)) (broadcastInDim S12x12 ![] bcast_S_S12x12 (constant S_ .f32 0x00000000#32)) := by
  delta ops07
  after_results_simp
  rfl

set_option maxHeartbeats 400000 in
/-- The mask of nonzero cells. -/
theorem ops08_main_v21 (V : Valuation τ sig (Elt F)) :
    after ops08 V (no_index (Proc.devRef .tc main_v21))
      = cmpf .une (V (Proc.devRef .tc main_v19)) (broadcastInDim S12x12 ![] bcast_S_S12x12 (constant S_ .f32 0x00000000#32)) := by
  delta ops08
  after_results_simp

attribute [local irreducible] Host.reduceWindow in
set_option maxHeartbeats 400000 in
/-- The running count of mask cells over the flat positions. -/
theorem ops09_main_v22 (V : Valuation τ sig (Elt F)) :
    after ops09 V (no_index (Proc.devRef .tc main_v22))
      = Host.reduceWindow IntOp.addi ![144] ![1] ![143] ![0] (extui 32 (shapeCast S144 (V (Proc.devRef .tc main_v21)) shapeCasts_S12x12_S144) natLt_1_32)
        (broadcastInDim S_ ![] bcast_S_S_ (constantI S_ 32 0#32)) reduceWindows_S144_S144_w144s1p143_0 h_S_ := by
  delta ops09
  after_results_simp
  rfl

set_option maxHeartbeats 400000 in
/-- The 78 zero bins. -/
theorem ops10_main_v23 (V : Valuation τ sig (Elt F)) :
    after ops10 V (no_index (Proc.devRef .tc main_v23))
      = broadcastInDim S78 ![] bcast_S_S78 (constantI S_ 32 0#32) := by
  delta ops10
  after_results_simp

set_option maxHeartbeats 400000 in
/-- The lower clipping bound. -/
theorem ops10_main_c_1 (V : Valuation τ sig (Elt F)) :
    after ops10 V (no_index (Proc.devRef .tc main_c_1))
      = constantI S_ 32 0#32 := by
  delta ops10
  after_results_simp

set_option maxHeartbeats 400000 in
/-- The running count clipped below. -/
theorem ops11_main_v24 (V : Valuation τ sig (Elt F)) :
    after ops11 V (no_index (Proc.devRef .tc main_v24))
      = maxsi (broadcastInDim S144 ![] bcast_S_S144 (id (V (Proc.devRef .tc main_c_1)))) (V (Proc.devRef .tc main_v22)) := by
  delta ops11
  after_results_simp
  rfl

set_option maxHeartbeats 400000 in
/-- The flat positions counted into the bins. -/
theorem ops12_main_v32 (V : Valuation τ sig (Elt F)) :
    after ops12 V (no_index (Proc.devRef .tc main_v32))
      = Host.scatter scatter_S78_S144x1_S144_n_0_0_1 IntOp.addi (V (Proc.devRef .tc main_v23))
        (broadcastInDim S144x1 ![0] bcast_S144_S144x1_0
          (select (cmpi .slt (V (Proc.devRef .tc main_v24)) (broadcastInDim S144 ![] bcast_S_S144 (constantI S_ 32 0#32)))
            (addi (V (Proc.devRef .tc main_v24)) (broadcastInDim S144 ![] bcast_S_S144 (constantI S_ 32 78#32))) (V (Proc.devRef .tc main_v24))))
        (broadcastInDim S144 ![] bcast_S_S144 (constantI S_ 32 1#32)) := by
  delta ops12
  after_results_simp

attribute [local irreducible] Host.reduceWindow in
set_option maxHeartbeats 400000 in
/-- The running sum of the bin counts. -/
theorem ops13_main_v33 (V : Valuation τ sig (Elt F)) :
    after ops13 V (no_index (Proc.devRef .tc main_v33))
      = Host.reduceWindow IntOp.addi ![78] ![1] ![77] ![0] (V (Proc.devRef .tc main_v32))
        (broadcastInDim S_ ![] bcast_S_S_ (constantI S_ 32 0#32)) reduceWindows_S78_S78_w78s1p77_0 h_S_ := by
  delta ops13
  after_results_simp
  rfl

set_option maxHeartbeats 400000 in
/-- The divisor 12. -/
theorem ops14_main_c_5 (V : Valuation τ sig (Elt F)) :
    after ops14 V (no_index (Proc.devRef .tc main_c_5))
      = constantI S_ 32 12#32 := by
  delta ops14
  after_results_simp

set_option maxHeartbeats 400000 in
/-- Division rounding down, first call. -/
theorem ops15_main_v34 (V : Valuation τ sig (Elt F)) :
    after ops15 V (no_index (Proc.devRef .tc main_v34))
      = floorDiv (V (Proc.devRef .tc main_v33)) (V (Proc.devRef .tc main_c_5)) := by
  delta ops15
  after_results_simp
  rfl

set_option maxHeartbeats 400000 in
/-- The modulus 12. -/
theorem ops16_main_c_6 (V : Valuation τ sig (Elt F)) :
    after ops16 V (no_index (Proc.devRef .tc main_c_6))
      = constantI S_ 32 12#32 := by
  delta ops16
  after_results_simp

set_option maxHeartbeats 400000 in
/-- The remainder with the divisor's sign, first call. -/
theorem ops17_main_v35 (V : Valuation τ sig (Elt F)) :
    after ops17 V (no_index (Proc.devRef .tc main_v35))
      = floorMod (V (Proc.devRef .tc main_v34)) (V (Proc.devRef .tc main_c_6)) := by
  delta ops17
  after_results_simp
  rfl

set_option maxHeartbeats 400000 in
/-- The divisor 1. -/
theorem ops18_main_c_7 (V : Valuation τ sig (Elt F)) :
    after ops18 V (no_index (Proc.devRef .tc main_c_7))
      = constantI S_ 32 1#32 := by
  delta ops18
  after_results_simp

set_option maxHeartbeats 400000 in
/-- Division rounding down, second call. -/
theorem ops19_main_v36 (V : Valuation τ sig (Elt F)) :
    after ops19 V (no_index (Proc.devRef .tc main_v36))
      = floorDiv (V (Proc.devRef .tc main_v33)) (V (Proc.devRef .tc main_c_7)) := by
  delta ops19
  after_results_simp
  rfl

set_option maxHeartbeats 400000 in
/-- The modulus 12 again. -/
theorem ops20_main_c_8 (V : Valuation τ sig (Elt F)) :
    after ops20 V (no_index (Proc.devRef .tc main_c_8))
      = constantI S_ 32 12#32 := by
  delta ops20
  after_results_simp

set_option maxHeartbeats 400000 in
/-- The remainder, second call. -/
theorem ops21_main_v37 (V : Valuation τ sig (Elt F)) :
    after ops21 V (no_index (Proc.devRef .tc main_v37))
      = floorMod (V (Proc.devRef .tc main_v36)) (V (Proc.devRef .tc main_c_8)) := by
  delta ops21
  after_results_simp
  rfl

set_option maxHeartbeats 400000 in
/-- The wrap of the two index vectors, the table, the fill and the Gram matrix. -/
theorem ops22_main_v53 (V : Valuation τ sig (Elt F)) :
    after ops22 V (no_index (Proc.devRef .tc main_v53))
      = gramOf (fill (concatenate S78x2 1 [⟨S78x1, broadcastInDim S78x1 ![0] bcast_S78_S78x1_0 (wrap12 (V (Proc.devRef .tc main_v35)))⟩,
          ⟨S78x1, broadcastInDim S78x1 ![0] bcast_S78_S78x1_0 (wrap12 (V (Proc.devRef .tc main_v37)))⟩] concatenates_S78x1_S78x1_S78x2_d1) (V (Proc.devRef .tc main_v17))) := by
  delta ops22
  after_results_simp
  rfl

/-! ## The whole line -/

/-- The contents before the last stretch: the first twenty-two stretches run in order. -/
abbrev upTo21 (V : Valuation τ sig (Elt F)) : Valuation τ sig (Elt F) :=
  after ops21 (after ops20 (after ops19 (after ops18 (after ops17 (after ops16 (after ops15 (after ops14 (after ops13 (after ops12 (after ops11 (after ops10 (after ops09 (after ops08 (after ops07 (after ops06 (after ops05 (after ops04 (after ops03 (after ops02 (after ops01 (after ops00 V)))))))))))))))))))))

attribute [local irreducible] Host.reduceWindow Host.scatter in
set_option maxHeartbeats 1000000 in
/-- Before the last stretch the softplus buffer holds the 78 triangle entries of every row. -/
theorem upTo21_v17 (V : Valuation τ sig (Elt F)) :
    upTo21 V (Proc.devRef .tc main_v17) = triangle (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  delta upTo21
  simp (disch := decide) only [ops22_main_v53, ops21_main_v37, ops20_main_c_8, ops19_main_v36, ops18_main_c_7, ops17_main_v35, ops16_main_c_6, ops15_main_v34, ops14_main_c_5, ops13_main_v33, ops12_main_v32, ops11_main_v24, ops10_main_c_1, ops10_main_v23, ops09_main_v22, ops08_main_v21, ops07_main_v19, ops06_main_v18, ops05_main_v17, ops04_main_v16, ops03_main_v11, ops02_main_v10, ops01_main_v5, ops00_main_v4, ops00_frame, ops01_frame, ops02_frame, ops03_frame, ops04_frame, ops05_frame, ops06_frame, ops07_frame, ops08_frame, ops09_frame, ops10_frame, ops11_frame, ops12_frame, ops13_frame, ops14_frame, ops15_frame, ops16_frame, ops17_frame, ops18_frame, ops19_frame, ops20_frame, ops21_frame, ops22_frame]
  rfl

attribute [local irreducible] Host.reduceWindow Host.scatter in
set_option maxHeartbeats 1000000 in
/-- Before the last stretch the first remainder's buffer holds `(flat ÷ 12) mod 12`. -/
theorem upTo21_v35 (V : Valuation τ sig (Elt F)) :
    upTo21 V (Proc.devRef .tc main_v35) = floorMod (floorDiv (flatPos (F := F)) (constantI S_ 32 12#32)) (constantI S_ 32 12#32) := by
  delta upTo21
  simp (disch := decide) only [ops22_main_v53, ops21_main_v37, ops20_main_c_8, ops19_main_v36, ops18_main_c_7, ops17_main_v35, ops16_main_c_6, ops15_main_v34, ops14_main_c_5, ops13_main_v33, ops12_main_v32, ops11_main_v24, ops10_main_c_1, ops10_main_v23, ops09_main_v22, ops08_main_v21, ops07_main_v19, ops06_main_v18, ops05_main_v17, ops04_main_v16, ops03_main_v11, ops02_main_v10, ops01_main_v5, ops00_main_v4, ops00_frame, ops01_frame, ops02_frame, ops03_frame, ops04_frame, ops05_frame, ops06_frame, ops07_frame, ops08_frame, ops09_frame, ops10_frame, ops11_frame, ops12_frame, ops13_frame, ops14_frame, ops15_frame, ops16_frame, ops17_frame, ops18_frame, ops19_frame, ops20_frame, ops21_frame, ops22_frame]
  rfl

attribute [local irreducible] Host.reduceWindow Host.scatter in
set_option maxHeartbeats 1000000 in
/-- Before the last stretch the second remainder's buffer holds `(flat ÷ 1) mod 12`. -/
theorem upTo21_v37 (V : Valuation τ sig (Elt F)) :
    upTo21 V (Proc.devRef .tc main_v37) = floorMod (floorDiv (flatPos (F := F)) (constantI S_ 32 1#32)) (constantI S_ 32 12#32) := by
  delta upTo21
  simp (disch := decide) only [ops22_main_v53, ops21_main_v37, ops20_main_c_8, ops19_main_v36, ops18_main_c_7, ops17_main_v35, ops16_main_c_6, ops15_main_v34, ops14_main_c_5, ops13_main_v33, ops12_main_v32, ops11_main_v24, ops10_main_c_1, ops10_main_v23, ops09_main_v22, ops08_main_v21, ops07_main_v19, ops06_main_v18, ops05_main_v17, ops04_main_v16, ops03_main_v11, ops02_main_v10, ops01_main_v5, ops00_main_v4, ops00_frame, ops01_frame, ops02_frame, ops03_frame, ops04_frame, ops05_frame, ops06_frame, ops07_frame, ops08_frame, ops09_frame, ops10_frame, ops11_frame, ops12_frame, ops13_frame, ops14_frame, ops15_frame, ops16_frame, ops17_frame, ops18_frame, ops19_frame, ops20_frame, ops21_frame, ops22_frame]
  rfl

set_option maxHeartbeats 1000000 in
/-- The fold of the whole line at the result buffer: the last stretch's Gram matrix of the fill, at the table and the
    triangle entries the earlier stretches leave — the reference's term of the arguments' contents. -/
theorem after_ops_v53 (V : Valuation τ sig (Elt F)) :
    after ops V (Proc.devRef .tc main_v53) = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]
  exact (ops22_main_v53 (upTo21 V)).trans (by rw [upTo21_v35, upTo21_v37, upTo21_v17]; rfl)

/-- The run read back: every weakly fair execution of @main terminates with the result buffer at the reference's composed
    term of the arguments' launch contents, and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (after_ops_v53 _), (h c).2⟩) (run m ρ)

end Cert.ReferenceIdeal.Value

end
-- ==== Proof.lean ====
/-
  A small network sends each of 262144 rows of twelve numbers through three affine layers — with the exponential
  linear unit after the first two and the softplus after the third — to 78 positive numbers, writes them into the lower
  triangle of a 12 × 12 matrix `L` row by row, and returns the Gram matrix `L·Lᵀ`. The kernel does this 512 rows at a
  time, with the weights transposed beforehand, the triangle built by cutting the 78 numbers into runs of length
  1, 2, …, 12 and padding each with zeros; the reference does it for the whole batch at once, and finds the triangle's
  cells by computing, from constants, the table of the 78 cells `column ≤ row` and writing the numbers into a zero array
  at those cells.

  On the extended reals the two are the same function of the seven arguments (`Cert.Spec.G`): the affine layers differ
  in the order of their finite sums only; the kernel's `select(p > 0, p, eᵖ − 1)` is the reference's
  `select(p > 0, p, 1 · expm1(select(p > 0, 0, p)))`; both write the softplus as `max(p, 0) + log1p(exp(−|p − 0|))` behind
  a test `d ≠ d` that never holds; run `i` of the 78 numbers starts at `i(i+1)/2`, which is where the reference's table
  puts row `i`'s cells. No step needs an input to be finite, so the precondition is not used.

  The proof is in the modules imported here: `Spec` (the function `G`), `KernelLayers`, `KernelRows`, `KernelBody`,
  `KernelBlocks` (the kernel's result array is `G`), `RefStages`, `RefRun…` (the reference's run ends at the composition
  of its operations), `Tril…`, `ScatterSet` (the table of cells, and the fill read at an entry), `RefFloat` (that
  composition is `G`), and `Assemble` (the five claims from these).
-/
import proofs.«153956_j18674517803680_1_alg».proof.Defs
import proofs.«153956_j18674517803680_1_alg».proof.Proof.Assemble
import proofs.«153956_j18674517803680_1_alg».proof.Proof.KernelBodySpec
import proofs.«153956_j18674517803680_1_alg».proof.Proof.TrilFill
import proofs.«153956_j18674517803680_1_alg».proof.Proof.RefRun

noncomputable section

namespace Cert.Proof

/-- The reference's run, in the form the assembly takes it. -/
theorem ref_run : Cert.Assemble.RefRunSpec := fun m ρ => Cert.ReferenceIdeal.Value.run_term (F := Idealize.ShloMosaic.Ideal) m ρ

theorem claim : Cert.Claim :=
  Cert.Assemble.claim_of Cert.KernelValue.body_spec Cert.TrilFill.fill_trilTable_apply ref_run

end Cert.Proof

end
